-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128x64 .f32) (main_arg14 : FVec F S128x64 .f32) (main_arg15 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128x64 .f32) (main_arg14 : FVec F S128x64 .f32) (main_arg15 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : FVec F S128x64 .f32) (main_arg14 : FVec F S128x64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : FVec F S128x64 .f32) (main_arg14 : FVec F S128x64 .f32) (main_arg15 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 164
  | .vmem => 47
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128x64, .f32⟩
  | 14 => ⟨S128x64, .f32⟩
  | 15 => ⟨S64, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S1x128, .f32⟩
  | 42 => ⟨S100000x128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S100000x128, .f32⟩
  | 56 => ⟨S100000x128, .f32⟩
  | 57 => ⟨S100000x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S1x128, .f32⟩
  | 73 => ⟨S1x128, .f32⟩
  | 74 => ⟨S1x128, .f32⟩
  | 75 => ⟨S100000x128, .f32⟩
  | 76 => ⟨S_, .f32⟩
  | 77 => ⟨S1600000, .f32⟩
  | 78 => ⟨S_, .f32⟩
  | 79 => ⟨S100000, .f32⟩
  | 80 => ⟨S1600000x1, .i32⟩
  | 81 => ⟨S100000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S_, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S1x128, .f32⟩
  | 102 => ⟨S100000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S100000x128, .f32⟩
  | 116 => ⟨S100000x128, .f32⟩
  | 117 => ⟨S100000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S100000x128, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S1x128, .f32⟩
  | 5 => ⟨S1x128, .f32⟩
  | 6 => ⟨S1x128, .f32⟩
  | 7 => ⟨S100000x128, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S_, .f32⟩
  | 28 => ⟨S100000, .f32⟩
  | 29 => ⟨S100000, .f32⟩
  | 30 => ⟨S100000x1, .f32⟩
  | 31 => ⟨S100000x128, .f32⟩
  | 32 => ⟨S100000x128, .f32⟩
  | 33 => ⟨S1x64, .f32⟩
  | 34 => ⟨S100000x64, .f32⟩
  | 35 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x64, .f32⟩
  | .local _ .vmem, ⟨39, _⟩ => ⟨S128x64, .f32⟩
  | .local _ .vmem, ⟨40, _⟩ => ⟨S1x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_7 : Ref sig .tc := ⟨.hbm, 76, rfl⟩
abbrev main_v30 : Ref sig .tc := ⟨.hbm, 77, rfl⟩
abbrev main_cst_8 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_c_9 : Ref sig .tc := ⟨.hbm, 82, rfl⟩
abbrev main_v34 : Ref sig .tc := ⟨.hbm, 83, rfl⟩
abbrev main_v35 : Ref sig .tc := ⟨.hbm, 84, rfl⟩
abbrev main_c_10 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_11 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_cst_12 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_13 : Ref sig .tc := ⟨.hbm, 103, rfl⟩
abbrev main_v51 : Ref sig .tc := ⟨.hbm, 104, rfl⟩
abbrev main_cst_14 : Ref sig .tc := ⟨.hbm, 105, rfl⟩
abbrev main_v52 : Ref sig .tc := ⟨.hbm, 106, rfl⟩
abbrev main_v53 : Ref sig .tc := ⟨.hbm, 107, rfl⟩
abbrev main_c_15 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_cst_0 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_cst_1 : Ref sig .tc := ⟨.hbm, 119, rfl⟩
abbrev main_call1_v8 : Ref sig .tc := ⟨.hbm, 120, rfl⟩
abbrev main_call1_cst_2 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_call1_cst_3 : Ref sig .tc := ⟨.hbm, 125, rfl⟩
abbrev main_call1_v12 : Ref sig .tc := ⟨.hbm, 126, rfl⟩
abbrev main_call1_cst_4 : Ref sig .tc := ⟨.hbm, 127, rfl⟩
abbrev main_call1_call0_v0 : Ref sig .tc := ⟨.hbm, 128, rfl⟩
abbrev main_call1_call0_v1 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_cst_16 : Ref sig .tc := ⟨.hbm, 136, rfl⟩
abbrev main_v60 : Ref sig .tc := ⟨.hbm, 137, rfl⟩
abbrev main_cst_17 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_c_18 : Ref sig .tc := ⟨.hbm, 142, rfl⟩
abbrev main_v64 : Ref sig .tc := ⟨.hbm, 143, rfl⟩
abbrev main_v65 : Ref sig .tc := ⟨.hbm, 144, rfl⟩
abbrev main_c_19 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_cst_20 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_cst_21 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem1_1 : DmaSem sig := 46

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v80) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v80) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S5000x64.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 218
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128x64, .f32⟩
  | 14 => ⟨S128x64, .f32⟩
  | 15 => ⟨S64, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S_, .f32⟩
  | 95 => ⟨S1600000, .f32⟩
  | 96 => ⟨S_, .f32⟩
  | 97 => ⟨S100000, .f32⟩
  | 98 => ⟨S1600000x1, .i32⟩
  | 99 => ⟨S100000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S128, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S100000x128, .f32⟩
  | 10 => ⟨S100000x128, .f32⟩
  | 11 => ⟨S100000x128, .f32⟩
  | 12 => ⟨S_, .f32⟩
  | 13 => ⟨S_, .f32⟩
  | 14 => ⟨S_, .f32⟩
  | 15 => ⟨S_, .f32⟩
  | 16 => ⟨S128, .f32⟩
  | 17 => ⟨S128, .f32⟩
  | 18 => ⟨S128, .f32⟩
  | 19 => ⟨S_, .f32⟩
  | 20 => ⟨S_, .i1⟩
  | 21 => ⟨S_, .f32⟩
  | 22 => ⟨S_, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S_, .f32⟩
  | 29 => ⟨S128, .f32⟩
  | 30 => ⟨S128, .f32⟩
  | 31 => ⟨S128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S_, .f32⟩
  | 45 => ⟨S1600000, .f32⟩
  | 46 => ⟨S_, .f32⟩
  | 47 => ⟨S100000, .f32⟩
  | 48 => ⟨S1600000x1, .i32⟩
  | 49 => ⟨S100000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S_, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S100000x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x64, .f32⟩
  | 82 => ⟨S100000x64, .f32⟩
  | 83 => ⟨S100000x64, .f32⟩
  | 84 => ⟨S_, .f32⟩
  | 85 => ⟨S100000, .f32⟩
  | 86 => ⟨S100000x1, .f32⟩
  | 87 => ⟨S100000x1, .f32⟩
  | 88 => ⟨S100000x64, .f32⟩
  | 89 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_7 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_call1_cst : Ref sig .tc := ⟨.hbm, 91, rfl⟩
abbrev main_call1_v0 : Ref sig .tc := ⟨.hbm, 92, rfl⟩
abbrev main_v44 : Ref sig .tc := ⟨.hbm, 93, rfl⟩
abbrev main_cst_8 : Ref sig .tc := ⟨.hbm, 94, rfl⟩
abbrev main_v45 : Ref sig .tc := ⟨.hbm, 95, rfl⟩
abbrev main_cst_9 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_c_10 : Ref sig .tc := ⟨.hbm, 100, rfl⟩
abbrev main_v49 : Ref sig .tc := ⟨.hbm, 101, rfl⟩
abbrev main_v50 : Ref sig .tc := ⟨.hbm, 102, rfl⟩
abbrev main_c_11 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_12 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_13 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_14 : Ref sig .tc := ⟨.hbm, 125, rfl⟩
abbrev main_v70 : Ref sig .tc := ⟨.hbm, 126, rfl⟩
abbrev main_cst_15 : Ref sig .tc := ⟨.hbm, 127, rfl⟩
abbrev main_v71 : Ref sig .tc := ⟨.hbm, 128, rfl⟩
abbrev main_v72 : Ref sig .tc := ⟨.hbm, 129, rfl⟩
abbrev main_c_16 : Ref sig .tc := ⟨.hbm, 130, rfl⟩
abbrev main_call2_cst : Ref sig .tc := ⟨.hbm, 131, rfl⟩
abbrev main_call2_v0 : Ref sig .tc := ⟨.hbm, 132, rfl⟩
abbrev main_call2_v1 : Ref sig .tc := ⟨.hbm, 133, rfl⟩
abbrev main_call2_cst_0 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_v5 : Ref sig .tc := ⟨.hbm, 138, rfl⟩
abbrev main_call2_v6 : Ref sig .tc := ⟨.hbm, 139, rfl⟩
abbrev main_call2_v7 : Ref sig .tc := ⟨.hbm, 140, rfl⟩
abbrev main_call2_cst_1 : Ref sig .tc := ⟨.hbm, 141, rfl⟩
abbrev main_call2_v8 : Ref sig .tc := ⟨.hbm, 142, rfl⟩
abbrev main_call2_cst_2 : Ref sig .tc := ⟨.hbm, 143, rfl⟩
abbrev main_call2_v9 : Ref sig .tc := ⟨.hbm, 144, rfl⟩
abbrev main_call2_v10 : Ref sig .tc := ⟨.hbm, 145, rfl⟩
abbrev main_call2_v11 : Ref sig .tc := ⟨.hbm, 146, rfl⟩
abbrev main_call2_cst_3 : Ref sig .tc := ⟨.hbm, 147, rfl⟩
abbrev main_call2_v12 : Ref sig .tc := ⟨.hbm, 148, rfl⟩
abbrev main_call2_cst_4 : Ref sig .tc := ⟨.hbm, 149, rfl⟩
abbrev main_call2_call0_v0 : Ref sig .tc := ⟨.hbm, 150, rfl⟩
abbrev main_call2_call0_v1 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_cst_17 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_call3_cst : Ref sig .tc := ⟨.hbm, 169, rfl⟩
abbrev main_call3_v0 : Ref sig .tc := ⟨.hbm, 170, rfl⟩
abbrev main_v89 : Ref sig .tc := ⟨.hbm, 171, rfl⟩
abbrev main_cst_18 : Ref sig .tc := ⟨.hbm, 172, rfl⟩
abbrev main_v90 : Ref sig .tc := ⟨.hbm, 173, rfl⟩
abbrev main_cst_19 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_c_20 : Ref sig .tc := ⟨.hbm, 178, rfl⟩
abbrev main_v94 : Ref sig .tc := ⟨.hbm, 179, rfl⟩
abbrev main_v95 : Ref sig .tc := ⟨.hbm, 180, rfl⟩
abbrev main_c_21 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_22 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_23 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_call4_cst : Ref sig .tc := ⟨.hbm, 203, rfl⟩
abbrev main_call4_v0 : Ref sig .tc := ⟨.hbm, 204, rfl⟩
abbrev main_call4_cst_0 : Ref sig .tc := ⟨.hbm, 205, rfl⟩
abbrev main_call4_v1 : Ref sig .tc := ⟨.hbm, 206, rfl⟩
abbrev main_call4_v2 : Ref sig .tc := ⟨.hbm, 207, rfl⟩
abbrev main_call4_v3 : Ref sig .tc := ⟨.hbm, 208, rfl⟩
abbrev main_call4_v4 : Ref sig .tc := ⟨.hbm, 209, rfl⟩
abbrev main_call4_v5 : Ref sig .tc := ⟨.hbm, 210, rfl⟩
abbrev main_call4_v6 : Ref sig .tc := ⟨.hbm, 211, rfl⟩
abbrev main_call4_cst_1 : Ref sig .tc := ⟨.hbm, 212, rfl⟩
abbrev main_call4_v7 : Ref sig .tc := ⟨.hbm, 213, rfl⟩
abbrev main_call4_v8 : Ref sig .tc := ⟨.hbm, 214, rfl⟩
abbrev main_call4_v9 : Ref sig .tc := ⟨.hbm, 215, rfl⟩
abbrev main_call4_v10 : Ref sig .tc := ⟨.hbm, 216, rfl⟩
abbrev main_v115 : Ref sig .tc := ⟨.hbm, 217, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The kernel program's run with its result named: every weakly fair execution ends with the result array holding what
  the last region's write-backs leave of it, and the argument arrays as launched.
-/
import proofs.«142724_j51462298140964_1_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result array ends at the contents the sixth region leaves, the arguments as
    launched. -/
theorem run_named : θ_run defs (onTc (τ := τ) (main (F := F))) ⟨m, fun _ => 0, ρ⟩ (fun r => ∀ c : Dev nD,
      r.2.mem ((c.tc : Thread nD τ).loc main_v81) = W15 m ρ c (Proc.devRef .tc main_v81)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v81 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c)⟩)

end Cert.Sage.KRun

end
-- ==== Proof.Spec.lean ====
/-
  A three-layer mean-aggregation graph network, layer by layer, as functions of whole arrays read entry by entry on
  the extended reals.

  One layer's linear combine: entry (r, c) is  Σ_k h(r,k)·Wself(k,c) + Σ_k agg(r,k)·Wneigh(k,c) + b(c),  the bias a
  one-row matrix. Batch normalisation followed by the rectifier: entry (r, c) is
  max( (pre(r,c) − μ(c)) · rsqrt(σ²(c) + ε) · γ(c) + β(c), 0 ),  the four per-column vectors one-row matrices and ε the
  single-precision word 0x3727C5AC. The log-softmax of a row: with M(r) the maximum of row r (a fold of max from −∞),
  entry (r, c) is  (h(r,c) − M(r)) − log Σ_j exp(h(r,j) − M(r)).
-/
import Idealize.ShloMosaic.Lib.ValueIdx
import Idealize.ShloMosaic.PureOps.Ideal.Laws

noncomputable section

namespace Cert.Sage

open Idealize.ShloMosaic Idealize.ShloMosaic.ValueIdx

variable {N K M : ℕ}

/-- The linear combine of one layer at row `r`, column `c`. -/
def linAt (h agg : FVec Ideal ⟨2, ![N, K]⟩ .f32) (ws wn : FVec Ideal ⟨2, ![K, M]⟩ .f32)
    (b : FVec Ideal ⟨2, ![1, M]⟩ .f32) (r : Fin N) (c : Fin M) : EReal :=
  ((∑ k : Fin K, h (ix2 r k) * ws (ix2 k c)) + ∑ k : Fin K, agg (ix2 r k) * wn (ix2 k c)) + b (ix2 (0 : Fin 1) c)

/-- The linear combine of one layer, as a whole array. -/
def lin (h agg : FVec Ideal ⟨2, ![N, K]⟩ .f32) (ws wn : FVec Ideal ⟨2, ![K, M]⟩ .f32)
    (b : FVec Ideal ⟨2, ![1, M]⟩ .f32) : FVec Ideal ⟨2, ![N, M]⟩ .f32 :=
  fun i => linAt h agg ws wn b (i 0) (i 1)

theorem lin_ix2 (h agg : FVec Ideal ⟨2, ![N, K]⟩ .f32) (ws wn : FVec Ideal ⟨2, ![K, M]⟩ .f32)
    (b : FVec Ideal ⟨2, ![1, M]⟩ .f32) (r : Fin N) (c : Fin M) :
    lin h agg ws wn b (ix2 r c) = linAt h agg ws wn b r c := rfl

/-- Batch normalisation with given per-column mean and variance, then the rectifier, at row `r`, column `c`. -/
def bnAt (pre : FVec Ideal ⟨2, ![N, M]⟩ .f32) (mu var g be : FVec Ideal ⟨2, ![1, M]⟩ .f32) (r : Fin N) (c : Fin M) : EReal :=
  max ((pre (ix2 r c) - mu (ix2 (0 : Fin 1) c)) * Ideal.rsqrt (var (ix2 (0 : Fin 1) c) + Ideal.ofBits .f32 0x3727C5AC#32)
      * g (ix2 (0 : Fin 1) c) + be (ix2 (0 : Fin 1) c)) (Ideal.ofBits .f32 0x00000000#32)

/-- Batch normalisation then the rectifier, as a whole array. -/
def bn (pre : FVec Ideal ⟨2, ![N, M]⟩ .f32) (mu var g be : FVec Ideal ⟨2, ![1, M]⟩ .f32) : FVec Ideal ⟨2, ![N, M]⟩ .f32 :=
  fun i => bnAt pre mu var g be (i 0) (i 1)

theorem bn_ix2 (pre : FVec Ideal ⟨2, ![N, M]⟩ .f32) (mu var g be : FVec Ideal ⟨2, ![1, M]⟩ .f32) (r : Fin N) (c : Fin M) :
    bn pre mu var g be (ix2 r c) = bnAt pre mu var g be r c := rfl

/-- The maximum of row `r`: the fold of max over the row's entries, from −∞ (the word 0xFF800000). -/
def rowMax (h : FVec Ideal ⟨2, ![N, M]⟩ .f32) (r : Fin N) : EReal :=
  (Finset.univ : Finset (Fin M)).fold max (Ideal.ofBits .f32 0xFF800000#32) (fun j => h (ix2 r j))

/-- The log-softmax of row `r` at column `c`. -/
def lsmAt (h : FVec Ideal ⟨2, ![N, M]⟩ .f32) (r : Fin N) (c : Fin M) : EReal :=
  (h (ix2 r c) - rowMax h r) - Ideal.log (∑ j : Fin M, Ideal.exp (h (ix2 r j) - rowMax h r))

/-- The row-wise log-softmax, as a whole array. -/
def lsm (h : FVec Ideal ⟨2, ![N, M]⟩ .f32) : FVec Ideal ⟨2, ![N, M]⟩ .f32 :=
  fun i => lsmAt h (i 0) (i 1)

theorem lsm_ix2 (h : FVec Ideal ⟨2, ![N, M]⟩ .f32) (r : Fin N) (c : Fin M) : lsm h (ix2 r c) = lsmAt h r c := rfl

end Cert.Sage

end
-- ==== Proof.KShared.lean ====
/-
  The host-side pieces shared by the three layers, as functions of whole arrays on the extended reals.

  Mean aggregation: every edge e carries row src(e) of h to node dst(e); node n receives the sum of the rows sent to it,
  divided by max(deg(n), 1) where deg(n) counts the edges arriving at n (negative source numbers count from the end).
  Column mean and column variance of a matrix over its 100000 rows (the variance with its degrees-of-freedom guard).
  A vector seen as a one-row matrix.
-/
import proofs.«142724_j51462298140964_1_alg».proof.Proof.Gen.KernelIdeal
import Idealize.ShloMosaic.PureOps.Ideal

noncomputable section

namespace Cert.Sage

open Idealize.ShloMosaic Cert.KernelIdeal Cert.KernelIdeal.Facts₀

/-- Mean aggregation of the rows of `h` along the edges `src → dst`. -/
def agg (h : (⟨S100000x128, .f32⟩ : BufTy).Contents (Elt Ideal)) (src dst : (⟨S1600000, .i32⟩ : BufTy).Contents (Elt Ideal)) :
    (⟨S100000x128, .f32⟩ : BufTy).Contents (Elt Ideal) :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

/-- The column means of `pre`: the column sums divided by 100000. -/
def meanv (pre : (⟨S100000x128, .f32⟩ : BufTy).Contents (Elt Ideal)) : (⟨S128, .f32⟩ : BufTy).Contents (Elt Ideal) :=
  Host.divf (Host.reduceAdd pre (constant (F := Ideal) S_ .f32 0x00000000#32) reducesTo_S100000x128_S128_d0 h_S_)
    (broadcastInDim S128 ![] bcast_S_S128 (constant (F := Ideal) S_ .f32 0x47C35000#32))

/-- The column variances of `pre` with `ddof` degrees of freedom removed: the column sums of the squared deviations from
    the column means, divided by 100000 − ddof, kept where that divisor is positive. -/
def varvOf (pre : (⟨S100000x128, .f32⟩ : BufTy).Contents (Elt Ideal)) (ddof : (⟨S_, .i32⟩ : BufTy).Contents (Elt Ideal)) :
    (⟨S128, .f32⟩ : BufTy).Contents (Elt Ideal) :=
  let d : (⟨S_, .f32⟩ : BufTy).Contents (Elt Ideal) :=
    subf (constant (F := Ideal) S_ .f32 0x47C35000#32) (sitofp .f32 ddof)
  let dev : (⟨S100000x128, .f32⟩ : BufTy).Contents (Elt Ideal) :=
    subf pre (broadcastInDim S100000x128 ![0, 1] bcast_S1x128_S100000x128_0_1
      (Host.divf (broadcastInDim S1x128 ![1] bcast_S128_S1x128_1
          (Host.reduceAdd pre (constant (F := Ideal) S_ .f32 0x00000000#32) reducesTo_S100000x128_S128_d0 h_S_))
        (broadcastInDim S1x128 ![] bcast_S_S1x128 (constant (F := Ideal) S_ .f32 0x47C35000#32))))
  select (broadcastInDim S128 ![] bcast_S_S128 (cmpf .ogt d (constant (F := Ideal) S_ .f32 0x00000000#32)))
    (Host.divf (Host.reduceAdd (mulf dev dev) (constant (F := Ideal) S_ .f32 0x00000000#32) reducesTo_S100000x128_S128_d0 h_S_)
      (broadcastInDim S128 ![] bcast_S_S128 d))
    (broadcastInDim S128 ![] bcast_S_S128 (id (constant (F := Ideal) S_ .f32 0x7FC00000#32)))

/-- The column variances with no degree of freedom removed. -/
def varv (pre : (⟨S100000x128, .f32⟩ : BufTy).Contents (Elt Ideal)) : (⟨S128, .f32⟩ : BufTy).Contents (Elt Ideal) :=
  varvOf pre (constantI S_ 32 0#32)

/-- A vector of 128 entries as a 1×128 matrix. -/
def row128 (v : (⟨S128, .f32⟩ : BufTy).Contents (Elt Ideal)) : (⟨S1x128, .f32⟩ : BufTy).Contents (Elt Ideal) :=
  shapeCast S1x128 v shapeCasts_S128_S1x128

/-- A vector of 64 entries as a 1×64 matrix. -/
def row64 (v : (⟨S64, .f32⟩ : BufTy).Contents (Elt Ideal)) : (⟨S1x64, .f32⟩ : BufTy).Contents (Elt Ideal) :=
  shapeCast S1x64 v shapeCasts_S64_S1x64

end Cert.Sage

end
-- ==== Proof.Net.lean ====
/-
  The three-layer network as one function of its sixteen argument arrays on the extended reals: two hidden layers (mean
  aggregation, linear combine, batch normalisation over the rows, rectifier) and an output layer (mean aggregation,
  linear combine to 64 columns, row-wise log-softmax).
-/
import proofs.«142724_j51462298140964_1_alg».proof.Proof.Spec
import proofs.«142724_j51462298140964_1_alg».proof.Proof.KShared

noncomputable section

namespace Cert.Sage

open Idealize.ShloMosaic Cert.KernelIdeal Cert.KernelIdeal.Facts₀

/-- One hidden layer: mean aggregation, linear combine, batch normalisation over the rows, rectifier. -/
def hidden (h : (⟨S100000x128, .f32⟩ : BufTy).Contents (Elt Ideal)) (src dst : (⟨S1600000, .i32⟩ : BufTy).Contents (Elt Ideal))
    (ws wn : (⟨S128x128, .f32⟩ : BufTy).Contents (Elt Ideal)) (b g be : (⟨S128, .f32⟩ : BufTy).Contents (Elt Ideal)) :
    (⟨S100000x128, .f32⟩ : BufTy).Contents (Elt Ideal) :=
  bn (N := 100000) (M := 128) (lin (N := 100000) (K := 128) (M := 128) h (agg h src dst) ws wn (row128 b))
    (row128 (meanv (lin (N := 100000) (K := 128) (M := 128) h (agg h src dst) ws wn (row128 b))))
    (row128 (varv (lin (N := 100000) (K := 128) (M := 128) h (agg h src dst) ws wn (row128 b))))
    (row128 g) (row128 be)

/-- The output layer: mean aggregation, linear combine to 64 columns, row-wise log-softmax. -/
def output (h : (⟨S100000x128, .f32⟩ : BufTy).Contents (Elt Ideal)) (src dst : (⟨S1600000, .i32⟩ : BufTy).Contents (Elt Ideal))
    (ws wn : (⟨S128x64, .f32⟩ : BufTy).Contents (Elt Ideal)) (b : (⟨S64, .f32⟩ : BufTy).Contents (Elt Ideal)) :
    (⟨S100000x64, .f32⟩ : BufTy).Contents (Elt Ideal) :=
  lsm (N := 100000) (M := 64) (lin (N := 100000) (K := 128) (M := 64) h (agg h src dst) ws wn (row64 b))

/-- The three-layer network on the extended reals. -/
def net (x : (⟨S100000x128, .f32⟩ : BufTy).Contents (Elt Ideal)) (src dst : (⟨S1600000, .i32⟩ : BufTy).Contents (Elt Ideal))
    (ws0 wn0 : (⟨S128x128, .f32⟩ : BufTy).Contents (Elt Ideal)) (b0 g0 be0 : (⟨S128, .f32⟩ : BufTy).Contents (Elt Ideal))
    (ws1 wn1 : (⟨S128x128, .f32⟩ : BufTy).Contents (Elt Ideal)) (b1 g1 be1 : (⟨S128, .f32⟩ : BufTy).Contents (Elt Ideal))
    (ws2 wn2 : (⟨S128x64, .f32⟩ : BufTy).Contents (Elt Ideal)) (b2 : (⟨S64, .f32⟩ : BufTy).Contents (Elt Ideal)) :
    (⟨S100000x64, .f32⟩ : BufTy).Contents (Elt Ideal) :=
  output (hidden (hidden x src dst ws0 wn0 b0 g0 be0) src dst ws1 wn1 b1 g1 be1) src dst ws2 wn2 b2

end Cert.Sage

end
-- ==== Proof.KHost.lean ====
/-
  The host operations between the regions of the kernel program, read back stretch by stretch over arbitrary buffer
  contents: each stretch's results as the shared functions (mean aggregation, column mean, column variance, a vector as a
  one-row matrix) of the buffers it reads.
-/
import proofs.«142724_j51462298140964_1_alg».proof.Proof.KShared
import proofs.«142724_j51462298140964_1_alg».proof.Proof.Gen.KernelIdeal.Launch
import Idealize.ShloMosaic.Lib.StableHlo.Run

noncomputable section

namespace Cert.Sage.K

open Idealize.ShloMosaic Idealize.ShloMosaic.StableHlo Cert.KernelIdeal Cert.KernelIdeal.Gen Cert.KernelIdeal.Facts₀

variable (V : Valuation τ sig (Elt Ideal))

attribute [local irreducible] Host.scatterAdd Host.gather in
/-- The mean aggregation before the first linear region, read off the stretch of host operations. -/
theorem hostOps0_agg : after (hostOps0 (F := Ideal)) V (Proc.devRef .tc main_v18)
    = agg (V (Proc.devRef .tc main_arg0)) (V (Proc.devRef .tc main_arg1)) (V (Proc.devRef .tc main_arg2)) := by
  after_results_simp
  rfl

/-- The bias of the first linear region as a one-row matrix. -/
theorem hostOps0_row : after (hostOps0 (F := Ideal)) V (Proc.devRef .tc main_v19) = row128 (V (Proc.devRef .tc main_arg5)) := by
  after_results_simp
  rfl

attribute [local irreducible] Host.scatterAdd Host.gather in
/-- The mean aggregation before the second linear region, read off the stretch of host operations. -/
theorem hostOps2_agg : after (hostOps2 (F := Ideal)) V (Proc.devRef .tc main_v48)
    = agg (V (Proc.devRef .tc main_v29)) (V (Proc.devRef .tc main_arg1)) (V (Proc.devRef .tc main_arg2)) := by
  after_results_simp
  rfl

/-- The bias of the second linear region as a one-row matrix. -/
theorem hostOps2_row : after (hostOps2 (F := Ideal)) V (Proc.devRef .tc main_v49) = row128 (V (Proc.devRef .tc main_arg10)) := by
  after_results_simp
  rfl

attribute [local irreducible] Host.scatterAdd Host.gather in
/-- The mean aggregation before the third linear region, read off the stretch of host operations. -/
theorem hostOps4_agg : after (hostOps4 (F := Ideal)) V (Proc.devRef .tc main_v78)
    = agg (V (Proc.devRef .tc main_v59)) (V (Proc.devRef .tc main_arg1)) (V (Proc.devRef .tc main_arg2)) := by
  after_results_simp
  rfl

/-- The bias of the third linear region as a one-row matrix. -/
theorem hostOps4_row : after (hostOps4 (F := Ideal)) V (Proc.devRef .tc main_v79) = row64 (V (Proc.devRef .tc main_arg15)) := by
  after_results_simp
  rfl

attribute [local irreducible] Host.reduceAdd in
/-- The column means before the first normalisation. -/
theorem hostOps1_mean : after (hostOps1 (F := Ideal)) V (Proc.devRef .tc main_v23) = meanv (V (Proc.devRef .tc main_v20)) := by
  after_results_simp
  rfl

/-- The degrees-of-freedom word handed to the variance. -/
theorem hostOps1_ddof : after (hostOps1 (F := Ideal)) V (Proc.devRef .tc main_c_6) = constantI S_ 32 0#32 := by
  after_results_simp

attribute [local irreducible] Host.reduceAdd in
/-- The column variances before the first normalisation. -/
theorem hostOps1_1_var : after (hostOps1_1 (F := Ideal)) V (Proc.devRef .tc main_v24)
    = varvOf (V (Proc.devRef .tc main_v20)) (V (Proc.devRef .tc main_c_6)) := by
  after_results_simp
  rfl

theorem hostOps1_2_r1 : after (hostOps1_2 (F := Ideal)) V (Proc.devRef .tc main_v25) = row128 (V (Proc.devRef .tc main_v23)) := by
  after_results_simp
  rfl
theorem hostOps1_2_r2 : after (hostOps1_2 (F := Ideal)) V (Proc.devRef .tc main_v26) = row128 (V (Proc.devRef .tc main_v24)) := by
  after_results_simp
  rfl
theorem hostOps1_2_r3 : after (hostOps1_2 (F := Ideal)) V (Proc.devRef .tc main_v27) = row128 (V (Proc.devRef .tc main_arg6)) := by
  after_results_simp
  rfl
theorem hostOps1_2_r4 : after (hostOps1_2 (F := Ideal)) V (Proc.devRef .tc main_v28) = row128 (V (Proc.devRef .tc main_arg7)) := by
  after_results_simp
  rfl

attribute [local irreducible] Host.reduceAdd in
/-- The column means before the second normalisation. -/
theorem hostOps3_mean : after (hostOps3 (F := Ideal)) V (Proc.devRef .tc main_v53) = meanv (V (Proc.devRef .tc main_v50)) := by
  after_results_simp
  rfl

/-- The degrees-of-freedom word handed to the variance. -/
theorem hostOps3_ddof : after (hostOps3 (F := Ideal)) V (Proc.devRef .tc main_c_15) = constantI S_ 32 0#32 := by
  after_results_simp

attribute [local irreducible] Host.reduceAdd in
/-- The column variances before the second normalisation. -/
theorem hostOps3_1_var : after (hostOps3_1 (F := Ideal)) V (Proc.devRef .tc main_v54)
    = varvOf (V (Proc.devRef .tc main_v50)) (V (Proc.devRef .tc main_c_15)) := by
  after_results_simp
  rfl

theorem hostOps3_2_r1 : after (hostOps3_2 (F := Ideal)) V (Proc.devRef .tc main_v55) = row128 (V (Proc.devRef .tc main_v53)) := by
  after_results_simp
  rfl
theorem hostOps3_2_r2 : after (hostOps3_2 (F := Ideal)) V (Proc.devRef .tc main_v56) = row128 (V (Proc.devRef .tc main_v54)) := by
  after_results_simp
  rfl
theorem hostOps3_2_r3 : after (hostOps3_2 (F := Ideal)) V (Proc.devRef .tc main_v57) = row128 (V (Proc.devRef .tc main_arg11)) := by
  after_results_simp
  rfl
theorem hostOps3_2_r4 : after (hostOps3_2 (F := Ideal)) V (Proc.devRef .tc main_v58) = row128 (V (Proc.devRef .tc main_arg12)) := by
  after_results_simp
  rfl

end Cert.Sage.K

end
-- ==== Proof.KKeep.lean ====
/-
  The argument arrays are written by no host operation, and a region either does not stage an argument or stages it
  through an input window, which writes nothing back: at every boundary between the segments of the kernel program an
  argument's buffer still holds what it held at launch.
-/
import proofs.«142724_j51462298140964_1_alg».proof.Proof.Gen.KernelIdeal.Frame
import Idealize.ShloMosaic.PureOps.Ideal

set_option maxRecDepth 16384

noncomputable section

namespace Cert.Sage.K

open Idealize.ShloMosaic Idealize.ShloMosaic.TcCoe Idealize.ShloMosaic.StableHlo Idealize.SL.Sem Cert.KernelIdeal Cert.KernelIdeal.Gen

/-- A buffer that no stretch of host operations writes and that every region leaves as it found it. -/
structure Untouched (r : Ref sig .tc) : Prop where
  n0 : ∀ op ∈ (hostOps0 : List (HloOp τ sig (Elt Ideal))), (Proc.devRef .tc r : DevRef τ sig) ∉ op.writes
  n1 : ∀ op ∈ (hostOps1 : List (HloOp τ sig (Elt Ideal))), (Proc.devRef .tc r : DevRef τ sig) ∉ op.writes
  n1_1 : ∀ op ∈ (hostOps1_1 : List (HloOp τ sig (Elt Ideal))), (Proc.devRef .tc r : DevRef τ sig) ∉ op.writes
  n1_2 : ∀ op ∈ (hostOps1_2 : List (HloOp τ sig (Elt Ideal))), (Proc.devRef .tc r : DevRef τ sig) ∉ op.writes
  n2 : ∀ op ∈ (hostOps2 : List (HloOp τ sig (Elt Ideal))), (Proc.devRef .tc r : DevRef τ sig) ∉ op.writes
  n3 : ∀ op ∈ (hostOps3 : List (HloOp τ sig (Elt Ideal))), (Proc.devRef .tc r : DevRef τ sig) ∉ op.writes
  n3_1 : ∀ op ∈ (hostOps3_1 : List (HloOp τ sig (Elt Ideal))), (Proc.devRef .tc r : DevRef τ sig) ∉ op.writes
  n3_2 : ∀ op ∈ (hostOps3_2 : List (HloOp τ sig (Elt Ideal))), (Proc.devRef .tc r : DevRef τ sig) ∉ op.writes
  n4 : ∀ op ∈ (hostOps4 : List (HloOp τ sig (Elt Ideal))), (Proc.devRef .tc r : DevRef τ sig) ∉ op.writes
  k0 : ∀ (m : (ℓ : Loc nD τ sig) → Buf (Elt Ideal) ℓ) (ρ : Dev nD → PrngReg) (c : Dev nD), W2 m ρ c (Proc.devRef .tc r) = W1 m ρ c (Proc.devRef .tc r)
  k1 : ∀ (m : (ℓ : Loc nD τ sig) → Buf (Elt Ideal) ℓ) (ρ : Dev nD → PrngReg) (c : Dev nD), W6 m ρ c (Proc.devRef .tc r) = W5 m ρ c (Proc.devRef .tc r)
  k2 : ∀ (m : (ℓ : Loc nD τ sig) → Buf (Elt Ideal) ℓ) (ρ : Dev nD → PrngReg) (c : Dev nD), W8 m ρ c (Proc.devRef .tc r) = W7 m ρ c (Proc.devRef .tc r)
  k3 : ∀ (m : (ℓ : Loc nD τ sig) → Buf (Elt Ideal) ℓ) (ρ : Dev nD → PrngReg) (c : Dev nD), W12 m ρ c (Proc.devRef .tc r) = W11 m ρ c (Proc.devRef .tc r)
  k4 : ∀ (m : (ℓ : Loc nD τ sig) → Buf (Elt Ideal) ℓ) (ρ : Dev nD → PrngReg) (c : Dev nD), W14 m ρ c (Proc.devRef .tc r) = W13 m ρ c (Proc.devRef .tc r)

/-- No operation of a literal stretch writes the buffer: each operation writes its own result buffer, another one. -/
macro "not_written" ops:ident : tactic =>
  `(tactic| (refine List.forall_iff_forall_mem.mp ?_
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

theorem untouched_arg0 : Untouched main_arg0 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => (W2_arr m ρ c 0).trans (((dat0 (V1 m ρ) c).arrAt_in 0 rfl _).trans (A_eq0 (V1 m ρ) c 0))
  k1 := fun m ρ c => W6_of_ne m ρ c main_arg0 (by decide)
  k2 := fun m ρ c => W8_of_ne m ρ c main_arg0 (by decide)
  k3 := fun m ρ c => W12_of_ne m ρ c main_arg0 (by decide)
  k4 := fun m ρ c => W14_of_ne m ρ c main_arg0 (by decide)

theorem untouched_arg1 : Untouched main_arg1 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg1 (by decide)
  k1 := fun m ρ c => W6_of_ne m ρ c main_arg1 (by decide)
  k2 := fun m ρ c => W8_of_ne m ρ c main_arg1 (by decide)
  k3 := fun m ρ c => W12_of_ne m ρ c main_arg1 (by decide)
  k4 := fun m ρ c => W14_of_ne m ρ c main_arg1 (by decide)

theorem untouched_arg2 : Untouched main_arg2 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg2 (by decide)
  k1 := fun m ρ c => W6_of_ne m ρ c main_arg2 (by decide)
  k2 := fun m ρ c => W8_of_ne m ρ c main_arg2 (by decide)
  k3 := fun m ρ c => W12_of_ne m ρ c main_arg2 (by decide)
  k4 := fun m ρ c => W14_of_ne m ρ c main_arg2 (by decide)

theorem untouched_arg3 : Untouched main_arg3 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => (W2_arr m ρ c 2).trans (((dat0 (V1 m ρ) c).arrAt_in 2 rfl _).trans (A_eq0 (V1 m ρ) c 2))
  k1 := fun m ρ c => W6_of_ne m ρ c main_arg3 (by decide)
  k2 := fun m ρ c => W8_of_ne m ρ c main_arg3 (by decide)
  k3 := fun m ρ c => W12_of_ne m ρ c main_arg3 (by decide)
  k4 := fun m ρ c => W14_of_ne m ρ c main_arg3 (by decide)

theorem untouched_arg4 : Untouched main_arg4 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => (W2_arr m ρ c 3).trans (((dat0 (V1 m ρ) c).arrAt_in 3 rfl _).trans (A_eq0 (V1 m ρ) c 3))
  k1 := fun m ρ c => W6_of_ne m ρ c main_arg4 (by decide)
  k2 := fun m ρ c => W8_of_ne m ρ c main_arg4 (by decide)
  k3 := fun m ρ c => W12_of_ne m ρ c main_arg4 (by decide)
  k4 := fun m ρ c => W14_of_ne m ρ c main_arg4 (by decide)

theorem untouched_arg5 : Untouched main_arg5 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg5 (by decide)
  k1 := fun m ρ c => W6_of_ne m ρ c main_arg5 (by decide)
  k2 := fun m ρ c => W8_of_ne m ρ c main_arg5 (by decide)
  k3 := fun m ρ c => W12_of_ne m ρ c main_arg5 (by decide)
  k4 := fun m ρ c => W14_of_ne m ρ c main_arg5 (by decide)

theorem untouched_arg6 : Untouched main_arg6 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg6 (by decide)
  k1 := fun m ρ c => W6_of_ne m ρ c main_arg6 (by decide)
  k2 := fun m ρ c => W8_of_ne m ρ c main_arg6 (by decide)
  k3 := fun m ρ c => W12_of_ne m ρ c main_arg6 (by decide)
  k4 := fun m ρ c => W14_of_ne m ρ c main_arg6 (by decide)

theorem untouched_arg7 : Untouched main_arg7 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg7 (by decide)
  k1 := fun m ρ c => W6_of_ne m ρ c main_arg7 (by decide)
  k2 := fun m ρ c => W8_of_ne m ρ c main_arg7 (by decide)
  k3 := fun m ρ c => W12_of_ne m ρ c main_arg7 (by decide)
  k4 := fun m ρ c => W14_of_ne m ρ c main_arg7 (by decide)

theorem untouched_arg8 : Untouched main_arg8 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg8 (by decide)
  k1 := fun m ρ c => W6_of_ne m ρ c main_arg8 (by decide)
  k2 := fun m ρ c => (W8_arr m ρ c 2).trans (((dat2 (V7 m ρ) c).arrAt_in 2 rfl _).trans (A_eq2 (V7 m ρ) c 2))
  k3 := fun m ρ c => W12_of_ne m ρ c main_arg8 (by decide)
  k4 := fun m ρ c => W14_of_ne m ρ c main_arg8 (by decide)

theorem untouched_arg9 : Untouched main_arg9 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg9 (by decide)
  k1 := fun m ρ c => W6_of_ne m ρ c main_arg9 (by decide)
  k2 := fun m ρ c => (W8_arr m ρ c 3).trans (((dat2 (V7 m ρ) c).arrAt_in 3 rfl _).trans (A_eq2 (V7 m ρ) c 3))
  k3 := fun m ρ c => W12_of_ne m ρ c main_arg9 (by decide)
  k4 := fun m ρ c => W14_of_ne m ρ c main_arg9 (by decide)

theorem untouched_arg10 : Untouched main_arg10 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg10 (by decide)
  k1 := fun m ρ c => W6_of_ne m ρ c main_arg10 (by decide)
  k2 := fun m ρ c => W8_of_ne m ρ c main_arg10 (by decide)
  k3 := fun m ρ c => W12_of_ne m ρ c main_arg10 (by decide)
  k4 := fun m ρ c => W14_of_ne m ρ c main_arg10 (by decide)

theorem untouched_arg11 : Untouched main_arg11 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg11 (by decide)
  k1 := fun m ρ c => W6_of_ne m ρ c main_arg11 (by decide)
  k2 := fun m ρ c => W8_of_ne m ρ c main_arg11 (by decide)
  k3 := fun m ρ c => W12_of_ne m ρ c main_arg11 (by decide)
  k4 := fun m ρ c => W14_of_ne m ρ c main_arg11 (by decide)

theorem untouched_arg12 : Untouched main_arg12 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg12 (by decide)
  k1 := fun m ρ c => W6_of_ne m ρ c main_arg12 (by decide)
  k2 := fun m ρ c => W8_of_ne m ρ c main_arg12 (by decide)
  k3 := fun m ρ c => W12_of_ne m ρ c main_arg12 (by decide)
  k4 := fun m ρ c => W14_of_ne m ρ c main_arg12 (by decide)

theorem untouched_arg13 : Untouched main_arg13 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg13 (by decide)
  k1 := fun m ρ c => W6_of_ne m ρ c main_arg13 (by decide)
  k2 := fun m ρ c => W8_of_ne m ρ c main_arg13 (by decide)
  k3 := fun m ρ c => W12_of_ne m ρ c main_arg13 (by decide)
  k4 := fun m ρ c => (W14_arr m ρ c 2).trans (((dat4 (V13 m ρ) c).arrAt_in 2 rfl _).trans (A_eq4 (V13 m ρ) c 2))

theorem untouched_arg14 : Untouched main_arg14 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg14 (by decide)
  k1 := fun m ρ c => W6_of_ne m ρ c main_arg14 (by decide)
  k2 := fun m ρ c => W8_of_ne m ρ c main_arg14 (by decide)
  k3 := fun m ρ c => W12_of_ne m ρ c main_arg14 (by decide)
  k4 := fun m ρ c => (W14_arr m ρ c 3).trans (((dat4 (V13 m ρ) c).arrAt_in 3 rfl _).trans (A_eq4 (V13 m ρ) c 3))

theorem untouched_arg15 : Untouched main_arg15 where
  n0 := by not_written hostOps0
  n1 := by not_written hostOps1
  n1_1 := by not_written hostOps1_1
  n1_2 := by not_written hostOps1_2
  n2 := by not_written hostOps2
  n3 := by not_written hostOps3
  n3_1 := by not_written hostOps3_1
  n3_2 := by not_written hostOps3_2
  n4 := by not_written hostOps4
  k0 := fun m ρ c => W2_of_ne m ρ c main_arg15 (by decide)
  k1 := fun m ρ c => W6_of_ne m ρ c main_arg15 (by decide)
  k2 := fun m ρ c => W8_of_ne m ρ c main_arg15 (by decide)
  k3 := fun m ρ c => W12_of_ne m ρ c main_arg15 (by decide)
  k4 := fun m ρ c => W14_of_ne m ρ c main_arg15 (by decide)

variable (m : (ℓ : Loc nD τ sig) → Buf (Elt Ideal) ℓ) (ρ : Dev nD → PrngReg) (c : Dev nD)
variable {r : Ref sig .tc}

theorem keepW1 (h : Untouched r) : W1 m ρ c (Proc.devRef .tc r) = m ((c : Thread nD τ).loc r) :=
  (after_of_forall_not_mem _ _ h.n0).trans rfl
theorem keepW2 (h : Untouched r) : W2 m ρ c (Proc.devRef .tc r) = m ((c : Thread nD τ).loc r) :=
  (h.k0 m ρ c).trans (keepW1 m ρ c h)
theorem keepW3 (h : Untouched r) : W3 m ρ c (Proc.devRef .tc r) = m ((c : Thread nD τ).loc r) :=
  (after_of_forall_not_mem _ _ h.n1).trans (keepW2 m ρ c h)
theorem keepW4 (h : Untouched r) : W4 m ρ c (Proc.devRef .tc r) = m ((c : Thread nD τ).loc r) :=
  (after_of_forall_not_mem _ _ h.n1_1).trans (keepW3 m ρ c h)
theorem keepW5 (h : Untouched r) : W5 m ρ c (Proc.devRef .tc r) = m ((c : Thread nD τ).loc r) :=
  (after_of_forall_not_mem _ _ h.n1_2).trans (keepW4 m ρ c h)
theorem keepW6 (h : Untouched r) : W6 m ρ c (Proc.devRef .tc r) = m ((c : Thread nD τ).loc r) :=
  (h.k1 m ρ c).trans (keepW5 m ρ c h)
theorem keepW7 (h : Untouched r) : W7 m ρ c (Proc.devRef .tc r) = m ((c : Thread nD τ).loc r) :=
  (after_of_forall_not_mem _ _ h.n2).trans (keepW6 m ρ c h)
theorem keepW8 (h : Untouched r) : W8 m ρ c (Proc.devRef .tc r) = m ((c : Thread nD τ).loc r) :=
  (h.k2 m ρ c).trans (keepW7 m ρ c h)
theorem keepW9 (h : Untouched r) : W9 m ρ c (Proc.devRef .tc r) = m ((c : Thread nD τ).loc r) :=
  (after_of_forall_not_mem _ _ h.n3).trans (keepW8 m ρ c h)
theorem keepW10 (h : Untouched r) : W10 m ρ c (Proc.devRef .tc r) = m ((c : Thread nD τ).loc r) :=
  (after_of_forall_not_mem _ _ h.n3_1).trans (keepW9 m ρ c h)
theorem keepW11 (h : Untouched r) : W11 m ρ c (Proc.devRef .tc r) = m ((c : Thread nD τ).loc r) :=
  (after_of_forall_not_mem _ _ h.n3_2).trans (keepW10 m ρ c h)
theorem keepW12 (h : Untouched r) : W12 m ρ c (Proc.devRef .tc r) = m ((c : Thread nD τ).loc r) :=
  (h.k3 m ρ c).trans (keepW11 m ρ c h)
theorem keepW13 (h : Untouched r) : W13 m ρ c (Proc.devRef .tc r) = m ((c : Thread nD τ).loc r) :=
  (after_of_forall_not_mem _ _ h.n4).trans (keepW12 m ρ c h)
theorem keepW14 (h : Untouched r) : W14 m ρ c (Proc.devRef .tc r) = m ((c : Thread nD τ).loc r) :=
  (h.k4 m ρ c).trans (keepW13 m ρ c h)

end Cert.Sage.K

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.KLinPayload.lean ====
/-
  The linear combine of one layer on a block of rows.

  The body of a linear region receives a block of rows of the node features and of the aggregated neighbour
  features, the two whole weight matrices and the one-row bias. It forms the two plain matrix products into the zero
  matrix, adds them, and adds the bias row repeated down the rows. Read at (p, q) this is
  Σ_k x0(p,k)·x2(k,q) + Σ_k x1(p,k)·x3(k,q) + x4(0,q). Hence, when row p of each feature block is row r of the whole
  feature array and column q of each weight block and of the bias block is column c of the whole one, the entry is
  the layer's linear combine at (r, c): a row of the result depends on that row of the features only. The narrowing
  of the four matrices to half precision before the products is the identity on the extended reals.
-/
import proofs.«142724_j51462298140964_1_alg».proof.Proof.Spec
import proofs.«142724_j51462298140964_1_alg».proof.Proof.LibPlainMatmul
import proofs.«142724_j51462298140964_1_alg».proof.Proof.Gen.KernelIdeal.Skeleton
import Idealize.ShloMosaic.Lib.Pipeline.Value

noncomputable section

namespace Cert.Sage.K

open Idealize.ShloMosaic Idealize.ShloMosaic.ValueIdx
open Cert.KernelIdeal Cert.KernelIdeal.Gen

/-- The bias row repeated down the rows, read at (p, q): the row's entry q. -/
theorem biasRow_apply {Mb N : ℕ} (x4 : FVec Ideal ⟨2, ![1, N]⟩ .f32)
    (hb : (⟨2, ![1, N]⟩ : Shape).Broadcasts ⟨2, ![Mb, N]⟩) (p : Fin Mb) (q : Fin N) :
    broadcastTo ⟨2, ![Mb, N]⟩ x4 hb (ix2 p q) = x4 (ix2 (0 : Fin 1) q) := by
  refine broadcastTo_apply x4 hb (ix2 p q) (ix2 (0 : Fin 1) q) fun a => ?_
  match a with
  | ⟨0, _⟩ => exact (if_pos rfl).symm
  | ⟨1, _⟩ =>
    show q.val = if N = 1 then 0 else q.val
    split_ifs with h
    · subst h; have := q.isLt; omega
    · rfl

/-- Two plain products into the zero matrix, added, plus the bias row: at (p, q) the layer's linear combine at
    (r, c), when the blocks' row p and column q are the whole arrays' row r and column c. -/
theorem linBlock_apply {Mb Mt K N : ℕ} {φ₁ φ₂ : FTy}
    (H A : FVec Ideal ⟨2, ![Mt, K]⟩ .f32) (Ws Wn : FVec Ideal ⟨2, ![K, N]⟩ .f32) (B : FVec Ideal ⟨2, ![1, N]⟩ .f32)
    (x0 x1 : FVec Ideal ⟨2, ![Mb, K]⟩ φ₁) (x2 x3 : FVec Ideal ⟨2, ![K, N]⟩ φ₂) (x4 : FVec Ideal ⟨2, ![1, N]⟩ .f32)
    (hb : (⟨2, ![1, N]⟩ : Shape).Broadcasts ⟨2, ![Mb, N]⟩)
    (p : Fin Mb) (q : Fin N) (r : Fin Mt) (c : Fin N)
    (h0 : ∀ k : Fin K, x0 (ix2 p k) = H (ix2 r k)) (h1 : ∀ k : Fin K, x1 (ix2 p k) = A (ix2 r k))
    (h2 : ∀ k : Fin K, x2 (ix2 k q) = Ws (ix2 k c)) (h3 : ∀ k : Fin K, x3 (ix2 k q) = Wn (ix2 k c))
    (h4 : x4 (ix2 (0 : Fin 1) q) = B (ix2 (0 : Fin 1) c)) :
    addf (addf (FloatOps.matmul (DotDims.plain Mb K N) none x0 x2 (constant ⟨2, ![Mb, N]⟩ .f32 0x00000000#32))
               (FloatOps.matmul (DotDims.plain Mb K N) none x1 x3 (constant ⟨2, ![Mb, N]⟩ .f32 0x00000000#32)))
         (broadcastTo ⟨2, ![Mb, N]⟩ x4 hb) (ix2 p q) = Cert.Sage.linAt H A Ws Wn B r c := by
  rw [addf_apply, addf_apply, Cert.PlainMatmul.plain_apply, Cert.PlainMatmul.plain_apply, biasRow_apply, h4]
  unfold Cert.Sage.linAt
  congr 2
  · exact Finset.sum_congr rfl fun k _ => by rw [h0 k, h2 k]
  · exact Finset.sum_congr rfl fun k _ => by rw [h1 k, h3 k]

/-- The printed contraction records are the plain contraction. -/
theorem dot128_eq : dot_S5000x128_S128x128_S5000x128_1_0_0_1_n_n = DotDims.plain 5000 128 128 := rfl
theorem dot64_eq : dot_S5000x128_S128x64_S5000x64_1_0_0_1_n_n = DotDims.plain 5000 128 64 := rfl

/-- The body of the first linear region at (p, q). -/
theorem pay0_apply (H A : FVec Ideal ⟨2, ![100000, 128]⟩ .f32) (Ws Wn : FVec Ideal ⟨2, ![128, 128]⟩ .f32)
    (B : FVec Ideal ⟨2, ![1, 128]⟩ .f32)
    (x0 x1 : Vec Ideal S5000x128 .f32) (x2 x3 : Vec Ideal S128x128 .f32) (x4 : Vec Ideal S1x128 .f32)
    (p : Fin 5000) (q : Fin 128) (r : Fin 100000) (c : Fin 128)
    (h0 : ∀ k : Fin 128, x0 (ix2 p k) = H (ix2 r k)) (h1 : ∀ k : Fin 128, x1 (ix2 p k) = A (ix2 r k))
    (h2 : ∀ k : Fin 128, x2 (ix2 k q) = Ws (ix2 k c)) (h3 : ∀ k : Fin 128, x3 (ix2 k q) = Wn (ix2 k c))
    (h4 : x4 (ix2 (0 : Fin 1) q) = B (ix2 (0 : Fin 1) c)) :
    k0_pay1 x0 x1 x2 x3 x4 (ix2 p q) = Cert.Sage.linAt H A Ws Wn B r c := by
  unfold k0_pay1
  simp only [shapeCast_self, dot128_eq]
  exact linBlock_apply H A Ws Wn B (truncf .bf16 x0 bitsLt_bf16_f32) (truncf .bf16 x1 bitsLt_bf16_f32)
    (truncf .bf16 x2 bitsLt_bf16_f32) (truncf .bf16 x3 bitsLt_bf16_f32) x4 broadcasts_S1x128_S5000x128 p q r c h0 h1 h2 h3 h4

/-- The body of the second linear region at (p, q). -/
theorem pay2_apply (H A : FVec Ideal ⟨2, ![100000, 128]⟩ .f32) (Ws Wn : FVec Ideal ⟨2, ![128, 128]⟩ .f32)
    (B : FVec Ideal ⟨2, ![1, 128]⟩ .f32)
    (x0 x1 : Vec Ideal S5000x128 .f32) (x2 x3 : Vec Ideal S128x128 .f32) (x4 : Vec Ideal S1x128 .f32)
    (p : Fin 5000) (q : Fin 128) (r : Fin 100000) (c : Fin 128)
    (h0 : ∀ k : Fin 128, x0 (ix2 p k) = H (ix2 r k)) (h1 : ∀ k : Fin 128, x1 (ix2 p k) = A (ix2 r k))
    (h2 : ∀ k : Fin 128, x2 (ix2 k q) = Ws (ix2 k c)) (h3 : ∀ k : Fin 128, x3 (ix2 k q) = Wn (ix2 k c))
    (h4 : x4 (ix2 (0 : Fin 1) q) = B (ix2 (0 : Fin 1) c)) :
    k2_pay1 x0 x1 x2 x3 x4 (ix2 p q) = Cert.Sage.linAt H A Ws Wn B r c := by
  unfold k2_pay1
  simp only [shapeCast_self, dot128_eq]
  exact linBlock_apply H A Ws Wn B (truncf .bf16 x0 bitsLt_bf16_f32) (truncf .bf16 x1 bitsLt_bf16_f32)
    (truncf .bf16 x2 bitsLt_bf16_f32) (truncf .bf16 x3 bitsLt_bf16_f32) x4 broadcasts_S1x128_S5000x128 p q r c h0 h1 h2 h3 h4

/-- The body of the third linear region at (p, q): the output has 64 columns. -/
theorem pay4_apply (H A : FVec Ideal ⟨2, ![100000, 128]⟩ .f32) (Ws Wn : FVec Ideal ⟨2, ![128, 64]⟩ .f32)
    (B : FVec Ideal ⟨2, ![1, 64]⟩ .f32)
    (x0 x1 : Vec Ideal S5000x128 .f32) (x2 x3 : Vec Ideal S128x64 .f32) (x4 : Vec Ideal S1x64 .f32)
    (p : Fin 5000) (q : Fin 64) (r : Fin 100000) (c : Fin 64)
    (h0 : ∀ k : Fin 128, x0 (ix2 p k) = H (ix2 r k)) (h1 : ∀ k : Fin 128, x1 (ix2 p k) = A (ix2 r k))
    (h2 : ∀ k : Fin 128, x2 (ix2 k q) = Ws (ix2 k c)) (h3 : ∀ k : Fin 128, x3 (ix2 k q) = Wn (ix2 k c))
    (h4 : x4 (ix2 (0 : Fin 1) q) = B (ix2 (0 : Fin 1) c)) :
    k4_pay1 x0 x1 x2 x3 x4 (ix2 p q) = Cert.Sage.linAt H A Ws Wn B r c := by
  unfold k4_pay1
  simp only [shapeCast_self, dot64_eq]
  exact linBlock_apply H A Ws Wn B (truncf .bf16 x0 bitsLt_bf16_f32) (truncf .bf16 x1 bitsLt_bf16_f32)
    (truncf .bf16 x2 bitsLt_bf16_f32) (truncf .bf16 x3 bitsLt_bf16_f32) x4 broadcasts_S1x64_S5000x64 p q r c h0 h1 h2 h3 h4

end Cert.Sage.K

end
-- ==== Proof.KLin0.lean ====
/-
  The first linear region as one function of whole arrays.

  The region walks twenty blocks of 5000 rows. At block t the body receives rows 5000·t … 5000·t + 4999 of the node
  features and of the aggregated neighbour features, the two whole weight matrices and the whole bias row, and leaves
  in the output block the linear combine of those rows; the block is written back to the same rows of the result.
  A row of the linear combine depends on that row of the two feature arrays only, so what block t writes back is
  block t of the linear combine of the whole arrays; the twenty blocks cover the 100000 rows, so the result array
  ends holding the linear combine of the arrays the region found.
-/
import proofs.«142724_j51462298140964_1_alg».proof.Proof.KLinPayload
import proofs.«142724_j51462298140964_1_alg».proof.Proof.Gen.KernelIdeal.Frame
import Idealize.ShloMosaic.Lib.Pipeline.Value

set_option maxRecDepth 16384

noncomputable section

namespace Cert.Sage.K

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeroOff0 : (![0, 0] : Fin 2 → Nat) = fun _ => 0 := funext fun a => by fin_cases a <;> rfl

/-- The linear combine of the arrays the first linear region finds. -/
abbrev L0 (c : Dev nD) : S100000x128.Idx → EReal :=
  Cert.Sage.lin (N := 100000) (K := 128) (M := 128) (V c main_arg0) (V c main_v18) (V c main_arg3) (V c main_arg4) (V c main_v19)

/-- The block indices over the grid: the two feature windows move with the output window down the rows, the weight and
    bias windows stay at block (0, 0), and the output's block row is the point's number. -/
theorem blockIdx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the result is some point's. -/
theorem blockOnto0 : ∀ q0 : Fin 20, ∃ t : Fin cfg0.N, win0_5.index t = ![q0.val, 0] :=
  (by decide +kernel : ∀ q0 : Fin 20, ∃ t : Fin grid0.N, win0_5.index t = ![q0.val, 0])

/-- Row p of the node-feature block at point t is the row of the whole array that row p of the output block is. -/
theorem featRow0 (c : Dev nD) (t : Fin cfg0.N) (p : Fin 5000) (q : Fin 128) (k : Fin 128) :
    (iblk0 V c 0 t : Vec Ideal S5000x128 .f32) (ix2 p k)
      = (V c main_arg0 : FVec Ideal ⟨2, ![100000, 128]⟩ .f32) (ix2 ((((cfg0.win 5).blk t).view.emb (ix2 p q)) 0) k) := by
  obtain ⟨e00, e01, e10, e11, e20, e21, e30, e31, e40, e41, e50, e51⟩ := blockIdx0 t
  have h : ((cfg0.win 0).blk t).view.emb (ix2 p k) = ix2 ((((cfg0.win 5).blk t).view.emb (ix2 p q)) 0) k :=
    funext fun a => Fin.ext (by
      match a with
      | ⟨0, _⟩ => show win0_0.index t (0 : Fin 2) * 5000 + 1 * p.val = win0_5.index t (0 : Fin 2) * 5000 + 1 * p.val; rw [e00]
      | ⟨1, _⟩ => show win0_0.index t (1 : Fin 2) * 128 + 1 * k.val = k.val; rw [e01]; omega)
  show V c main_arg0 (((cfg0.win 0).blk t).view.emb (ix2 p k)) = _
  rw [h]; rfl

/-- The same for the aggregated neighbour features. -/
theorem aggRow0 (c : Dev nD) (t : Fin cfg0.N) (p : Fin 5000) (q : Fin 128) (k : Fin 128) :
    (iblk0 V c 1 t : Vec Ideal S5000x128 .f32) (ix2 p k)
      = (V c main_v18 : FVec Ideal ⟨2, ![100000, 128]⟩ .f32) (ix2 ((((cfg0.win 5).blk t).view.emb (ix2 p q)) 0) k) := by
  obtain ⟨e00, e01, e10, e11, e20, e21, e30, e31, e40, e41, e50, e51⟩ := blockIdx0 t
  have h : ((cfg0.win 1).blk t).view.emb (ix2 p k) = ix2 ((((cfg0.win 5).blk t).view.emb (ix2 p q)) 0) k :=
    funext fun a => Fin.ext (by
      match a with
      | ⟨0, _⟩ => show win0_1.index t (0 : Fin 2) * 5000 + 1 * p.val = win0_5.index t (0 : Fin 2) * 5000 + 1 * p.val; rw [e10]
      | ⟨1, _⟩ => show win0_1.index t (1 : Fin 2) * 128 + 1 * k.val = k.val; rw [e11]; omega)
  show V c main_v18 (((cfg0.win 1).blk t).view.emb (ix2 p k)) = _
  rw [h]; rfl

/-- The block of the first weight matrix is the whole matrix: its column q is the output block's column q. -/
theorem selfCol0 (c : Dev nD) (t : Fin cfg0.N) (p : Fin 5000) (q : Fin 128) (k : Fin 128) :
    (iblk0 V c 2 t : Vec Ideal S128x128 .f32) (ix2 k q)
      = (V c main_arg3 : FVec Ideal ⟨2, ![128, 128]⟩ .f32) (ix2 k ((((cfg0.win 5).blk t).view.emb (ix2 p q)) 1)) := by
  obtain ⟨e00, e01, e10, e11, e20, e21, e30, e31, e40, e41, e50, e51⟩ := blockIdx0 t
  have h : ((cfg0.win 2).blk t).view.emb (ix2 k q) = ix2 k ((((cfg0.win 5).blk t).view.emb (ix2 p q)) 1) :=
    funext fun a => Fin.ext (by
      match a with
      | ⟨0, _⟩ => show win0_2.index t (0 : Fin 2) * 128 + 1 * k.val = k.val; rw [e20]; omega
      | ⟨1, _⟩ => show win0_2.index t (1 : Fin 2) * 128 + 1 * q.val = win0_5.index t (1 : Fin 2) * 128 + 1 * q.val; rw [e21, e51])
  show V c main_arg3 (((cfg0.win 2).blk t).view.emb (ix2 k q)) = _
  rw [h]; rfl

/-- The same for the second weight matrix. -/
theorem neighCol0 (c : Dev nD) (t : Fin cfg0.N) (p : Fin 5000) (q : Fin 128) (k : Fin 128) :
    (iblk0 V c 3 t : Vec Ideal S128x128 .f32) (ix2 k q)
      = (V c main_arg4 : FVec Ideal ⟨2, ![128, 128]⟩ .f32) (ix2 k ((((cfg0.win 5).blk t).view.emb (ix2 p q)) 1)) := by
  obtain ⟨e00, e01, e10, e11, e20, e21, e30, e31, e40, e41, e50, e51⟩ := blockIdx0 t
  have h : ((cfg0.win 3).blk t).view.emb (ix2 k q) = ix2 k ((((cfg0.win 5).blk t).view.emb (ix2 p q)) 1) :=
    funext fun a => Fin.ext (by
      match a with
      | ⟨0, _⟩ => show win0_3.index t (0 : Fin 2) * 128 + 1 * k.val = k.val; rw [e30]; omega
      | ⟨1, _⟩ => show win0_3.index t (1 : Fin 2) * 128 + 1 * q.val = win0_5.index t (1 : Fin 2) * 128 + 1 * q.val; rw [e31, e51])
  show V c main_arg4 (((cfg0.win 3).blk t).view.emb (ix2 k q)) = _
  rw [h]; rfl

/-- The block of the bias row is the whole row. -/
theorem biasCol0 (c : Dev nD) (t : Fin cfg0.N) (p : Fin 5000) (q : Fin 128) :
    (iblk0 V c 4 t : Vec Ideal S1x128 .f32) (ix2 (0 : Fin 1) q)
      = (V c main_v19 : FVec Ideal ⟨2, ![1, 128]⟩ .f32) (ix2 (0 : Fin 1) ((((cfg0.win 5).blk t).view.emb (ix2 p q)) 1)) := by
  obtain ⟨e00, e01, e10, e11, e20, e21, e30, e31, e40, e41, e50, e51⟩ := blockIdx0 t
  have h : ((cfg0.win 4).blk t).view.emb (ix2 (0 : Fin 1) q) = ix2 (0 : Fin 1) ((((cfg0.win 5).blk t).view.emb (ix2 p q)) 1) :=
    funext fun a => Fin.ext (by
      match a with
      | ⟨0, _⟩ => show win0_4.index t (0 : Fin 2) * 1 + 1 * 0 = 0; rw [e40]
      | ⟨1, _⟩ => show win0_4.index t (1 : Fin 2) * 128 + 1 * q.val = win0_5.index t (1 : Fin 2) * 128 + 1 * q.val; rw [e41, e51])
  show V c main_v19 (((cfg0.win 4).blk t).view.emb (ix2 (0 : Fin 1) q)) = _
  rw [h]; rfl

/-- What point t writes back is block t of the linear combine of the whole arrays. -/
theorem flushed0 (c : Dev nD) (t : Fin cfg0.N) :
    (dat0 (F := Ideal) V c).flushed 5 t = ((cfg0.win 5).blk t).view.read (Elt Ideal) (L0 V c) := by
  show (cfg0.win 5).cut (grid0.coords t) ((dat0 (F := Ideal) V c).after 5 t) = _
  rw [after0_5]
  unfold out0_5
  rw [View.canon_unit_zero zeroOff0]
  simp only [View.ld_unit_zero (S := S5000x128) zeroOff0, View.ld_unit_zero (S := S128x128) zeroOff0,
    View.ld_unit_zero (S := S1x128) zeroOff0]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
      = Cert.Sage.linAt (N := 100000) (K := 128) (M := 128) (V c main_arg0) (V c main_v18) (V c main_arg3) (V c main_arg4) (V c main_v19)
          ((((cfg0.win 5).blk t).view.emb (ix2 p q)) 0) ((((cfg0.win 5).blk t).view.emb (ix2 p q)) 1)
  exact pay0_apply (V c main_arg0) (V c main_v18) (V c main_arg3) (V c main_arg4) (V c main_v19)
    (iblk0 V c 0 t) (iblk0 V c 1 t) (iblk0 V c 2 t) (iblk0 V c 3 t) (iblk0 V c 4 t) p q
    ((((cfg0.win 5).blk t).view.emb (ix2 p q)) 0) ((((cfg0.win 5).blk t).view.emb (ix2 p q)) 1)
    (fun k => featRow0 V c t p q k) (fun k => aggRow0 V c t p q k) (fun k => selfCol0 V c t p q k)
    (fun k => neighCol0 V c t p q k) (biasCol0 V c t p q)

/-- An index of the result is in point t's block iff each coordinate is in the block's range on its axis. -/
theorem memBlock0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v20).slice (win0_5.rect t)).set ↔ _
  rw [View.set_slice_whole, Rect.mem_set_unit]
  exact Iff.rfl

/-- The twenty blocks cover the result: row r lies in block r / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := blockOnto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [memBlock0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array of the first linear region after the region: the linear combine of the arrays it found. -/
theorem final0 (c : Dev nD) :
    (dat0 (F := Ideal) V c).arrAt 5 cfg0.N
      = Cert.Sage.lin (N := 100000) (K := 128) (M := 128) (V c main_arg0) (V c main_v18) (V c main_arg3) (V c main_arg4) (V c main_v19) :=
  (dat0 (F := Ideal) V c).arrAt_eq_of_cover 5 (L0 V c) (fun t _ => flushed0 V c t) cover0

end Cert.Sage.K

end
-- ==== Proof.KLin2.lean ====
/-
  The second linear region as one function of whole arrays.

  The region walks twenty blocks of 5000 rows. At block t the body receives rows 5000·t … 5000·t + 4999 of the node
  features and of the aggregated neighbour features, the two whole weight matrices and the whole bias row, and leaves
  in the output block the linear combine of those rows; the block is written back to the same rows of the result.
  A row of the linear combine depends on that row of the two feature arrays only, so what block t writes back is
  block t of the linear combine of the whole arrays; the twenty blocks cover the 100000 rows, so the result array
  ends holding the linear combine of the arrays the region found.
-/
import proofs.«142724_j51462298140964_1_alg».proof.Proof.KLinPayload
import proofs.«142724_j51462298140964_1_alg».proof.Proof.Gen.KernelIdeal.Frame
import Idealize.ShloMosaic.Lib.Pipeline.Value

set_option maxRecDepth 16384

noncomputable section

namespace Cert.Sage.K

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeroOff2 : (![0, 0] : Fin 2 → Nat) = fun _ => 0 := funext fun a => by fin_cases a <;> rfl

/-- The linear combine of the arrays the second linear region finds. -/
abbrev L2 (c : Dev nD) : S100000x128.Idx → EReal :=
  Cert.Sage.lin (N := 100000) (K := 128) (M := 128) (V c main_v29) (V c main_v48) (V c main_arg8) (V c main_arg9) (V c main_v49)

/-- The block indices over the grid: the two feature windows move with the output window down the rows, the weight and
    bias windows stay at block (0, 0), and the output's block row is the point's number. -/
theorem blockIdx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row of the result is some point's. -/
theorem blockOnto2 : ∀ q0 : Fin 20, ∃ t : Fin cfg2.N, win2_5.index t = ![q0.val, 0] :=
  (by decide +kernel : ∀ q0 : Fin 20, ∃ t : Fin grid2.N, win2_5.index t = ![q0.val, 0])

/-- Row p of the node-feature block at point t is the row of the whole array that row p of the output block is. -/
theorem featRow2 (c : Dev nD) (t : Fin cfg2.N) (p : Fin 5000) (q : Fin 128) (k : Fin 128) :
    (iblk2 V c 0 t : Vec Ideal S5000x128 .f32) (ix2 p k)
      = (V c main_v29 : FVec Ideal ⟨2, ![100000, 128]⟩ .f32) (ix2 ((((cfg2.win 5).blk t).view.emb (ix2 p q)) 0) k) := by
  obtain ⟨e00, e01, e10, e11, e20, e21, e30, e31, e40, e41, e50, e51⟩ := blockIdx2 t
  have h : ((cfg2.win 0).blk t).view.emb (ix2 p k) = ix2 ((((cfg2.win 5).blk t).view.emb (ix2 p q)) 0) k :=
    funext fun a => Fin.ext (by
      match a with
      | ⟨0, _⟩ => show win2_0.index t (0 : Fin 2) * 5000 + 1 * p.val = win2_5.index t (0 : Fin 2) * 5000 + 1 * p.val; rw [e00]
      | ⟨1, _⟩ => show win2_0.index t (1 : Fin 2) * 128 + 1 * k.val = k.val; rw [e01]; omega)
  show V c main_v29 (((cfg2.win 0).blk t).view.emb (ix2 p k)) = _
  rw [h]; rfl

/-- The same for the aggregated neighbour features. -/
theorem aggRow2 (c : Dev nD) (t : Fin cfg2.N) (p : Fin 5000) (q : Fin 128) (k : Fin 128) :
    (iblk2 V c 1 t : Vec Ideal S5000x128 .f32) (ix2 p k)
      = (V c main_v48 : FVec Ideal ⟨2, ![100000, 128]⟩ .f32) (ix2 ((((cfg2.win 5).blk t).view.emb (ix2 p q)) 0) k) := by
  obtain ⟨e00, e01, e10, e11, e20, e21, e30, e31, e40, e41, e50, e51⟩ := blockIdx2 t
  have h : ((cfg2.win 1).blk t).view.emb (ix2 p k) = ix2 ((((cfg2.win 5).blk t).view.emb (ix2 p q)) 0) k :=
    funext fun a => Fin.ext (by
      match a with
      | ⟨0, _⟩ => show win2_1.index t (0 : Fin 2) * 5000 + 1 * p.val = win2_5.index t (0 : Fin 2) * 5000 + 1 * p.val; rw [e10]
      | ⟨1, _⟩ => show win2_1.index t (1 : Fin 2) * 128 + 1 * k.val = k.val; rw [e11]; omega)
  show V c main_v48 (((cfg2.win 1).blk t).view.emb (ix2 p k)) = _
  rw [h]; rfl

/-- The block of the first weight matrix is the whole matrix: its column q is the output block's column q. -/
theorem selfCol2 (c : Dev nD) (t : Fin cfg2.N) (p : Fin 5000) (q : Fin 128) (k : Fin 128) :
    (iblk2 V c 2 t : Vec Ideal S128x128 .f32) (ix2 k q)
      = (V c main_arg8 : FVec Ideal ⟨2, ![128, 128]⟩ .f32) (ix2 k ((((cfg2.win 5).blk t).view.emb (ix2 p q)) 1)) := by
  obtain ⟨e00, e01, e10, e11, e20, e21, e30, e31, e40, e41, e50, e51⟩ := blockIdx2 t
  have h : ((cfg2.win 2).blk t).view.emb (ix2 k q) = ix2 k ((((cfg2.win 5).blk t).view.emb (ix2 p q)) 1) :=
    funext fun a => Fin.ext (by
      match a with
      | ⟨0, _⟩ => show win2_2.index t (0 : Fin 2) * 128 + 1 * k.val = k.val; rw [e20]; omega
      | ⟨1, _⟩ => show win2_2.index t (1 : Fin 2) * 128 + 1 * q.val = win2_5.index t (1 : Fin 2) * 128 + 1 * q.val; rw [e21, e51])
  show V c main_arg8 (((cfg2.win 2).blk t).view.emb (ix2 k q)) = _
  rw [h]; rfl

/-- The same for the second weight matrix. -/
theorem neighCol2 (c : Dev nD) (t : Fin cfg2.N) (p : Fin 5000) (q : Fin 128) (k : Fin 128) :
    (iblk2 V c 3 t : Vec Ideal S128x128 .f32) (ix2 k q)
      = (V c main_arg9 : FVec Ideal ⟨2, ![128, 128]⟩ .f32) (ix2 k ((((cfg2.win 5).blk t).view.emb (ix2 p q)) 1)) := by
  obtain ⟨e00, e01, e10, e11, e20, e21, e30, e31, e40, e41, e50, e51⟩ := blockIdx2 t
  have h : ((cfg2.win 3).blk t).view.emb (ix2 k q) = ix2 k ((((cfg2.win 5).blk t).view.emb (ix2 p q)) 1) :=
    funext fun a => Fin.ext (by
      match a with
      | ⟨0, _⟩ => show win2_3.index t (0 : Fin 2) * 128 + 1 * k.val = k.val; rw [e30]; omega
      | ⟨1, _⟩ => show win2_3.index t (1 : Fin 2) * 128 + 1 * q.val = win2_5.index t (1 : Fin 2) * 128 + 1 * q.val; rw [e31, e51])
  show V c main_arg9 (((cfg2.win 3).blk t).view.emb (ix2 k q)) = _
  rw [h]; rfl

/-- The block of the bias row is the whole row. -/
theorem biasCol2 (c : Dev nD) (t : Fin cfg2.N) (p : Fin 5000) (q : Fin 128) :
    (iblk2 V c 4 t : Vec Ideal S1x128 .f32) (ix2 (0 : Fin 1) q)
      = (V c main_v49 : FVec Ideal ⟨2, ![1, 128]⟩ .f32) (ix2 (0 : Fin 1) ((((cfg2.win 5).blk t).view.emb (ix2 p q)) 1)) := by
  obtain ⟨e00, e01, e10, e11, e20, e21, e30, e31, e40, e41, e50, e51⟩ := blockIdx2 t
  have h : ((cfg2.win 4).blk t).view.emb (ix2 (0 : Fin 1) q) = ix2 (0 : Fin 1) ((((cfg2.win 5).blk t).view.emb (ix2 p q)) 1) :=
    funext fun a => Fin.ext (by
      match a with
      | ⟨0, _⟩ => show win2_4.index t (0 : Fin 2) * 1 + 1 * 0 = 0; rw [e40]
      | ⟨1, _⟩ => show win2_4.index t (1 : Fin 2) * 128 + 1 * q.val = win2_5.index t (1 : Fin 2) * 128 + 1 * q.val; rw [e41, e51])
  show V c main_v49 (((cfg2.win 4).blk t).view.emb (ix2 (0 : Fin 1) q)) = _
  rw [h]; rfl

/-- What point t writes back is block t of the linear combine of the whole arrays. -/
theorem flushed2 (c : Dev nD) (t : Fin cfg2.N) :
    (dat2 (F := Ideal) V c).flushed 5 t = ((cfg2.win 5).blk t).view.read (Elt Ideal) (L2 V c) := by
  show (cfg2.win 5).cut (grid2.coords t) ((dat2 (F := Ideal) V c).after 5 t) = _
  rw [after2_5]
  unfold out2_5
  rw [View.canon_unit_zero zeroOff2]
  simp only [View.ld_unit_zero (S := S5000x128) zeroOff2, View.ld_unit_zero (S := S128x128) zeroOff2,
    View.ld_unit_zero (S := S1x128) zeroOff2]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q)
      = Cert.Sage.linAt (N := 100000) (K := 128) (M := 128) (V c main_v29) (V c main_v48) (V c main_arg8) (V c main_arg9) (V c main_v49)
          ((((cfg2.win 5).blk t).view.emb (ix2 p q)) 0) ((((cfg2.win 5).blk t).view.emb (ix2 p q)) 1)
  exact pay2_apply (V c main_v29) (V c main_v48) (V c main_arg8) (V c main_arg9) (V c main_v49)
    (iblk2 V c 0 t) (iblk2 V c 1 t) (iblk2 V c 2 t) (iblk2 V c 3 t) (iblk2 V c 4 t) p q
    ((((cfg2.win 5).blk t).view.emb (ix2 p q)) 0) ((((cfg2.win 5).blk t).view.emb (ix2 p q)) 1)
    (fun k => featRow2 V c t p q k) (fun k => aggRow2 V c t p q k) (fun k => selfCol2 V c t p q k)
    (fun k => neighCol2 V c t p q k) (biasCol2 V c t p q)

/-- An index of the result is in point t's block iff each coordinate is in the block's range on its axis. -/
theorem memBlock2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v50).slice (win2_5.rect t)).set ↔ _
  rw [View.set_slice_whole, Rect.mem_set_unit]
  exact Iff.rfl

/-- The twenty blocks cover the result: row r lies in block r / 5000. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := blockOnto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [memBlock2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The result array of the second linear region after the region: the linear combine of the arrays it found. -/
theorem final2 (c : Dev nD) :
    (dat2 (F := Ideal) V c).arrAt 5 cfg2.N
      = Cert.Sage.lin (N := 100000) (K := 128) (M := 128) (V c main_v29) (V c main_v48) (V c main_arg8) (V c main_arg9) (V c main_v49) :=
  (dat2 (F := Ideal) V c).arrAt_eq_of_cover 5 (L2 V c) (fun t _ => flushed2 V c t) cover2

end Cert.Sage.K

end
-- ==== Proof.KLin4.lean ====
/-
  The third linear region as one function of whole arrays (its result has 64 columns).

  The region walks twenty blocks of 5000 rows. At block t the body receives rows 5000·t … 5000·t + 4999 of the node
  features and of the aggregated neighbour features, the two whole weight matrices and the whole bias row, and leaves
  in the output block the linear combine of those rows; the block is written back to the same rows of the result.
  A row of the linear combine depends on that row of the two feature arrays only, so what block t writes back is
  block t of the linear combine of the whole arrays; the twenty blocks cover the 100000 rows, so the result array
  ends holding the linear combine of the arrays the region found.
-/
import proofs.«142724_j51462298140964_1_alg».proof.Proof.KLinPayload
import proofs.«142724_j51462298140964_1_alg».proof.Proof.Gen.KernelIdeal.Frame
import Idealize.ShloMosaic.Lib.Pipeline.Value

set_option maxRecDepth 16384

noncomputable section

namespace Cert.Sage.K

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeroOff4 : (![0, 0] : Fin 2 → Nat) = fun _ => 0 := funext fun a => by fin_cases a <;> rfl

/-- The linear combine of the arrays the third linear region finds. -/
abbrev L4 (c : Dev nD) : S100000x64.Idx → EReal :=
  Cert.Sage.lin (N := 100000) (K := 128) (M := 64) (V c main_v59) (V c main_v78) (V c main_arg13) (V c main_arg14) (V c main_v79)

/-- The block indices over the grid: the two feature windows move with the output window down the rows, the weight and
    bias windows stay at block (0, 0), and the output's block row is the point's number. -/
theorem blockIdx4 : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Every block row of the result is some point's. -/
theorem blockOnto4 : ∀ q0 : Fin 20, ∃ t : Fin cfg4.N, win4_5.index t = ![q0.val, 0] :=
  (by decide +kernel : ∀ q0 : Fin 20, ∃ t : Fin grid4.N, win4_5.index t = ![q0.val, 0])

/-- Row p of the node-feature block at point t is the row of the whole array that row p of the output block is. -/
theorem featRow4 (c : Dev nD) (t : Fin cfg4.N) (p : Fin 5000) (q : Fin 64) (k : Fin 128) :
    (iblk4 V c 0 t : Vec Ideal S5000x128 .f32) (ix2 p k)
      = (V c main_v59 : FVec Ideal ⟨2, ![100000, 128]⟩ .f32) (ix2 ((((cfg4.win 5).blk t).view.emb (ix2 p q)) 0) k) := by
  obtain ⟨e00, e01, e10, e11, e20, e21, e30, e31, e40, e41, e50, e51⟩ := blockIdx4 t
  have h : ((cfg4.win 0).blk t).view.emb (ix2 p k) = ix2 ((((cfg4.win 5).blk t).view.emb (ix2 p q)) 0) k :=
    funext fun a => Fin.ext (by
      match a with
      | ⟨0, _⟩ => show win4_0.index t (0 : Fin 2) * 5000 + 1 * p.val = win4_5.index t (0 : Fin 2) * 5000 + 1 * p.val; rw [e00]
      | ⟨1, _⟩ => show win4_0.index t (1 : Fin 2) * 128 + 1 * k.val = k.val; rw [e01]; omega)
  show V c main_v59 (((cfg4.win 0).blk t).view.emb (ix2 p k)) = _
  rw [h]; rfl

/-- The same for the aggregated neighbour features. -/
theorem aggRow4 (c : Dev nD) (t : Fin cfg4.N) (p : Fin 5000) (q : Fin 64) (k : Fin 128) :
    (iblk4 V c 1 t : Vec Ideal S5000x128 .f32) (ix2 p k)
      = (V c main_v78 : FVec Ideal ⟨2, ![100000, 128]⟩ .f32) (ix2 ((((cfg4.win 5).blk t).view.emb (ix2 p q)) 0) k) := by
  obtain ⟨e00, e01, e10, e11, e20, e21, e30, e31, e40, e41, e50, e51⟩ := blockIdx4 t
  have h : ((cfg4.win 1).blk t).view.emb (ix2 p k) = ix2 ((((cfg4.win 5).blk t).view.emb (ix2 p q)) 0) k :=
    funext fun a => Fin.ext (by
      match a with
      | ⟨0, _⟩ => show win4_1.index t (0 : Fin 2) * 5000 + 1 * p.val = win4_5.index t (0 : Fin 2) * 5000 + 1 * p.val; rw [e10]
      | ⟨1, _⟩ => show win4_1.index t (1 : Fin 2) * 128 + 1 * k.val = k.val; rw [e11]; omega)
  show V c main_v78 (((cfg4.win 1).blk t).view.emb (ix2 p k)) = _
  rw [h]; rfl

/-- The block of the first weight matrix is the whole matrix: its column q is the output block's column q. -/
theorem selfCol4 (c : Dev nD) (t : Fin cfg4.N) (p : Fin 5000) (q : Fin 64) (k : Fin 128) :
    (iblk4 V c 2 t : Vec Ideal S128x64 .f32) (ix2 k q)
      = (V c main_arg13 : FVec Ideal ⟨2, ![128, 64]⟩ .f32) (ix2 k ((((cfg4.win 5).blk t).view.emb (ix2 p q)) 1)) := by
  obtain ⟨e00, e01, e10, e11, e20, e21, e30, e31, e40, e41, e50, e51⟩ := blockIdx4 t
  have h : ((cfg4.win 2).blk t).view.emb (ix2 k q) = ix2 k ((((cfg4.win 5).blk t).view.emb (ix2 p q)) 1) :=
    funext fun a => Fin.ext (by
      match a with
      | ⟨0, _⟩ => show win4_2.index t (0 : Fin 2) * 128 + 1 * k.val = k.val; rw [e20]; omega
      | ⟨1, _⟩ => show win4_2.index t (1 : Fin 2) * 64 + 1 * q.val = win4_5.index t (1 : Fin 2) * 64 + 1 * q.val; rw [e21, e51])
  show V c main_arg13 (((cfg4.win 2).blk t).view.emb (ix2 k q)) = _
  rw [h]; rfl

/-- The same for the second weight matrix. -/
theorem neighCol4 (c : Dev nD) (t : Fin cfg4.N) (p : Fin 5000) (q : Fin 64) (k : Fin 128) :
    (iblk4 V c 3 t : Vec Ideal S128x64 .f32) (ix2 k q)
      = (V c main_arg14 : FVec Ideal ⟨2, ![128, 64]⟩ .f32) (ix2 k ((((cfg4.win 5).blk t).view.emb (ix2 p q)) 1)) := by
  obtain ⟨e00, e01, e10, e11, e20, e21, e30, e31, e40, e41, e50, e51⟩ := blockIdx4 t
  have h : ((cfg4.win 3).blk t).view.emb (ix2 k q) = ix2 k ((((cfg4.win 5).blk t).view.emb (ix2 p q)) 1) :=
    funext fun a => Fin.ext (by
      match a with
      | ⟨0, _⟩ => show win4_3.index t (0 : Fin 2) * 128 + 1 * k.val = k.val; rw [e30]; omega
      | ⟨1, _⟩ => show win4_3.index t (1 : Fin 2) * 64 + 1 * q.val = win4_5.index t (1 : Fin 2) * 64 + 1 * q.val; rw [e31, e51])
  show V c main_arg14 (((cfg4.win 3).blk t).view.emb (ix2 k q)) = _
  rw [h]; rfl

/-- The block of the bias row is the whole row. -/
theorem biasCol4 (c : Dev nD) (t : Fin cfg4.N) (p : Fin 5000) (q : Fin 64) :
    (iblk4 V c 4 t : Vec Ideal S1x64 .f32) (ix2 (0 : Fin 1) q)
      = (V c main_v79 : FVec Ideal ⟨2, ![1, 64]⟩ .f32) (ix2 (0 : Fin 1) ((((cfg4.win 5).blk t).view.emb (ix2 p q)) 1)) := by
  obtain ⟨e00, e01, e10, e11, e20, e21, e30, e31, e40, e41, e50, e51⟩ := blockIdx4 t
  have h : ((cfg4.win 4).blk t).view.emb (ix2 (0 : Fin 1) q) = ix2 (0 : Fin 1) ((((cfg4.win 5).blk t).view.emb (ix2 p q)) 1) :=
    funext fun a => Fin.ext (by
      match a with
      | ⟨0, _⟩ => show win4_4.index t (0 : Fin 2) * 1 + 1 * 0 = 0; rw [e40]
      | ⟨1, _⟩ => show win4_4.index t (1 : Fin 2) * 64 + 1 * q.val = win4_5.index t (1 : Fin 2) * 64 + 1 * q.val; rw [e41, e51])
  show V c main_v79 (((cfg4.win 4).blk t).view.emb (ix2 (0 : Fin 1) q)) = _
  rw [h]; rfl

/-- What point t writes back is block t of the linear combine of the whole arrays. -/
theorem flushed4 (c : Dev nD) (t : Fin cfg4.N) :
    (dat4 (F := Ideal) V c).flushed 5 t = ((cfg4.win 5).blk t).view.read (Elt Ideal) (L4 V c) := by
  show (cfg4.win 5).cut (grid4.coords t) ((dat4 (F := Ideal) V c).after 5 t) = _
  rw [after4_5]
  unfold out4_5
  rw [View.canon_unit_zero zeroOff4]
  simp only [View.ld_unit_zero (S := S5000x128) zeroOff4, View.ld_unit_zero (S := S128x64) zeroOff4,
    View.ld_unit_zero (S := S1x64) zeroOff4]
  funext j
  obtain ⟨p, q, rfl⟩ : ∃ (p : Fin 5000) (q : Fin 64), j = ix2 p q := ⟨j 0, j 1, eq_ix2 j⟩
  show k4_pay1 (iblk4 V c 0 t) (iblk4 V c 1 t) (iblk4 V c 2 t) (iblk4 V c 3 t) (iblk4 V c 4 t) (ix2 p q)
      = Cert.Sage.linAt (N := 100000) (K := 128) (M := 64) (V c main_v59) (V c main_v78) (V c main_arg13) (V c main_arg14) (V c main_v79)
          ((((cfg4.win 5).blk t).view.emb (ix2 p q)) 0) ((((cfg4.win 5).blk t).view.emb (ix2 p q)) 1)
  exact pay4_apply (V c main_v59) (V c main_v78) (V c main_arg13) (V c main_arg14) (V c main_v79)
    (iblk4 V c 0 t) (iblk4 V c 1 t) (iblk4 V c 2 t) (iblk4 V c 3 t) (iblk4 V c 4 t) p q
    ((((cfg4.win 5).blk t).view.emb (ix2 p q)) 0) ((((cfg4.win 5).blk t).view.emb (ix2 p q)) 1)
    (fun k => featRow4 V c t p q k) (fun k => aggRow4 V c t p q k) (fun k => selfCol4 V c t p q k)
    (fun k => neighCol4 V c t p q k) (biasCol4 V c t p q)

/-- An index of the result is in point t's block iff each coordinate is in the block's range on its axis. -/
theorem memBlock4 (t : Fin cfg4.N) (i : S100000x64.Idx) :
    i ∈ ((cfg4.win 5).blk t).view.set ↔ ∀ a : Fin 2, win4_5.index t a * S5000x64.size a ≤ (i a).val
      ∧ (i a).val < win4_5.index t a * S5000x64.size a + S5000x64.size a := by
  show i ∈ ((View.whole main_v80).slice (win4_5.rect t)).set ↔ _
  rw [View.set_slice_whole, Rect.mem_set_unit]
  exact Iff.rfl

/-- The twenty blocks cover the result: row r lies in block r / 5000. -/
theorem cover4 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  obtain ⟨t, ht⟩ := blockOnto4 ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [memBlock4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

/-- The result array of the third linear region after the region: the linear combine of the arrays it found. -/
theorem final4 (c : Dev nD) :
    (dat4 (F := Ideal) V c).arrAt 5 cfg4.N
      = Cert.Sage.lin (N := 100000) (K := 128) (M := 64) (V c main_v59) (V c main_v78) (V c main_arg13) (V c main_arg14) (V c main_v79) :=
  (dat4 (F := Ideal) V c).arrAt_eq_of_cover 5 (L4 V c) (fun t _ => flushed4 V c t) cover4

end Cert.Sage.K

end
-- ==== Proof.KBnPayload.lean ====
/-
  The batch-normalisation body at an entry.

  The body of the normalisation kernel, on a block of 5000 rows and 128 columns and four one-row matrices (mean,
  variance, scale, shift), computes at row p and column q
      max( (x(p,q) − μ(q)) · rsqrt(σ²(q) + ε) · γ(q) + β(q), 0 ),
  each one-row matrix repeated down the rows. Every step is entrywise except the repetition of the one row, which
  reads row 0 of its operand at the same column.
-/
import proofs.«142724_j51462298140964_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.Sage.K

open Idealize.ShloMosaic Idealize.ShloMosaic.ValueIdx
open Cert.KernelIdeal Cert.KernelIdeal.Gen

/-- The elementwise reciprocal square root at an entry. -/
theorem rsqrt_apply {s : Shape} {φ : FTy} (a : FVec Ideal s φ) (i : s.Idx) : rsqrt a i = Ideal.rsqrt (a i) := rfl

/-- The first normalisation body at row `p`, column `q`. -/
theorem pay1_apply (x0 : Vec Ideal S5000x128 .f32) (x1 x2 x3 x4 : Vec Ideal S1x128 .f32) (p : Fin 5000) (q : Fin 128) :
    k1_pay1 (F := Ideal) x0 x1 x2 x3 x4 (ix2 p q)
      = max ((x0 (ix2 p q) - x1 (ix2 (0 : Fin 1) q)) * Ideal.rsqrt (x2 (ix2 (0 : Fin 1) q) + Ideal.ofBits .f32 0x3727C5AC#32)
          * x3 (ix2 (0 : Fin 1) q) + x4 (ix2 (0 : Fin 1) q)) (Ideal.ofBits .f32 0x00000000#32) := by
  unfold k1_pay1
  simp only [shapeCast_self, maximumf_apply, addf_apply, mulf_apply, subf_apply, broadcast_apply,
    broadcastTo_1b_ab_apply, rsqrt_apply]
  rfl

/-- The second normalisation body at row `p`, column `q`: the same arithmetic. -/
theorem pay3_apply (x0 : Vec Ideal S5000x128 .f32) (x1 x2 x3 x4 : Vec Ideal S1x128 .f32) (p : Fin 5000) (q : Fin 128) :
    k3_pay1 (F := Ideal) x0 x1 x2 x3 x4 (ix2 p q)
      = max ((x0 (ix2 p q) - x1 (ix2 (0 : Fin 1) q)) * Ideal.rsqrt (x2 (ix2 (0 : Fin 1) q) + Ideal.ofBits .f32 0x3727C5AC#32)
          * x3 (ix2 (0 : Fin 1) q) + x4 (ix2 (0 : Fin 1) q)) (Ideal.ofBits .f32 0x00000000#32) := by
  unfold k3_pay1
  simp only [shapeCast_self, maximumf_apply, addf_apply, mulf_apply, subf_apply, broadcast_apply,
    broadcastTo_1b_ab_apply, rsqrt_apply]
  rfl

end Cert.Sage.K

end
-- ==== Proof.KBn1.lean ====
/-
  The first batch-normalisation region as one function of whole arrays.

  The region runs the normalisation body on twenty blocks of 5000 consecutive rows (all 128 columns) of the
  pre-activation array, each time with the same four one-row matrices, and writes each result to the same rows of
  the output array. The body works entry by entry, so block t of the output is block t of the whole-array
  normalisation; the twenty blocks cover all 100000 rows (row r lies in block r / 5000), so the output array is the
  whole-array normalisation of the arrays the region finds.
-/
import proofs.«142724_j51462298140964_1_alg».proof.Proof.Gen.KernelIdeal.Frame
import proofs.«142724_j51462298140964_1_alg».proof.Proof.Spec
import proofs.«142724_j51462298140964_1_alg».proof.Proof.KBnPayload
import Idealize.ShloMosaic.Lib.Pipeline.Value

noncomputable section

namespace Cert.Sage.K

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The block indices, decided over the twenty points: the pre-activation and the output move down the rows with the
    point, the four one-row matrices stay at block (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body on a block is the whole-array normalisation at the array entry the block's entry sits at: when the
    block's entry (p, q) is the pre-activation at (r, s) and row 0 of each one-row block at column q is that matrix
    at column s. -/
theorem body1_eq_bn (A : FVec Ideal ⟨2, ![100000, 128]⟩ .f32) (mu var g be : FVec Ideal ⟨2, ![1, 128]⟩ .f32)
    (x0 : Vec Ideal S5000x128 .f32) (x1 x2 x3 x4 : Vec Ideal S1x128 .f32) (p : Fin 5000) (q : Fin 128)
    (r : Fin 100000) (s : Fin 128)
    (h0 : x0 (ix2 p q) = A (ix2 r s)) (h1 : x1 (ix2 (0 : Fin 1) q) = mu (ix2 (0 : Fin 1) s))
    (h2 : x2 (ix2 (0 : Fin 1) q) = var (ix2 (0 : Fin 1) s)) (h3 : x3 (ix2 (0 : Fin 1) q) = g (ix2 (0 : Fin 1) s))
    (h4 : x4 (ix2 (0 : Fin 1) q) = be (ix2 (0 : Fin 1) s)) :
    k1_pay1 (F := Ideal) x0 x1 x2 x3 x4 (ix2 p q) = Cert.Sage.bn A mu var g be (ix2 r s) := by
  rw [pay1_apply, h0, h1, h2, h3, h4]
  rfl

/-- The whole-array normalisation of the arrays the region finds. -/
abbrev bnOf1 (c : Dev nD) : FVec Ideal ⟨2, ![100000, 128]⟩ .f32 :=
  Cert.Sage.bn (N := 100000) (M := 128) (V c main_v20) (V c main_v25) (V c main_v26) (V c main_v27) (V c main_v28)

/-- What point `t` writes back is block `t` of the whole-array normalisation. -/
theorem flushed1_eq (c : Dev nD) (t : Fin cfg1.N) :
    (dat1 (F := Ideal) V c).flushed 5 t = ((cfg1.win 5).blk t).view.read (Elt Ideal) (bnOf1 V c) := by
  show (cfg1.win 5).cut (grid1.coords t) ((dat1 (F := Ideal) V c).after 5 t) = _
  rw [after1_5]
  unfold out1_5
  rw [View.canon_unit_zero zeroOffsets1]
  simp only [View.ld_unit_zero (S := S5000x128) zeroOffsets1, View.ld_unit_zero (S := S1x128) zeroOffsets1]
  obtain ⟨e00, e01, e10, e11, e20, e21, e30, e31, e40, e41, e50, e51⟩ := blockIdx1 t
  have ht : t.val < 20 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hq : q.val < 128 := q.isLt
  have hemb : ((cfg1.win 5).blk t).view.emb (ix2 p q) = ix2 (⟨t.val * 5000 + p.val, by omega⟩ : Fin 100000) q := by
    refine funext fun a => Fin.ext ?_
    match a with
    | ⟨0, _⟩ => show win1_5.index t (0 : Fin 2) * 5000 + 1 * p.val = t.val * 5000 + p.val; omega
    | ⟨1, _⟩ => show win1_5.index t (1 : Fin 2) * 128 + 1 * q.val = q.val; omega
  refine (body1_eq_bn _ _ _ _ _ _ _ _ _ _ p q (⟨t.val * 5000 + p.val, by omega⟩ : Fin 100000) q ?_ ?_ ?_ ?_ ?_).trans
    (congrArg (bnOf1 V c) hemb.symm)
  · show V c main_v20 (((cfg1.win 0).blk t).view.emb (ix2 p q)) = V c main_v20 (ix2 (⟨t.val * 5000 + p.val, by omega⟩ : Fin 100000) q)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  · show V c main_v25 (((cfg1.win 1).blk t).view.emb (ix2 (0 : Fin 1) q)) = V c main_v25 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show V c main_v26 (((cfg1.win 2).blk t).view.emb (ix2 (0 : Fin 1) q)) = V c main_v26 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show V c main_v27 (((cfg1.win 3).blk t).view.emb (ix2 (0 : Fin 1) q)) = V c main_v27 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · show V c main_v28 (((cfg1.win 4).blk t).view.emb (ix2 (0 : Fin 1) q)) = V c main_v28 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

/-- An index of the output array is in point `t`'s block iff each coordinate is in the block's range on its axis. -/
theorem mem_block1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- Every index of the output array is in the block of the point its row falls to. -/
theorem covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41, e50, e51⟩ := blockIdx1 t
  refine ⟨t, flush1_5 t, ?_⟩
  rw [mem_block1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region is the whole-array normalisation of the arrays the region finds. -/
theorem final1 (c : Dev nD) :
    (dat1 (F := Ideal) V c).arrAt 5 cfg1.N
      = Cert.Sage.bn (N := 100000) (M := 128) (V c main_v20) (V c main_v25) (V c main_v26) (V c main_v27) (V c main_v28) :=
  (dat1 (F := Ideal) V c).arrAt_eq_of_cover 5 (bnOf1 V c) (fun t _ => flushed1_eq V c t) (covered1)

end Cert.Sage.K

end
-- ==== Proof.KBn3.lean ====
/-
  The second batch-normalisation region as one function of whole arrays.

  The region runs the normalisation body on twenty blocks of 5000 consecutive rows (all 128 columns) of the
  pre-activation array, each time with the same four one-row matrices, and writes each result to the same rows of
  the output array. The body works entry by entry, so block t of the output is block t of the whole-array
  normalisation; the twenty blocks cover all 100000 rows (row r lies in block r / 5000), so the output array is the
  whole-array normalisation of the arrays the region finds.
-/
import proofs.«142724_j51462298140964_1_alg».proof.Proof.Gen.KernelIdeal.Frame
import proofs.«142724_j51462298140964_1_alg».proof.Proof.Spec
import proofs.«142724_j51462298140964_1_alg».proof.Proof.KBnPayload
import Idealize.ShloMosaic.Lib.Pipeline.Value

noncomputable section

namespace Cert.Sage.K

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets3 : (![0, 0] : Fin 2 → Nat) = fun _ => 0 := funext fun a => by fin_cases a <;> rfl

/-- The block indices, decided over the twenty points: the pre-activation and the output move down the rows with the
    point, the four one-row matrices stay at block (0, 0). -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The body on a block is the whole-array normalisation at the array entry the block's entry sits at: when the
    block's entry (p, q) is the pre-activation at (r, s) and row 0 of each one-row block at column q is that matrix
    at column s. -/
theorem body3_eq_bn (A : FVec Ideal ⟨2, ![100000, 128]⟩ .f32) (mu var g be : FVec Ideal ⟨2, ![1, 128]⟩ .f32)
    (x0 : Vec Ideal S5000x128 .f32) (x1 x2 x3 x4 : Vec Ideal S1x128 .f32) (p : Fin 5000) (q : Fin 128)
    (r : Fin 100000) (s : Fin 128)
    (h0 : x0 (ix2 p q) = A (ix2 r s)) (h1 : x1 (ix2 (0 : Fin 1) q) = mu (ix2 (0 : Fin 1) s))
    (h2 : x2 (ix2 (0 : Fin 1) q) = var (ix2 (0 : Fin 1) s)) (h3 : x3 (ix2 (0 : Fin 1) q) = g (ix2 (0 : Fin 1) s))
    (h4 : x4 (ix2 (0 : Fin 1) q) = be (ix2 (0 : Fin 1) s)) :
    k3_pay1 (F := Ideal) x0 x1 x2 x3 x4 (ix2 p q) = Cert.Sage.bn A mu var g be (ix2 r s) := by
  rw [pay3_apply, h0, h1, h2, h3, h4]
  rfl

/-- The whole-array normalisation of the arrays the region finds. -/
abbrev bnOf3 (c : Dev nD) : FVec Ideal ⟨2, ![100000, 128]⟩ .f32 :=
  Cert.Sage.bn (N := 100000) (M := 128) (V c main_v50) (V c main_v55) (V c main_v56) (V c main_v57) (V c main_v58)

/-- What point `t` writes back is block `t` of the whole-array normalisation. -/
theorem flushed3_eq (c : Dev nD) (t : Fin cfg3.N) :
    (dat3 (F := Ideal) V c).flushed 5 t = ((cfg3.win 5).blk t).view.read (Elt Ideal) (bnOf3 V c) := by
  show (cfg3.win 5).cut (grid3.coords t) ((dat3 (F := Ideal) V c).after 5 t) = _
  rw [after3_5]
  unfold out3_5
  rw [View.canon_unit_zero zeroOffsets3]
  simp only [View.ld_unit_zero (S := S5000x128) zeroOffsets3, View.ld_unit_zero (S := S1x128) zeroOffsets3]
  obtain ⟨e00, e01, e10, e11, e20, e21, e30, e31, e40, e41, e50, e51⟩ := blockIdx3 t
  have ht : t.val < 20 := lt_of_lt_of_eq t.isLt N_3
  funext j
  obtain ⟨p, q, rfl⟩ : ∃ (p : Fin 5000) (q : Fin 128), j = ix2 p q := ⟨j 0, j 1, eq_ix2 j⟩
  have hp : p.val < 5000 := p.isLt
  have hq : q.val < 128 := q.isLt
  have hemb : ((cfg3.win 5).blk t).view.emb (ix2 p q) = ix2 (⟨t.val * 5000 + p.val, by omega⟩ : Fin 100000) q := by
    refine funext fun a => Fin.ext ?_
    match a with
    | ⟨0, _⟩ => show win3_5.index t (0 : Fin 2) * 5000 + 1 * p.val = t.val * 5000 + p.val; omega
    | ⟨1, _⟩ => show win3_5.index t (1 : Fin 2) * 128 + 1 * q.val = q.val; omega
  refine (body3_eq_bn _ _ _ _ _ _ _ _ _ _ p q (⟨t.val * 5000 + p.val, by omega⟩ : Fin 100000) q ?_ ?_ ?_ ?_ ?_).trans
    (congrArg (bnOf3 V c) hemb.symm)
  · show V c main_v50 (((cfg3.win 0).blk t).view.emb (ix2 p q)) = V c main_v50 (ix2 (⟨t.val * 5000 + p.val, by omega⟩ : Fin 100000) q)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  · show V c main_v55 (((cfg3.win 1).blk t).view.emb (ix2 (0 : Fin 1) q)) = V c main_v55 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · show V c main_v56 (((cfg3.win 2).blk t).view.emb (ix2 (0 : Fin 1) q)) = V c main_v56 (ix2 (0 : Fin 1) q)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  · show V c main_v57 (((cfg3.win 3).blk t).view.emb (ix2 (0 : Fin 1) q)) = V c main_v57 (ix2 (0 : Fin 1) q)
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  · show V c main_v58 (((cfg3.win 4).blk t).view.emb (ix2 (0 : Fin 1) q)) = V c main_v58 (ix2 (0 : Fin 1) q)
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega

/-- An index of the output array is in point `t`'s block iff each coordinate is in the block's range on its axis. -/
theorem mem_block3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v59).slice (win3_5.rect t)).set ↔ _
  rw [View.set_slice_whole, Rect.mem_set_unit]
  exact Iff.rfl

/-- Every index of the output array is in the block of the point its row falls to. -/
theorem covered3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e00, e01, e10, e11, e20, e21, e30, e31, e40, e41, e50, e51⟩ := blockIdx3 t
  refine ⟨t, flush3_5 t, ?_⟩
  rw [mem_block3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the region is the whole-array normalisation of the arrays the region finds. -/
theorem final3 (c : Dev nD) :
    (dat3 (F := Ideal) V c).arrAt 5 cfg3.N
      = Cert.Sage.bn (N := 100000) (M := 128) (V c main_v50) (V c main_v55) (V c main_v56) (V c main_v57) (V c main_v58) :=
  (dat3 (F := Ideal) V c).arrAt_eq_of_cover 5 (bnOf3 V c) (fun t _ => flushed3_eq V c t) (covered3)

end Cert.Sage.K

end
-- ==== Proof.LibKeepdimsColumn.lean ====
/-
  Column layouts read at coordinates.

  A row reduction that keeps its axis (a mean or a variance over the lanes of each row, kept as a column) reaches the
  rest of a computation through two layout steps: the vector of per-row values, of extent `a`, is viewed as an
  `a × 1` column, and that column is repeated across `b` lanes to meet an `a × b` matrix. Both steps move no
  value: the column at `(i, 0)` is the vector at `i`, and the repeated column at `(p, c)` is the column at
  `(p, 0)`, whatever the lane `c`. The two lemmas below say exactly that, at indices written by coordinates, for
  any extents.
-/
import Idealize.ShloMosaic.Lib.Pipeline.Value
import Idealize.ShloMosaic.Lib.ValueIdx

namespace KeepdimsColumn

open Idealize.ShloMosaic Idealize.ShloMosaic.ValueIdx

variable {α : Type}

/-- A vector of extent `a` viewed as an `a × 1` column reads, at `(i, u)`, the vector at `i`: the unit
    coordinate `u` can only be `0`, and both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` lanes reads, at `(p, c)`, the column's entry of row `p`: the row
    coordinate is kept (it is `0` anyway when there is one row only) and the lane coordinate is dropped to the
    column's single lane. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.KLsmPayload.lean ====
/-
  The log-softmax body at an entry.

  On a block of 5000 rows and 64 columns the body takes each row's maximum M(p) (a fold of max from −∞ over the 64
  lanes), subtracts it, exponentiates, sums each row's 64 exponentials, takes the logarithm and subtracts it again:
  entry (p, q) is  (x(p,q) − M(p)) − log Σ_j exp(x(p,j) − M(p)).  The two row reductions reach the matrix through a
  column view (row p of the column is the vector's entry p) repeated across the lanes.
-/
import proofs.«142724_j51462298140964_1_alg».proof.Proof.Gen.KernelIdeal.Skeleton
import proofs.«142724_j51462298140964_1_alg».proof.Proof.Spec
import proofs.«142724_j51462298140964_1_alg».proof.Proof.LibKeepdimsColumn
import Idealize.ShloMosaic.Lib.Pipeline.Value
import Idealize.ShloMosaic.Lib.ValueIdx
import Idealize.ShloMosaic.PureOps.Ideal.Laws

noncomputable section

namespace Cert.Sage.K

open Idealize.ShloMosaic Idealize.ShloMosaic.ValueIdx
open Cert.KernelIdeal Cert.KernelIdeal.Gen

/-- The elementwise exponential at an entry. -/
theorem exp_apply {s : Shape} {φ : FTy} (a : FVec Ideal s φ) (i : s.Idx) : exp a i = Ideal.exp (a i) := rfl

/-- The elementwise logarithm at an entry. -/
theorem log_apply {s : Shape} {φ : FTy} (a : FVec Ideal s φ) (i : s.Idx) : log a i = Ideal.log (a i) := rfl

/-- Row `p` of the reduced vector with lane `k` put back is the matrix entry (p, k). -/
theorem lift_lane (h : (⟨2, ![5000, 64]⟩ : Shape).Reduces [1] (⟨1, ![5000]⟩ : Shape)) (p : Fin 5000) (k : Fin 64) :
    h.lift (ix1 p) k = ix2 p k := by
  funext c; apply Fin.ext
  fin_cases c <;> rfl

/-- The lane maximum from −∞, at row `p`, is the row's maximum. -/
theorem laneMax_apply (x : FVec Ideal S5000x64 .f32) (h : S5000x64.Reduces [1] S5000) (hφ : FKind.Formats .f32)
    (hacc : (0xFF800000#32 : BitVec 32) = FKind.maximumf.neutral .f32 hφ) (p : Fin 5000) :
    multiReduction (F := Ideal) .maximumf [1] S5000 x 0xFF800000#32 h hφ hacc (ix1 p) = Cert.Sage.rowMax x p := by
  refine (Ideal.multiReduction_maximumf_single x 0xFF800000#32 h hφ hacc (ix1 p)).trans ?_
  unfold Cert.Sage.rowMax
  have hf : (x ∘ h.lift (ix1 p)) = fun k : Fin 64 => x (ix2 p k) := funext fun k => congrArg x (lift_lane h p k)
  exact congrArg (fun f => Finset.fold max (Ideal.ofBits .f32 0xFF800000#32) f (Finset.univ : Finset (Fin 64))) hf

/-- The lane sum from zero, at row `p`, is the sum of the row's 64 entries. -/
theorem laneSum_apply (x : FVec Ideal S5000x64 .f32) (h : S5000x64.Reduces [1] S5000) (hφ : FKind.Formats .f32)
    (hacc : (0x00000000#32 : BitVec 32) = FKind.add.neutral .f32 hφ) (p : Fin 5000) :
    multiReduction (F := Ideal) .add [1] S5000 x 0x00000000#32 h hφ hacc (ix1 p) = ∑ k : Fin 64, x (ix2 p k) := by
  refine (Ideal.multiReduction_add_single x 0x00000000#32 h hφ hacc (ix1 p)).trans ?_
  exact Finset.sum_congr rfl fun k _ => congrArg x (lift_lane h p k)

/-- The log-softmax body at row `p`, column `q`. -/
theorem pay5_apply (x : Vec Ideal S5000x64 .f32) (p : Fin 5000) (q : Fin 64) :
    k5_pay1 (F := Ideal) x (ix2 p q) = Cert.Sage.lsmAt (N := 5000) (M := 64) x p q := by
  unfold k5_pay1
  simp only [shapeCast_self, subf_apply, log_apply, KeepdimsColumn.broadcastTo_a1_ab_apply,
    KeepdimsColumn.shapeCast_a_a1_apply]
  unfold Cert.Sage.lsmAt
  refine congrArg₂ (fun a b : EReal => a - b) (congrArg (fun m : EReal => x (ix2 p q) - m) (laneMax_apply x _ _ _ p))
    (congrArg Ideal.log ?_)
  refine (laneSum_apply _ _ _ _ p).trans ?_
  refine Finset.sum_congr rfl fun k _ => ?_
  simp only [exp_apply, subf_apply, KeepdimsColumn.broadcastTo_a1_ab_apply, KeepdimsColumn.shapeCast_a_a1_apply]
  exact congrArg (fun m : EReal => Ideal.exp (x (ix2 p k) - m)) (laneMax_apply x _ _ _ p)

end Cert.Sage.K

end
-- ==== Proof.KLsm5.lean ====
/-
  The log-softmax region as one function of whole arrays.

  The region runs the log-softmax body on twenty blocks of 5000 consecutive rows, each block holding its rows in
  full (all 64 columns), and writes each result to the same rows of the output array. The body treats every row on
  its own, and a block's row is a whole row of the array, so block t of the output is block t of the whole-array
  row-wise log-softmax; the twenty blocks cover all 100000 rows (row r lies in block r / 5000), so the output array
  is the row-wise log-softmax of the array the region finds.
-/
import proofs.«142724_j51462298140964_1_alg».proof.Proof.Gen.KernelIdeal.Frame
import proofs.«142724_j51462298140964_1_alg».proof.Proof.Spec
import proofs.«142724_j51462298140964_1_alg».proof.Proof.KLsmPayload
import Idealize.ShloMosaic.Lib.Pipeline.Value

noncomputable section

namespace Cert.Sage.K

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets5 : (![0, 0] : Fin 2 → Nat) = fun _ => 0 := funext fun a => by fin_cases a <;> rfl

/-- The block indices, decided over the twenty points: the input and the output move down the rows with the point. -/
theorem blockIdx5 : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

/-- The body on a block is the whole-array log-softmax at the array entry the block's entry sits at, when the
    block's row `p` is the array's row `r`, lane by lane. -/
theorem body5_eq_lsm (A : FVec Ideal ⟨2, ![100000, 64]⟩ .f32) (x : Vec Ideal S5000x64 .f32) (p : Fin 5000) (q : Fin 64)
    (r : Fin 100000) (hrow : ∀ k : Fin 64, x (ix2 p k) = A (ix2 r k)) :
    k5_pay1 (F := Ideal) x (ix2 p q) = Cert.Sage.lsm A (ix2 r q) := by
  rw [pay5_apply]
  show Cert.Sage.lsmAt (N := 5000) (M := 64) x p q = Cert.Sage.lsmAt A r q
  unfold Cert.Sage.lsmAt Cert.Sage.rowMax
  simp only [hrow]

/-- The row-wise log-softmax of the array the region finds. -/
abbrev lsmOf5 (c : Dev nD) : FVec Ideal ⟨2, ![100000, 64]⟩ .f32 :=
  Cert.Sage.lsm (N := 100000) (M := 64) (V c main_v80)

/-- What point `t` writes back is block `t` of the whole-array log-softmax. -/
theorem flushed5_eq (c : Dev nD) (t : Fin cfg5.N) :
    (dat5 (F := Ideal) V c).flushed 1 t = ((cfg5.win 1).blk t).view.read (Elt Ideal) (lsmOf5 V c) := by
  show (cfg5.win 1).cut (grid5.coords t) ((dat5 (F := Ideal) V c).after 1 t) = _
  rw [after5_1]
  unfold out5_1
  rw [View.canon_unit_zero zeroOffsets5]
  simp only [View.ld_unit_zero (S := S5000x64) zeroOffsets5]
  obtain ⟨e00, e01, e10, e11⟩ := blockIdx5 t
  have ht : t.val < 20 := lt_of_lt_of_eq t.isLt N_5
  funext j
  obtain ⟨p, q, rfl⟩ : ∃ (p : Fin 5000) (q : Fin 64), j = ix2 p q := ⟨j 0, j 1, eq_ix2 j⟩
  have hp : p.val < 5000 := p.isLt
  have hq : q.val < 64 := q.isLt
  have hemb : ((cfg5.win 1).blk t).view.emb (ix2 p q) = ix2 (⟨t.val * 5000 + p.val, by omega⟩ : Fin 100000) q := by
    refine funext fun a => Fin.ext ?_
    match a with
    | ⟨0, _⟩ => show win5_1.index t (0 : Fin 2) * 5000 + 1 * p.val = t.val * 5000 + p.val; omega
    | ⟨1, _⟩ => show win5_1.index t (1 : Fin 2) * 64 + 1 * q.val = q.val; omega
  refine (body5_eq_lsm _ _ p q (⟨t.val * 5000 + p.val, by omega⟩ : Fin 100000) (fun k => ?_)).trans
    (congrArg (lsmOf5 V c) hemb.symm)
  have hk : k.val < 64 := k.isLt
  show V c main_v80 (((cfg5.win 0).blk t).view.emb (ix2 p k)) = V c main_v80 (ix2 (⟨t.val * 5000 + p.val, by omega⟩ : Fin 100000) k)
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 64 + 1 * k.val = k.val; omega

/-- An index of the output array is in point `t`'s block iff each coordinate is in the block's range on its axis. -/
theorem mem_block5 (t : Fin cfg5.N) (i : S100000x64.Idx) :
    i ∈ ((cfg5.win 1).blk t).view.set ↔ ∀ a : Fin 2, win5_1.index t a * S5000x64.size a ≤ (i a).val ∧ (i a).val < win5_1.index t a * S5000x64.size a + S5000x64.size a := by
  show i ∈ ((View.whole main_v81).slice (win5_1.rect t)).set ↔ _
  rw [View.set_slice_whole, Rect.mem_set_unit]
  exact Iff.rfl

/-- Every index of the output array is in the block of the point its row falls to. -/
theorem covered5 (i : S100000x64.Idx) :
    ∃ t : Fin cfg5.N, (cfg5.win 1).flush t = true ∧ i ∈ ((cfg5.win 1).blk t).view.set := by
  have hi0 : (i 0).val < 100000 := (i 0).isLt
  have hi1 : (i 1).val < 64 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨e00, e01, e10, e11⟩ := blockIdx5 t
  refine ⟨t, flush5_1 t, ?_⟩
  rw [mem_block5]
  intro a
  match a with
  | ⟨0, _⟩ => show win5_1.index t (0 : Fin 2) * 5000 ≤ (i 0).val ∧ (i 0).val < win5_1.index t (0 : Fin 2) * 5000 + 5000; omega
  | ⟨1, _⟩ => show win5_1.index t (1 : Fin 2) * 64 ≤ (i 1).val ∧ (i 1).val < win5_1.index t (1 : Fin 2) * 64 + 64; omega

/-- The output array after the region is the row-wise log-softmax of the array the region finds. -/
theorem final5 (c : Dev nD) :
    (dat5 (F := Ideal) V c).arrAt 1 cfg5.N = Cert.Sage.lsm (N := 100000) (M := 64) (V c main_v80) :=
  (dat5 (F := Ideal) V c).arrAt_eq_of_cover 1 (lsmOf5 V c) (fun t _ => flushed5_eq V c t) (covered5)

end Cert.Sage.K

end
-- ==== Proof.KValue.lean ====
/-
  The kernel program's result as one function of its argument arrays: the six regions' whole-array functions and the
  host operations between them, composed in program order.
-/
import proofs.«142724_j51462298140964_1_alg».proof.Proof.Net
import proofs.«142724_j51462298140964_1_alg».proof.Proof.KHost
import proofs.«142724_j51462298140964_1_alg».proof.Proof.KKeep
import proofs.«142724_j51462298140964_1_alg».proof.Proof.KLin0
import proofs.«142724_j51462298140964_1_alg».proof.Proof.KLin2
import proofs.«142724_j51462298140964_1_alg».proof.Proof.KLin4
import proofs.«142724_j51462298140964_1_alg».proof.Proof.KBn1
import proofs.«142724_j51462298140964_1_alg».proof.Proof.KBn3
import proofs.«142724_j51462298140964_1_alg».proof.Proof.KLsm5

set_option maxRecDepth 16384

noncomputable section

namespace Cert.Sage

open Idealize.ShloMosaic Idealize.ShloMosaic.TcCoe Idealize.SL.Sem Cert.KernelIdeal Cert.KernelIdeal.Facts₀

namespace K

open Idealize.ShloMosaic.StableHlo Cert.KernelIdeal.Gen

variable (m : (ℓ : Loc nD τ sig) → Buf (Elt Ideal) ℓ) (ρ : Dev nD → PrngReg) (c : Dev nD)

/-- A linear region's result from what the region finds: the layer input `hin`, the host's mean aggregation of it
    and the bias row, the two weight matrices untouched arguments. -/
theorem lin_step {M : ℕ} {hin : (⟨S100000x128, .f32⟩ : BufTy).Contents (Elt Ideal)}
    {x0 x1 : (⟨S100000x128, .f32⟩ : BufTy).Contents (Elt Ideal)} {x2 x3 : FVec Ideal ⟨2, ![128, M]⟩ .f32}
    {x4 : FVec Ideal ⟨2, ![1, M]⟩ .f32} {ws wn : FVec Ideal ⟨2, ![128, M]⟩ .f32} {b : FVec Ideal ⟨2, ![1, M]⟩ .f32}
    (e0 : x0 = hin) (e1 : x1 = agg hin (m ((c : Thread nD τ).loc main_arg1)) (m ((c : Thread nD τ).loc main_arg2))) (e2 : x2 = ws) (e3 : x3 = wn) (e4 : x4 = b) :
    lin (N := 100000) (K := 128) (M := M) x0 x1 x2 x3 x4 = lin (N := 100000) (K := 128) (M := M) hin (agg hin (m ((c : Thread nD τ).loc main_arg1)) (m ((c : Thread nD τ).loc main_arg2))) ws wn b := by
  rw [e0, e1, e2, e3, e4]

/-! ### First layer -/

/-- The first linear region's result. -/
theorem W2_v20 : W2 m ρ c (Proc.devRef .tc main_v20)
    = lin (N := 100000) (K := 128) (M := 128) (m ((c : Thread nD τ).loc main_arg0)) (agg (m ((c : Thread nD τ).loc main_arg0)) (m ((c : Thread nD τ).loc main_arg1)) (m ((c : Thread nD τ).loc main_arg2))) (m ((c : Thread nD τ).loc main_arg3)) (m ((c : Thread nD τ).loc main_arg4)) (row128 (m ((c : Thread nD τ).loc main_arg5))) :=
  (W2_arr m ρ c 5).trans ((final0 (V1 m ρ) c).trans (lin_step m c
    (keepW1 m ρ c untouched_arg0) (hostOps0_agg (W0 m ρ c)) (keepW1 m ρ c untouched_arg3) (keepW1 m ρ c untouched_arg4)
    (hostOps0_row (W0 m ρ c))))

/-- A normalisation region's result from what the region finds. -/
theorem bn_step {pre : (⟨S100000x128, .f32⟩ : BufTy).Contents (Elt Ideal)}
    {x0 : (⟨S100000x128, .f32⟩ : BufTy).Contents (Elt Ideal)} {x1 x2 x3 x4 : FVec Ideal ⟨2, ![1, 128]⟩ .f32}
    {g be : (⟨S128, .f32⟩ : BufTy).Contents (Elt Ideal)}
    (e0 : x0 = pre) (e1 : x1 = row128 (meanv pre)) (e2 : x2 = row128 (varv pre)) (e3 : x3 = row128 g) (e4 : x4 = row128 be) :
    bn (N := 100000) (M := 128) x0 x1 x2 x3 x4
      = bn (N := 100000) (M := 128) pre (row128 (meanv pre)) (row128 (varv pre)) (row128 g) (row128 be) := by
  rw [e0, e1, e2, e3, e4]

theorem W3_v20 : W3 m ρ c (Proc.devRef .tc main_v20) = W2 m ρ c (Proc.devRef .tc main_v20) := after_of_forall_not_mem _ _ (by not_written hostOps1)
theorem W4_v20 : W4 m ρ c (Proc.devRef .tc main_v20) = W2 m ρ c (Proc.devRef .tc main_v20) :=
  (after_of_forall_not_mem _ _ (by not_written hostOps1_1)).trans (W3_v20 m ρ c)
theorem W5_v20 : W5 m ρ c (Proc.devRef .tc main_v20) = W2 m ρ c (Proc.devRef .tc main_v20) :=
  (after_of_forall_not_mem _ _ (by not_written hostOps1_2)).trans (W4_v20 m ρ c)
theorem W4_v23 : W4 m ρ c (Proc.devRef .tc main_v23) = meanv (W2 m ρ c (Proc.devRef .tc main_v20)) :=
  (after_of_forall_not_mem _ _ (by not_written hostOps1_1)).trans (hostOps1_mean (W2 m ρ c))
theorem W4_v24 : W4 m ρ c (Proc.devRef .tc main_v24) = varv (W2 m ρ c (Proc.devRef .tc main_v20)) := by
  refine (hostOps1_1_var (W3 m ρ c)).trans ?_
  rw [W3_v20 m ρ c, show W3 m ρ c (Proc.devRef .tc main_c_6) = _ from hostOps1_ddof (W2 m ρ c)]
  rfl

/-- The first hidden layer's output. -/
theorem W6_v29 : W6 m ρ c (Proc.devRef .tc main_v29) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W6_arr m ρ c 5).trans ((final1 (V5 m ρ) c).trans ((bn_step
    ((W5_v20 m ρ c).trans (W2_v20 m ρ c))
    ((hostOps1_2_r1 (W4 m ρ c)).trans (by rw [W4_v23 m ρ c, W2_v20 m ρ c]))
    ((hostOps1_2_r2 (W4 m ρ c)).trans (by rw [W4_v24 m ρ c, W2_v20 m ρ c]))
    ((hostOps1_2_r3 (W4 m ρ c)).trans (by rw [keepW4 m ρ c untouched_arg6]))
    ((hostOps1_2_r4 (W4 m ρ c)).trans (by rw [keepW4 m ρ c untouched_arg7]))).trans rfl))

/-! ### Second layer -/

theorem W7_v29 : W7 m ρ c (Proc.devRef .tc main_v29) = W6 m ρ c (Proc.devRef .tc main_v29) := after_of_forall_not_mem _ _ (by not_written hostOps2)

/-- The second linear region's result. -/
theorem W8_v50 : W8 m ρ c (Proc.devRef .tc main_v50)
    = lin (N := 100000) (K := 128) (M := 128) (W6 m ρ c (Proc.devRef .tc main_v29)) (agg (W6 m ρ c (Proc.devRef .tc main_v29)) (m ((c : Thread nD τ).loc main_arg1)) (m ((c : Thread nD τ).loc main_arg2))) (m ((c : Thread nD τ).loc main_arg8)) (m ((c : Thread nD τ).loc main_arg9)) (row128 (m ((c : Thread nD τ).loc main_arg10))) :=
  (W8_arr m ρ c 5).trans ((final2 (V7 m ρ) c).trans (lin_step m c
    (W7_v29 m ρ c)
    ((hostOps2_agg (W6 m ρ c)).trans (by rw [keepW6 m ρ c untouched_arg1, keepW6 m ρ c untouched_arg2]))
    (keepW7 m ρ c untouched_arg8) (keepW7 m ρ c untouched_arg9)
    ((hostOps2_row (W6 m ρ c)).trans (by rw [keepW6 m ρ c untouched_arg10]))))

theorem W9_v50 : W9 m ρ c (Proc.devRef .tc main_v50) = W8 m ρ c (Proc.devRef .tc main_v50) := after_of_forall_not_mem _ _ (by not_written hostOps3)
theorem W10_v50 : W10 m ρ c (Proc.devRef .tc main_v50) = W8 m ρ c (Proc.devRef .tc main_v50) :=
  (after_of_forall_not_mem _ _ (by not_written hostOps3_1)).trans (W9_v50 m ρ c)
theorem W11_v50 : W11 m ρ c (Proc.devRef .tc main_v50) = W8 m ρ c (Proc.devRef .tc main_v50) :=
  (after_of_forall_not_mem _ _ (by not_written hostOps3_2)).trans (W10_v50 m ρ c)
theorem W10_v53 : W10 m ρ c (Proc.devRef .tc main_v53) = meanv (W8 m ρ c (Proc.devRef .tc main_v50)) :=
  (after_of_forall_not_mem _ _ (by not_written hostOps3_1)).trans (hostOps3_mean (W8 m ρ c))
theorem W10_v54 : W10 m ρ c (Proc.devRef .tc main_v54) = varv (W8 m ρ c (Proc.devRef .tc main_v50)) := by
  refine (hostOps3_1_var (W9 m ρ c)).trans ?_
  rw [W9_v50 m ρ c, show W9 m ρ c (Proc.devRef .tc main_c_15) = _ from hostOps3_ddof (W8 m ρ c)]
  rfl

/-- The second hidden layer's output. -/
theorem W12_v59 : W12 m ρ c (Proc.devRef .tc main_v59) = hidden (W6 m ρ c (Proc.devRef .tc main_v29)) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12)) :=
  (W12_arr m ρ c 5).trans ((final3 (V11 m ρ) c).trans ((bn_step
    ((W11_v50 m ρ c).trans (W8_v50 m ρ c))
    ((hostOps3_2_r1 (W10 m ρ c)).trans (by rw [W10_v53 m ρ c, W8_v50 m ρ c]))
    ((hostOps3_2_r2 (W10 m ρ c)).trans (by rw [W10_v54 m ρ c, W8_v50 m ρ c]))
    ((hostOps3_2_r3 (W10 m ρ c)).trans (by rw [keepW10 m ρ c untouched_arg11]))
    ((hostOps3_2_r4 (W10 m ρ c)).trans (by rw [keepW10 m ρ c untouched_arg12]))).trans rfl))

/-! ### Output layer -/

theorem W13_v59 : W13 m ρ c (Proc.devRef .tc main_v59) = W12 m ρ c (Proc.devRef .tc main_v59) := after_of_forall_not_mem _ _ (by not_written hostOps4)

/-- The third linear region's result. -/
theorem W14_v80 : W14 m ρ c (Proc.devRef .tc main_v80)
    = lin (N := 100000) (K := 128) (M := 64) (W12 m ρ c (Proc.devRef .tc main_v59)) (agg (W12 m ρ c (Proc.devRef .tc main_v59)) (m ((c : Thread nD τ).loc main_arg1)) (m ((c : Thread nD τ).loc main_arg2))) (m ((c : Thread nD τ).loc main_arg13)) (m ((c : Thread nD τ).loc main_arg14)) (row64 (m ((c : Thread nD τ).loc main_arg15))) :=
  (W14_arr m ρ c 5).trans ((final4 (V13 m ρ) c).trans (lin_step m c
    (W13_v59 m ρ c)
    ((hostOps4_agg (W12 m ρ c)).trans (by rw [keepW12 m ρ c untouched_arg1, keepW12 m ρ c untouched_arg2]))
    (keepW13 m ρ c untouched_arg13) (keepW13 m ρ c untouched_arg14)
    ((hostOps4_row (W12 m ρ c)).trans (by rw [keepW12 m ρ c untouched_arg15]))))

/-- THE RESULT ARRAY of the kernel program: the network of its sixteen argument arrays. -/
theorem W15_v81 : W15 m ρ c (Proc.devRef .tc main_v81)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W15_arr m ρ c 1).trans ((final5 (V14 m ρ) c).trans ?_)
  show lsm (N := 100000) (M := 64) (W14 m ρ c (Proc.devRef .tc main_v80)) = _
  rw [W14_v80 m ρ c, W12_v59 m ρ c, W6_v29 m ρ c]
  rfl

end K

end Cert.Sage

end
-- ==== Proof.RefStages.lean ====
/-
  The plain three-layer mean-aggregation graph network, stage by stage, as whole-array functions on the extended reals.

  Each stage is the composition of the whole-array operations the plain program applies, in its order:
  the mean over in-neighbours (rows gathered at the source index, summed into the destination row, divided by the
  in-degree clamped below by one), the linear combine  h·Wself + agg·Wneigh + b,  the per-column mean and (biased)
  variance over the rows, normalisation by the reciprocal square root of variance plus ε followed by scale, shift and
  the rectifier, and the row-wise log-softmax.
-/
import proofs.«142724_j51462298140964_1_alg».proof.Proof.Gen.ReferenceIdeal
import Idealize.ShloMosaic.PureOps.Ideal

noncomputable section

namespace Cert.Sage.Ref

open Cert.ReferenceIdeal Cert.ReferenceIdeal.Facts₀ Idealize.ShloMosaic Idealize.ShloMosaic.TcCoe Idealize.SL.Sem Idealize.ShloMosaic.StableHlo

/-- Mean over in-neighbours: rows of `h` gathered at `src` (a negative index wrapped by the row count), summed into row
    `dst`, each row divided by max(in-degree, 1). -/
def aggR (h : FVec Ideal S100000x128 .f32) (src dst : IVec S1600000 32) : FVec Ideal S100000x128 .f32 :=
  Host.divf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))

/-- The linear combine  h·Wself + agg·Wneigh + b  (the bias broadcast over the rows), 128 output columns. -/
def linR128 (h agg : FVec Ideal S100000x128 .f32) (ws wn : FVec Ideal S128x128 .f32) (b : FVec Ideal S128 .f32) : FVec Ideal S100000x128 .f32 :=
  addf (addf (Host.dotGeneral dot_S100000x128_S128x128_S100000x128_1_0_0_1_n_n none h ws) (Host.dotGeneral dot_S100000x128_S128x128_S100000x128_1_0_0_1_n_n none agg wn)) (broadcastInDim S100000x128 ![0, 1] bcast_S1x128_S100000x128_0_1 (broadcastInDim S1x128 ![1] bcast_S128_S1x128_1 b))

/-- The linear combine with 64 output columns. -/
def linR64 (h agg : FVec Ideal S100000x128 .f32) (ws wn : FVec Ideal S128x64 .f32) (b : FVec Ideal S64 .f32) : FVec Ideal S100000x64 .f32 :=
  addf (addf (Host.dotGeneral dot_S100000x128_S128x64_S100000x64_1_0_0_1_n_n none h ws) (Host.dotGeneral dot_S100000x128_S128x64_S100000x64_1_0_0_1_n_n none agg wn)) (broadcastInDim S100000x64 ![0, 1] bcast_S1x64_S100000x64_0_1 (broadcastInDim S1x64 ![1] bcast_S64_S1x64_1 b))

/-- The per-column mean over the 100000 rows. -/
def meanR (pre : FVec Ideal S100000x128 .f32) : FVec Ideal S128 .f32 :=
  Host.divf (Host.reduceAdd pre (constant (F := Ideal) S_ .f32 0x00000000#32) reducesTo_S100000x128_S128_d0 h_S_) (broadcastInDim S128 ![] bcast_S_S128 (constant (F := Ideal) S_ .f32 0x47C35000#32))

/-- The per-column variance over the rows: the sum of squared deviations from the column mean, divided by
    100000 − 0, kept where that divisor is positive (else the not-a-number word). -/
def varR (pre : FVec Ideal S100000x128 .f32) : FVec Ideal S128 .f32 :=
  select (broadcastInDim S128 ![] bcast_S_S128 (cmpf .ogt (subf (constant (F := Ideal) S_ .f32 0x47C35000#32) (sitofp .f32 (constantI S_ 32 0#32))) (constant (F := Ideal) S_ .f32 0x00000000#32))) (Host.divf (Host.reduceAdd (mulf (subf pre (broadcastInDim S100000x128 ![0, 1] bcast_S1x128_S100000x128_0_1 (Host.divf (broadcastInDim S1x128 ![1] bcast_S128_S1x128_1 (Host.reduceAdd pre (constant (F := Ideal) S_ .f32 0x00000000#32) reducesTo_S100000x128_S128_d0 h_S_)) (broadcastInDim S1x128 ![] bcast_S_S1x128 (constant (F := Ideal) S_ .f32 0x47C35000#32))))) (subf pre (broadcastInDim S100000x128 ![0, 1] bcast_S1x128_S100000x128_0_1 (Host.divf (broadcastInDim S1x128 ![1] bcast_S128_S1x128_1 (Host.reduceAdd pre (constant (F := Ideal) S_ .f32 0x00000000#32) reducesTo_S100000x128_S128_d0 h_S_)) (broadcastInDim S1x128 ![] bcast_S_S1x128 (constant (F := Ideal) S_ .f32 0x47C35000#32)))))) (constant (F := Ideal) S_ .f32 0x00000000#32) reducesTo_S100000x128_S128_d0 h_S_) (broadcastInDim S128 ![] bcast_S_S128 (subf (constant (F := Ideal) S_ .f32 0x47C35000#32) (sitofp .f32 (constantI S_ 32 0#32))))) (broadcastInDim S128 ![] bcast_S_S128 (constant (F := Ideal) S_ .f32 0x7FC00000#32))

/-- Normalisation with given per-column mean and variance, scale, shift, then the rectifier. -/
def bnR (pre : FVec Ideal S100000x128 .f32) (mu vr g be : FVec Ideal S128 .f32) : FVec Ideal S100000x128 .f32 :=
  maximumf (addf (mulf (mulf (subf pre (broadcastInDim S100000x128 ![0, 1] bcast_S1x128_S100000x128_0_1 (broadcastInDim S1x128 ![1] bcast_S128_S1x128_1 mu))) (broadcastInDim S100000x128 ![0, 1] bcast_S1x128_S100000x128_0_1 (broadcastInDim S1x128 ![1] bcast_S128_S1x128_1 (Host.rsqrt (addf vr (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be))) (broadcastInDim S100000x128 ![] bcast_S_S100000x128 (constant (F := Ideal) S_ .f32 0x00000000#32))

/-- The row-wise log-softmax. -/
def lsmR (h : FVec Ideal S100000x64 .f32) : FVec Ideal S100000x64 .f32 :=
  subf (subf h (broadcastInDim S100000x64 ![0, 1] bcast_S100000x1_S100000x64_0_1 (broadcastInDim S100000x1 ![0] bcast_S100000_S100000x1_0 (maximumf (broadcastInDim S100000 ![] bcast_S_S100000 (constant (F := Ideal) S_ .f32 0xFF800000#32)) (Host.reduce FloatOps.maximumf h (constant (F := Ideal) S_ .f32 0xFF800000#32) reducesTo_S100000x64_S100000_d1 h_S_))))) (broadcastInDim S100000x64 ![0, 1] bcast_S100000x1_S100000x64_0_1 (Host.log (broadcastInDim S100000x1 ![0] bcast_S100000_S100000x1_0 (Host.reduceAdd (Host.exp (subf h (broadcastInDim S100000x64 ![0, 1] bcast_S100000x1_S100000x64_0_1 (broadcastInDim S100000x1 ![0] bcast_S100000_S100000x1_0 (maximumf (broadcastInDim S100000 ![] bcast_S_S100000 (constant (F := Ideal) S_ .f32 0xFF800000#32)) (Host.reduce FloatOps.maximumf h (constant (F := Ideal) S_ .f32 0xFF800000#32) reducesTo_S100000x64_S100000_d1 h_S_)))))) (constant (F := Ideal) S_ .f32 0x00000000#32) reducesTo_S100000x64_S100000_d1 h_S_))))

/-- The whole network as a function of the sixteen argument arrays. -/
def Rval (x : FVec Ideal S100000x128 .f32) (src dst : IVec S1600000 32)
    (ws0 wn0 : FVec Ideal S128x128 .f32) (b0 g0 be0 : FVec Ideal S128 .f32)
    (ws1 wn1 : FVec Ideal S128x128 .f32) (b1 g1 be1 : FVec Ideal S128 .f32)
    (ws2 wn2 : FVec Ideal S128x64 .f32) (b2 : FVec Ideal S64 .f32) : FVec Ideal S100000x64 .f32 :=
  let pre1 := linR128 x (aggR x src dst) ws0 wn0 b0
  let h1 := bnR pre1 (meanR pre1) (varR pre1) g0 be0
  let pre2 := linR128 h1 (aggR h1 src dst) ws1 wn1 b1
  let h2 := bnR pre2 (meanR pre2) (varR pre2) g1 be1
  let pre3 := linR64 h2 (aggR h2 src dst) ws2 wn2 b2
  lsmR pre3

end Cert.Sage.Ref

end
-- ==== Proof.RefOps.lean ====
/-
  The plain program as one straight line of whole-array operations.

  The program's main function calls three helper functions (the variance, the rectifier, the log-softmax; the variance
  itself calls a select helper). A call means the callee's operations on the call's own buffers, so the whole program is a
  list of 202 operations. The list is cut into nine stretches, one per stage of the network: for each layer the mean over
  in-neighbours, the linear combine, and (layers one and two) the normalisation with the rectifier; last the log-softmax.
  Two stretches are cut once more where the printed program is cut into its three windows.

  For each stretch: every operation touches device buffers only, and the list of buffers it writes, so that any other
  buffer is unchanged through it.
-/
import proofs.«142724_j51462298140964_1_alg».proof.Proof.Gen.ReferenceIdeal
import Idealize.ShloMosaic.Lib.StableHlo.Run

noncomputable section

namespace Cert.Sage.Ref

open Cert.ReferenceIdeal Cert.ReferenceIdeal.Facts₀ Idealize.ShloMosaic Idealize.ShloMosaic.TcCoe Idealize.SL.Sem Idealize.ShloMosaic.StableHlo

variable {F : FTy → Type} [FloatOps F]

/-- Operations 1 … 25 of 202. -/
abbrev sAgg0 : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg2 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_arg1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v6 (broadcastInDim S1600000 ![] bcast_S_S1600000 : (⟨S_, .i32⟩ : BufTy).Contents (Elt F) → (⟨S1600000, .i32⟩ : BufTy).Contents (Elt F)),
    StableHlo.binary main_arg1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_arg1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_2 (constant S_ .f32 0x00000000#32),
    StableHlo.unary main_cst_2 main_v11 (broadcastInDim S100000x128 ![] bcast_S_S100000x128 : (⟨S_, .f32⟩ : BufTy).Contents (Elt F) → (⟨S100000x128, .f32⟩ : BufTy).Contents (Elt F)),
    StableHlo.unary main_arg2 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_3 (constant S_ .f32 0x3F800000#32),
    StableHlo.unary main_cst_3 main_v14 (broadcastInDim S100000 ![] bcast_S_S100000 : (⟨S_, .f32⟩ : BufTy).Contents (Elt F) → (⟨S100000, .f32⟩ : BufTy).Contents (Elt F)),
    StableHlo.binary main_v3 main_v14 main_v15 (maximumf : (⟨S100000, .f32⟩ : BufTy).Contents (Elt F) → (⟨S100000, .f32⟩ : BufTy).Contents (Elt F) → (⟨S100000, .f32⟩ : BufTy).Contents (Elt F)),
    StableHlo.unary main_v15 main_v16 (broadcastInDim S100000x1 ![0] bcast_S100000_S100000x1_0 : (⟨S100000, .f32⟩ : BufTy).Contents (Elt F) → (⟨S100000x1, .f32⟩ : BufTy).Contents (Elt F)),
    StableHlo.unary main_v16 main_v17 (broadcastInDim S100000x128 ![0, 1] bcast_S100000x1_S100000x128_0_1 : (⟨S100000x1, .f32⟩ : BufTy).Contents (Elt F) → (⟨S100000x128, .f32⟩ : BufTy).Contents (Elt F)),
    StableHlo.binary main_v13 main_v17 main_v18 (Host.divf : (⟨S100000x128, .f32⟩ : BufTy).Contents (Elt F) → (⟨S100000x128, .f32⟩ : BufTy).Contents (Elt F) → (⟨S100000x128, .f32⟩ : BufTy).Contents (Elt F)) ]
theorem sAgg0_sub : (sAgg0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
/-- The buffers these operations write. -/
abbrev sAgg0_W : List (Ref sig .tc) := [main_cst, main_v0, main_cst_0, main_v1, main_v2, main_v3, main_c, main_v4, main_v5, main_c_1, main_v6, main_v7, main_v8, main_v9, main_v10, main_cst_2, main_v11, main_v12, main_v13, main_cst_3, main_v14, main_v15, main_v16, main_v17, main_v18]
theorem sAgg0_writes : (sAgg0 : List (HloOp τ sig (Elt F))).Forall fun op => op.writes ⊆ (sAgg0_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem sAgg0_keep (V : Valuation τ sig (Elt F)) (r : Ref sig .tc) (h : r ∉ sAgg0_W) :
    after sAgg0 V (Proc.devRef .tc r) = V (Proc.devRef .tc r) :=
  after_of_writes_sub sAgg0 V sAgg0_writes h

/-- Operations 26 … 31 of 202. -/
abbrev sLin0 : List (HloOp τ sig (Elt F)) :=
  [ StableHlo.binary main_arg0 main_arg3 main_v19 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v18 main_arg4 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v19 main_v20 main_v21 (addf : (⟨S100000x128, .f32⟩ : BufTy).Contents (Elt F) → (⟨S100000x128, .f32⟩ : BufTy).Contents (Elt F) → (⟨S100000x128, .f32⟩ : BufTy).Contents (Elt F)),
    StableHlo.unary main_arg5 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)) ]
theorem sLin0_sub : (sLin0 : List (HloOp τ sig (Elt F))).Forall fun op => op.bufs ⊆ tcRefs τ sig :=
  ⟨binary_bufs_sub .., binary_bufs_sub .., binary_bufs_sub .., unary_bufs_sub .., unary_bufs_sub .., binary_bufs_sub ..⟩
/-- The buffers these operations write. -/
abbrev sLin0_W : List (Ref sig .tc) := [main_v19, main_v20, main_v21, main_v22, main_v23, main_v24]
theorem sLin0_writes : (sLin0 : List (HloOp τ sig (Elt F))).Forall fun op => op.writes ⊆ (sLin0_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem sLin0_keep (V : Valuation τ sig (Elt F)) (r : Ref sig .tc) (h : r ∉ sLin0_W) :
    after sLin0 V (Proc.devRef .tc r) = V (Proc.devRef .tc r) :=
  after_of_writes_sub sLin0 V sLin0_writes h

/-- Operations 32 … 78 of 202. -/
abbrev sBn0 : List (HloOp τ sig (Elt F)) :=
  [ StableHlo.nullary main_cst_4 (constant S_ .f32 0x00000000#32),
    StableHlo.binary main_v24 main_cst_4 main_v25 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary (.of main_call0_cst : StableHlo.TRef sig ⟨S_, .f32⟩) (constant S_ .f32 0x00000000#32),
    StableHlo.TRef.binary (.of main_v24 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_v24 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf,
    StableHlo.TRef.unary (.of main_c_6 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v28 : StableHlo.TRef sig ⟨S128, .f32⟩) (fun p a b => select (broadcastInDim S128 ![] bcast_S_S128 p) a b),
    StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v30 main_v31 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v36 main_v37 (mulf : (⟨S100000x128, .f32⟩ : BufTy).Contents (Elt F) → (⟨S100000x128, .f32⟩ : BufTy).Contents (Elt F) → (⟨S100000x128, .f32⟩ : BufTy).Contents (Elt F)),
    StableHlo.unary main_arg6 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_arg7 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v43 : StableHlo.TRef sig ⟨S100000x128, .f32⟩) (.of main_call1_v0 : StableHlo.TRef sig ⟨S100000x128, .f32⟩) (.of main_v44 : StableHlo.TRef sig ⟨S100000x128, .f32⟩) maximumf ]
theorem sBn0_sub : (sBn0 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- The buffers these operations write. -/
abbrev sBn0_W : List (Ref sig .tc) := [main_cst_4, main_v25, main_cst_5, main_v26, main_v27, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v28, main_v29, main_v30, main_v31, main_cst_7, main_v32, main_v33, main_v34, main_v35, main_v36, main_v37, main_v38, main_v39, main_v40, main_v41, main_v42, main_v43, main_call1_cst, main_call1_v0, main_v44]
theorem sBn0_writes : (sBn0 : List (HloOp τ sig (Elt F))).Forall fun op => op.writes ⊆ (sBn0_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem sBn0_keep (V : Valuation τ sig (Elt F)) (r : Ref sig .tc) (h : r ∉ sBn0_W) :
    after sBn0 V (Proc.devRef .tc r) = V (Proc.devRef .tc r) :=
  after_of_writes_sub sBn0 V sBn0_writes h

/-- Operations 79 … 83 of 202. -/
abbrev sAgg1a : List (HloOp τ sig (Elt F)) :=
  [ StableHlo.nullary main_cst_8 (constant S_ .f32 0x3F800000#32),
    StableHlo.unary main_cst_8 main_v45 (broadcastInDim S1600000 ![] bcast_S_S1600000 : (⟨S_, .f32⟩ : BufTy).Contents (Elt F) → (⟨S1600000, .f32⟩ : BufTy).Contents (Elt F)),
    StableHlo.nullary main_cst_9 (constant S_ .f32 0x00000000#32),
    StableHlo.unary main_cst_9 main_v46 (broadcastInDim S100000 ![] bcast_S_S100000 : (⟨S_, .f32⟩ : BufTy).Contents (Elt F) → (⟨S100000, .f32⟩ : BufTy).Contents (Elt F)),
    StableHlo.unary main_arg2 main_v47 (broadcastInDim S1600000x1 ![0] bcast_S1600000_S1600000x1_0 : (⟨S1600000, .i32⟩ : BufTy).Contents (Elt F) → (⟨S1600000x1, .i32⟩ : BufTy).Contents (Elt F)) ]
theorem sAgg1a_sub : (sAgg1a : List (HloOp τ sig (Elt F))).Forall fun op => op.bufs ⊆ tcRefs τ sig :=
  ⟨nullary_bufs_sub .., unary_bufs_sub .., nullary_bufs_sub .., unary_bufs_sub .., unary_bufs_sub ..⟩
/-- The buffers these operations write. -/
abbrev sAgg1a_W : List (Ref sig .tc) := [main_cst_8, main_v45, main_cst_9, main_v46, main_v47]
theorem sAgg1a_writes : (sAgg1a : List (HloOp τ sig (Elt F))).Forall fun op => op.writes ⊆ (sAgg1a_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem sAgg1a_keep (V : Valuation τ sig (Elt F)) (r : Ref sig .tc) (h : r ∉ sAgg1a_W) :
    after sAgg1a V (Proc.devRef .tc r) = V (Proc.devRef .tc r) :=
  after_of_writes_sub sAgg1a V sAgg1a_writes h

/-- Operations 84 … 103 of 202. -/
abbrev sAgg1b : List (HloOp τ sig (Elt F)) :=
  [ StableHlo.ternary main_v46 main_v47 main_v45 main_v48 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_c_10 (constantI S_ 32 0#32),
    StableHlo.unary main_c_10 main_v49 (broadcastInDim S1600000 ![] bcast_S_S1600000 : (⟨S_, .i32⟩ : BufTy).Contents (Elt F) → (⟨S1600000, .i32⟩ : BufTy).Contents (Elt F)),
    StableHlo.binary main_arg1 main_v49 main_v50 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v51 (broadcastInDim S1600000 ![] bcast_S_S1600000 : (⟨S_, .i32⟩ : BufTy).Contents (Elt F) → (⟨S1600000, .i32⟩ : BufTy).Contents (Elt F)),
    StableHlo.binary main_arg1 main_v51 main_v52 (addi : (⟨S1600000, .i32⟩ : BufTy).Contents (Elt F) → (⟨S1600000, .i32⟩ : BufTy).Contents (Elt F) → (⟨S1600000, .i32⟩ : BufTy).Contents (Elt F)),
    StableHlo.ternary main_v50 main_v52 main_arg1 main_v53 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v53 main_v54 (broadcastInDim S1600000x1 ![0] bcast_S1600000_S1600000x1_0 : (⟨S1600000, .i32⟩ : BufTy).Contents (Elt F) → (⟨S1600000x1, .i32⟩ : BufTy).Contents (Elt F)),
    StableHlo.binary main_v44 main_v54 main_v55 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_12 (constant S_ .f32 0x00000000#32),
    StableHlo.unary main_cst_12 main_v56 (broadcastInDim S100000x128 ![] bcast_S_S100000x128 : (⟨S_, .f32⟩ : BufTy).Contents (Elt F) → (⟨S100000x128, .f32⟩ : BufTy).Contents (Elt F)),
    StableHlo.unary main_arg2 main_v57 (broadcastInDim S1600000x1 ![0] bcast_S1600000_S1600000x1_0 : (⟨S1600000, .i32⟩ : BufTy).Contents (Elt F) → (⟨S1600000x1, .i32⟩ : BufTy).Contents (Elt F)),
    StableHlo.ternary main_v56 main_v57 main_v55 main_v58 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_13 (constant S_ .f32 0x3F800000#32),
    StableHlo.unary main_cst_13 main_v59 (broadcastInDim S100000 ![] bcast_S_S100000 : (⟨S_, .f32⟩ : BufTy).Contents (Elt F) → (⟨S100000, .f32⟩ : BufTy).Contents (Elt F)),
    StableHlo.binary main_v48 main_v59 main_v60 (maximumf : (⟨S100000, .f32⟩ : BufTy).Contents (Elt F) → (⟨S100000, .f32⟩ : BufTy).Contents (Elt F) → (⟨S100000, .f32⟩ : BufTy).Contents (Elt F)),
    StableHlo.unary main_v60 main_v61 (broadcastInDim S100000x1 ![0] bcast_S100000_S100000x1_0 : (⟨S100000, .f32⟩ : BufTy).Contents (Elt F) → (⟨S100000x1, .f32⟩ : BufTy).Contents (Elt F)),
    StableHlo.unary main_v61 main_v62 (broadcastInDim S100000x128 ![0, 1] bcast_S100000x1_S100000x128_0_1 : (⟨S100000x1, .f32⟩ : BufTy).Contents (Elt F) → (⟨S100000x128, .f32⟩ : BufTy).Contents (Elt F)),
    StableHlo.binary main_v58 main_v62 main_v63 (Host.divf : (⟨S100000x128, .f32⟩ : BufTy).Contents (Elt F) → (⟨S100000x128, .f32⟩ : BufTy).Contents (Elt F) → (⟨S100000x128, .f32⟩ : BufTy).Contents (Elt F)) ]
theorem sAgg1b_sub : (sAgg1b : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
/-- The buffers these operations write. -/
abbrev sAgg1b_W : List (Ref sig .tc) := [main_v48, main_c_10, main_v49, main_v50, main_c_11, main_v51, main_v52, main_v53, main_v54, main_v55, main_cst_12, main_v56, main_v57, main_v58, main_cst_13, main_v59, main_v60, main_v61, main_v62, main_v63]
theorem sAgg1b_writes : (sAgg1b : List (HloOp τ sig (Elt F))).Forall fun op => op.writes ⊆ (sAgg1b_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem sAgg1b_keep (V : Valuation τ sig (Elt F)) (r : Ref sig .tc) (h : r ∉ sAgg1b_W) :
    after sAgg1b V (Proc.devRef .tc r) = V (Proc.devRef .tc r) :=
  after_of_writes_sub sAgg1b V sAgg1b_writes h

/-- Operations 104 … 109 of 202. -/
abbrev sLin1 : List (HloOp τ sig (Elt F)) :=
  [ StableHlo.binary main_v44 main_arg8 main_v64 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v63 main_arg9 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v64 main_v65 main_v66 (addf : (⟨S100000x128, .f32⟩ : BufTy).Contents (Elt F) → (⟨S100000x128, .f32⟩ : BufTy).Contents (Elt F) → (⟨S100000x128, .f32⟩ : BufTy).Contents (Elt F)),
    StableHlo.unary main_arg10 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v68 main_v69 (addf : (⟨S100000x128, .f32⟩ : BufTy).Contents (Elt F) → (⟨S100000x128, .f32⟩ : BufTy).Contents (Elt F) → (⟨S100000x128, .f32⟩ : BufTy).Contents (Elt F)) ]
theorem sLin1_sub : (sLin1 : List (HloOp τ sig (Elt F))).Forall fun op => op.bufs ⊆ tcRefs τ sig :=
  ⟨binary_bufs_sub .., binary_bufs_sub .., binary_bufs_sub .., unary_bufs_sub .., unary_bufs_sub .., binary_bufs_sub ..⟩
/-- The buffers these operations write. -/
abbrev sLin1_W : List (Ref sig .tc) := [main_v64, main_v65, main_v66, main_v67, main_v68, main_v69]
theorem sLin1_writes : (sLin1 : List (HloOp τ sig (Elt F))).Forall fun op => op.writes ⊆ (sLin1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem sLin1_keep (V : Valuation τ sig (Elt F)) (r : Ref sig .tc) (h : r ∉ sLin1_W) :
    after sLin1 V (Proc.devRef .tc r) = V (Proc.devRef .tc r) :=
  after_of_writes_sub sLin1 V sLin1_writes h

/-- Operations 110 … 156 of 202. -/
abbrev sBn1 : List (HloOp τ sig (Elt F)) :=
  [ StableHlo.nullary main_cst_14 (constant S_ .f32 0x00000000#32),
    StableHlo.binary main_v69 main_cst_14 main_v70 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v71 (broadcastInDim S128 ![] bcast_S_S128 : (⟨S_, .f32⟩ : BufTy).Contents (Elt F) → (⟨S128, .f32⟩ : BufTy).Contents (Elt F)),
    StableHlo.binary main_v70 main_v71 main_v72 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary (.of main_call2_cst : StableHlo.TRef sig ⟨S_, .f32⟩) (constant S_ .f32 0x00000000#32),
    StableHlo.TRef.binary (.of main_v69 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v69 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v73 : StableHlo.TRef sig ⟨S128, .f32⟩) (fun p a b => select (broadcastInDim S128 ![] bcast_S_S128 p) a b),
    StableHlo.unary main_v72 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v69 main_v75 main_v76 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v77 (broadcastInDim S128 ![] bcast_S_S128 : (⟨S_, .f32⟩ : BufTy).Contents (Elt F) → (⟨S128, .f32⟩ : BufTy).Contents (Elt F)),
    StableHlo.binary main_v73 main_v77 main_v78 (addf : (⟨S128, .f32⟩ : BufTy).Contents (Elt F) → (⟨S128, .f32⟩ : BufTy).Contents (Elt F) → (⟨S128, .f32⟩ : BufTy).Contents (Elt F)),
    StableHlo.unary main_v78 main_v79 (Host.rsqrt : (⟨S128, .f32⟩ : BufTy).Contents (Elt F) → (⟨S128, .f32⟩ : BufTy).Contents (Elt F)),
    StableHlo.unary main_v79 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v76 main_v81 main_v82 (mulf : (⟨S100000x128, .f32⟩ : BufTy).Contents (Elt F) → (⟨S100000x128, .f32⟩ : BufTy).Contents (Elt F) → (⟨S100000x128, .f32⟩ : BufTy).Contents (Elt F)),
    StableHlo.unary main_arg11 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v84 main_v85 (mulf : (⟨S100000x128, .f32⟩ : BufTy).Contents (Elt F) → (⟨S100000x128, .f32⟩ : BufTy).Contents (Elt F) → (⟨S100000x128, .f32⟩ : BufTy).Contents (Elt F)),
    StableHlo.unary main_arg12 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v87 main_v88 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v88 : StableHlo.TRef sig ⟨S100000x128, .f32⟩) (.of main_call3_v0 : StableHlo.TRef sig ⟨S100000x128, .f32⟩) (.of main_v89 : StableHlo.TRef sig ⟨S100000x128, .f32⟩) maximumf ]
theorem sBn1_sub : (sBn1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- The buffers these operations write. -/
abbrev sBn1_W : List (Ref sig .tc) := [main_cst_14, main_v70, main_cst_15, main_v71, main_v72, main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v73, main_v74, main_v75, main_v76, main_cst_17, main_v77, main_v78, main_v79, main_v80, main_v81, main_v82, main_v83, main_v84, main_v85, main_v86, main_v87, main_v88, main_call3_cst, main_call3_v0, main_v89]
theorem sBn1_writes : (sBn1 : List (HloOp τ sig (Elt F))).Forall fun op => op.writes ⊆ (sBn1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem sBn1_keep (V : Valuation τ sig (Elt F)) (r : Ref sig .tc) (h : r ∉ sBn1_W) :
    after sBn1 V (Proc.devRef .tc r) = V (Proc.devRef .tc r) :=
  after_of_writes_sub sBn1 V sBn1_writes h

/-- Operations 157 … 166 of 202. -/
abbrev sAgg2a : List (HloOp τ sig (Elt F)) :=
  [ StableHlo.nullary main_cst_18 (constant S_ .f32 0x3F800000#32),
    StableHlo.unary main_cst_18 main_v90 (broadcastInDim S1600000 ![] bcast_S_S1600000 : (⟨S_, .f32⟩ : BufTy).Contents (Elt F) → (⟨S1600000, .f32⟩ : BufTy).Contents (Elt F)),
    StableHlo.nullary main_cst_19 (constant S_ .f32 0x00000000#32),
    StableHlo.unary main_cst_19 main_v91 (broadcastInDim S100000 ![] bcast_S_S100000 : (⟨S_, .f32⟩ : BufTy).Contents (Elt F) → (⟨S100000, .f32⟩ : BufTy).Contents (Elt F)),
    StableHlo.unary main_arg2 main_v92 (broadcastInDim S1600000x1 ![0] bcast_S1600000_S1600000x1_0 : (⟨S1600000, .i32⟩ : BufTy).Contents (Elt F) → (⟨S1600000x1, .i32⟩ : BufTy).Contents (Elt F)),
    StableHlo.ternary main_v91 main_v92 main_v90 main_v93 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_c_20 (constantI S_ 32 0#32),
    StableHlo.unary main_c_20 main_v94 (broadcastInDim S1600000 ![] bcast_S_S1600000 : (⟨S_, .i32⟩ : BufTy).Contents (Elt F) → (⟨S1600000, .i32⟩ : BufTy).Contents (Elt F)),
    StableHlo.binary main_arg1 main_v94 main_v95 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32) ]
theorem sAgg2a_sub : (sAgg2a : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub ..⟩
/-- The buffers these operations write. -/
abbrev sAgg2a_W : List (Ref sig .tc) := [main_cst_18, main_v90, main_cst_19, main_v91, main_v92, main_v93, main_c_20, main_v94, main_v95, main_c_21]
theorem sAgg2a_writes : (sAgg2a : List (HloOp τ sig (Elt F))).Forall fun op => op.writes ⊆ (sAgg2a_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem sAgg2a_keep (V : Valuation τ sig (Elt F)) (r : Ref sig .tc) (h : r ∉ sAgg2a_W) :
    after sAgg2a V (Proc.devRef .tc r) = V (Proc.devRef .tc r) :=
  after_of_writes_sub sAgg2a V sAgg2a_writes h

/-- Operations 167 … 181 of 202. -/
abbrev sAgg2b : List (HloOp τ sig (Elt F)) :=
  [ StableHlo.unary main_c_21 main_v96 (broadcastInDim S1600000 ![] bcast_S_S1600000 : (⟨S_, .i32⟩ : BufTy).Contents (Elt F) → (⟨S1600000, .i32⟩ : BufTy).Contents (Elt F)),
    StableHlo.binary main_arg1 main_v96 main_v97 (addi : (⟨S1600000, .i32⟩ : BufTy).Contents (Elt F) → (⟨S1600000, .i32⟩ : BufTy).Contents (Elt F) → (⟨S1600000, .i32⟩ : BufTy).Contents (Elt F)),
    StableHlo.ternary main_v95 main_v97 main_arg1 main_v98 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v98 main_v99 (broadcastInDim S1600000x1 ![0] bcast_S1600000_S1600000x1_0 : (⟨S1600000, .i32⟩ : BufTy).Contents (Elt F) → (⟨S1600000x1, .i32⟩ : BufTy).Contents (Elt F)),
    StableHlo.binary main_v89 main_v99 main_v100 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_22 (constant S_ .f32 0x00000000#32),
    StableHlo.unary main_cst_22 main_v101 (broadcastInDim S100000x128 ![] bcast_S_S100000x128 : (⟨S_, .f32⟩ : BufTy).Contents (Elt F) → (⟨S100000x128, .f32⟩ : BufTy).Contents (Elt F)),
    StableHlo.unary main_arg2 main_v102 (broadcastInDim S1600000x1 ![0] bcast_S1600000_S1600000x1_0 : (⟨S1600000, .i32⟩ : BufTy).Contents (Elt F) → (⟨S1600000x1, .i32⟩ : BufTy).Contents (Elt F)),
    StableHlo.ternary main_v101 main_v102 main_v100 main_v103 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_23 (constant S_ .f32 0x3F800000#32),
    StableHlo.unary main_cst_23 main_v104 (broadcastInDim S100000 ![] bcast_S_S100000 : (⟨S_, .f32⟩ : BufTy).Contents (Elt F) → (⟨S100000, .f32⟩ : BufTy).Contents (Elt F)),
    StableHlo.binary main_v93 main_v104 main_v105 (maximumf : (⟨S100000, .f32⟩ : BufTy).Contents (Elt F) → (⟨S100000, .f32⟩ : BufTy).Contents (Elt F) → (⟨S100000, .f32⟩ : BufTy).Contents (Elt F)),
    StableHlo.unary main_v105 main_v106 (broadcastInDim S100000x1 ![0] bcast_S100000_S100000x1_0 : (⟨S100000, .f32⟩ : BufTy).Contents (Elt F) → (⟨S100000x1, .f32⟩ : BufTy).Contents (Elt F)),
    StableHlo.unary main_v106 main_v107 (broadcastInDim S100000x128 ![0, 1] bcast_S100000x1_S100000x128_0_1 : (⟨S100000x1, .f32⟩ : BufTy).Contents (Elt F) → (⟨S100000x128, .f32⟩ : BufTy).Contents (Elt F)),
    StableHlo.binary main_v103 main_v107 main_v108 (Host.divf : (⟨S100000x128, .f32⟩ : BufTy).Contents (Elt F) → (⟨S100000x128, .f32⟩ : BufTy).Contents (Elt F) → (⟨S100000x128, .f32⟩ : BufTy).Contents (Elt F)) ]
theorem sAgg2b_sub : (sAgg2b : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
/-- The buffers these operations write. -/
abbrev sAgg2b_W : List (Ref sig .tc) := [main_v96, main_v97, main_v98, main_v99, main_v100, main_cst_22, main_v101, main_v102, main_v103, main_cst_23, main_v104, main_v105, main_v106, main_v107, main_v108]
theorem sAgg2b_writes : (sAgg2b : List (HloOp τ sig (Elt F))).Forall fun op => op.writes ⊆ (sAgg2b_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem sAgg2b_keep (V : Valuation τ sig (Elt F)) (r : Ref sig .tc) (h : r ∉ sAgg2b_W) :
    after sAgg2b V (Proc.devRef .tc r) = V (Proc.devRef .tc r) :=
  after_of_writes_sub sAgg2b V sAgg2b_writes h

/-- Operations 182 … 187 of 202. -/
abbrev sLin2 : List (HloOp τ sig (Elt F)) :=
  [ StableHlo.binary main_v89 main_arg13 main_v109 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v108 main_arg14 main_v110 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v109 main_v110 main_v111 (addf : (⟨S100000x64, .f32⟩ : BufTy).Contents (Elt F) → (⟨S100000x64, .f32⟩ : BufTy).Contents (Elt F) → (⟨S100000x64, .f32⟩ : BufTy).Contents (Elt F)),
    StableHlo.unary main_arg15 main_v112 (broadcastInDim S1x64 ![1] bcast_S64_S1x64_1 : (⟨S64, .f32⟩ : BufTy).Contents (Elt F) → (⟨S1x64, .f32⟩ : BufTy).Contents (Elt F)),
    StableHlo.unary main_v112 main_v113 (broadcastInDim S100000x64 ![0, 1] bcast_S1x64_S100000x64_0_1 : (⟨S1x64, .f32⟩ : BufTy).Contents (Elt F) → (⟨S100000x64, .f32⟩ : BufTy).Contents (Elt F)),
    StableHlo.binary main_v111 main_v113 main_v114 (addf : (⟨S100000x64, .f32⟩ : BufTy).Contents (Elt F) → (⟨S100000x64, .f32⟩ : BufTy).Contents (Elt F) → (⟨S100000x64, .f32⟩ : BufTy).Contents (Elt F)) ]
theorem sLin2_sub : (sLin2 : List (HloOp τ sig (Elt F))).Forall fun op => op.bufs ⊆ tcRefs τ sig :=
  ⟨binary_bufs_sub .., binary_bufs_sub .., binary_bufs_sub .., unary_bufs_sub .., unary_bufs_sub .., binary_bufs_sub ..⟩
/-- The buffers these operations write. -/
abbrev sLin2_W : List (Ref sig .tc) := [main_v109, main_v110, main_v111, main_v112, main_v113, main_v114]
theorem sLin2_writes : (sLin2 : List (HloOp τ sig (Elt F))).Forall fun op => op.writes ⊆ (sLin2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem sLin2_keep (V : Valuation τ sig (Elt F)) (r : Ref sig .tc) (h : r ∉ sLin2_W) :
    after sLin2 V (Proc.devRef .tc r) = V (Proc.devRef .tc r) :=
  after_of_writes_sub sLin2 V sLin2_writes h

/-- Operations 188 … 202 of 202. -/
abbrev sLsm : List (HloOp τ sig (Elt F)) :=
  [ StableHlo.TRef.nullary (.of main_call4_cst : StableHlo.TRef sig ⟨S_, .f32⟩) (constant S_ .f32 0xFF800000#32),
    StableHlo.TRef.binary (.of main_v114 : StableHlo.TRef sig ⟨S100000x64, .f32⟩) (.of main_call4_cst : StableHlo.TRef sig ⟨S_, .f32⟩) (.of main_call4_v0 : StableHlo.TRef sig ⟨S100000, .f32⟩) (fun x v => Host.reduce FloatOps.maximumf x v reducesTo_S100000x64_S100000_d1 h_S_),
    StableHlo.TRef.nullary (.of main_call4_cst_0 : StableHlo.TRef sig ⟨S_, .f32⟩) (constant S_ .f32 0xFF800000#32),
    StableHlo.TRef.unary (.of main_call4_cst_0 : StableHlo.TRef sig ⟨S_, .f32⟩) (.of main_call4_v1 : StableHlo.TRef sig ⟨S100000, .f32⟩) (broadcastInDim S100000 ![] bcast_S_S100000),
    StableHlo.TRef.binary (.of main_call4_v1 : StableHlo.TRef sig ⟨S100000, .f32⟩) (.of main_call4_v0 : StableHlo.TRef sig ⟨S100000, .f32⟩) (.of main_call4_v2 : StableHlo.TRef sig ⟨S100000, .f32⟩) maximumf,
    StableHlo.TRef.unary (.of main_call4_v2 : StableHlo.TRef sig ⟨S100000, .f32⟩) (.of main_call4_v3 : StableHlo.TRef sig ⟨S100000x1, .f32⟩) (broadcastInDim S100000x1 ![0] bcast_S100000_S100000x1_0),
    StableHlo.TRef.unary (.of main_call4_v3 : StableHlo.TRef sig ⟨S100000x1, .f32⟩) (.of main_call4_v4 : StableHlo.TRef sig ⟨S100000x64, .f32⟩) (broadcastInDim S100000x64 ![0, 1] bcast_S100000x1_S100000x64_0_1),
    StableHlo.TRef.binary (.of main_v114 : StableHlo.TRef sig ⟨S100000x64, .f32⟩) (.of main_call4_v4 : StableHlo.TRef sig ⟨S100000x64, .f32⟩) (.of main_call4_v5 : StableHlo.TRef sig ⟨S100000x64, .f32⟩) subf,
    StableHlo.TRef.unary (.of main_call4_v5 : StableHlo.TRef sig ⟨S100000x64, .f32⟩) (.of main_call4_v6 : StableHlo.TRef sig ⟨S100000x64, .f32⟩) Host.exp,
    StableHlo.TRef.nullary (.of main_call4_cst_1 : StableHlo.TRef sig ⟨S_, .f32⟩) (constant S_ .f32 0x00000000#32),
    StableHlo.TRef.binary (.of main_call4_v6 : StableHlo.TRef sig ⟨S100000x64, .f32⟩) (.of main_call4_cst_1 : StableHlo.TRef sig ⟨S_, .f32⟩) (.of main_call4_v7 : StableHlo.TRef sig ⟨S100000, .f32⟩) (fun x v => Host.reduceAdd x v reducesTo_S100000x64_S100000_d1 h_S_),
    StableHlo.TRef.unary (.of main_call4_v7 : StableHlo.TRef sig ⟨S100000, .f32⟩) (.of main_call4_v8 : StableHlo.TRef sig ⟨S100000x1, .f32⟩) (broadcastInDim S100000x1 ![0] bcast_S100000_S100000x1_0),
    StableHlo.TRef.unary (.of main_call4_v8 : StableHlo.TRef sig ⟨S100000x1, .f32⟩) (.of main_call4_v9 : StableHlo.TRef sig ⟨S100000x1, .f32⟩) Host.log,
    StableHlo.TRef.unary (.of main_call4_v9 : StableHlo.TRef sig ⟨S100000x1, .f32⟩) (.of main_call4_v10 : StableHlo.TRef sig ⟨S100000x64, .f32⟩) (broadcastInDim S100000x64 ![0, 1] bcast_S100000x1_S100000x64_0_1),
    StableHlo.TRef.binary (.of main_call4_v5 : StableHlo.TRef sig ⟨S100000x64, .f32⟩) (.of main_call4_v10 : StableHlo.TRef sig ⟨S100000x64, .f32⟩) (.of main_v115 : StableHlo.TRef sig ⟨S100000x64, .f32⟩) subf ]
theorem sLsm_sub : (sLsm : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
/-- The buffers these operations write. -/
abbrev sLsm_W : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v115]
theorem sLsm_writes : (sLsm : List (HloOp τ sig (Elt F))).Forall fun op => op.writes ⊆ (sLsm_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem sLsm_keep (V : Valuation τ sig (Elt F)) (r : Ref sig .tc) (h : r ∉ sLsm_W) :
    after sLsm V (Proc.devRef .tc r) = V (Proc.devRef .tc r) :=
  after_of_writes_sub sLsm V sLsm_writes h

/-- One stage's operations, across a window boundary. -/
def sAgg1 : List (HloOp τ sig (Elt F)) := sAgg1a ++ sAgg1b
abbrev sAgg1_W : List (Ref sig .tc) := sAgg1a_W ++ sAgg1b_W

/-- One stage's operations, across a window boundary. -/
def sAgg2 : List (HloOp τ sig (Elt F)) := sAgg2a ++ sAgg2b
abbrev sAgg2_W : List (Ref sig .tc) := sAgg2a_W ++ sAgg2b_W

/-- The whole program: the nine stretches in order. -/
abbrev ops : List (HloOp τ sig (Elt F)) := sAgg0 ++ (sLin0 ++ (sBn0 ++ (sAgg1 ++ (sLin1 ++ (sBn1 ++ (sAgg2 ++ (sLin2 ++ (sLsm))))))))
/-- The operations of the program's window 0. -/
abbrev p0 : List (HloOp τ sig (Elt F)) := sAgg0 ++ (sLin0 ++ (sBn0 ++ (sAgg1a)))
/-- The operations of the program's window 1. -/
abbrev p1 : List (HloOp τ sig (Elt F)) := sAgg1b ++ (sLin1 ++ (sBn1 ++ (sAgg2a)))
/-- The operations of the program's window 2. -/
abbrev p2 : List (HloOp τ sig (Elt F)) := sAgg2b ++ (sLin2 ++ (sLsm))

set_option maxRecDepth 8192 in
set_option maxHeartbeats 4000000 in
/-- Window 0 is that straight line: the helper functions' definitions unfolded at their calls, sequencing reassociated. -/
theorem part0_eq (c : Dev nD) : main_part0 (F := F) c = seq p0 := by
  simp only [main_part0, fn_var.body, fn_where.body, fn_relu.body, seq, bind_assoc, pure_bind]
  rfl

set_option maxRecDepth 8192 in
set_option maxHeartbeats 4000000 in
/-- Window 1 is that straight line: the helper functions' definitions unfolded at their calls, sequencing reassociated. -/
theorem part1_eq (c : Dev nD) : main_part1 (F := F) c = seq p1 := by
  simp only [main_part1, fn_var.body, fn_where.body, fn_relu.body, seq, bind_assoc, pure_bind]
  rfl

set_option maxRecDepth 8192 in
set_option maxHeartbeats 4000000 in
/-- Window 2 is that straight line: the helper functions' definitions unfolded at their calls, sequencing reassociated. -/
theorem part2_eq (c : Dev nD) : main_part2 (F := F) c = seq p2 := by
  simp only [main_part2, fn_log_softmax.body, seq, bind_assoc, pure_bind]
  rfl

/-- The program is the straight line of all its operations. -/
theorem main_eq (c : Dev nD) : main (F := F) c = seq ops := by
  show (main_part0 (F := F) c >>= fun _ => main_part1 (F := F) c >>= fun _ => main_part2 (F := F) c) = _
  rw [part0_eq, part1_eq, part2_eq, ← seq_append, ← seq_append]
  simp only [ops, p0, p1, p2, sAgg1, sAgg2, List.append_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, sAgg1, sAgg2, List.mem_append] at h
    rcases h with h | h | h | (h | h) | h | h | (h | h) | h | h
    exacts [List.forall_iff_forall_mem.mp sAgg0_sub op h, List.forall_iff_forall_mem.mp sLin0_sub op h, List.forall_iff_forall_mem.mp sBn0_sub op h, List.forall_iff_forall_mem.mp sAgg1a_sub op h, List.forall_iff_forall_mem.mp sAgg1b_sub op h, List.forall_iff_forall_mem.mp sLin1_sub op h, List.forall_iff_forall_mem.mp sBn1_sub op h, List.forall_iff_forall_mem.mp sAgg2a_sub op h, List.forall_iff_forall_mem.mp sAgg2b_sub op h, List.forall_iff_forall_mem.mp sLin2_sub op h, List.forall_iff_forall_mem.mp sLsm_sub op h]

end Cert.Sage.Ref

end
-- ==== Proof.LibAfterAppend.lean ====
/-
  Reading buffers back through two stretches of whole-array operations.

  `StableHlo.after ops V` is what every buffer of a device holds after the operations `ops`, run in order from the
  contents `V`. Running one stretch and then another is running them in a row: the contents after `l₁ ++ l₂` are the
  contents after `l₂`, started from the contents after `l₁`. This lets a long straight-line program be read back one
  stretch at a time, each over contents that are no further specified.
-/
import Idealize.ShloMosaic.Lib.StableHlo.Run

namespace AfterAppend

open Idealize.ShloMosaic Idealize.ShloMosaic.StableHlo

variable {τ : Topo} {sig : RefSig} {Val : EltTy → Type}

/-- The contents after two stretches in a row are the contents after the second, from those after the first. -/
theorem after_append : ∀ (l₁ l₂ : List (HloOp τ sig Val)) (V : Valuation τ sig Val),
    after (l₁ ++ l₂) V = after l₂ (after l₁ V)
  | [], _, _ => rfl
  | op :: l₁, l₂, V => by
    rw [List.cons_append, after_cons, after_cons]
    exact after_append l₁ l₂ _

end AfterAppend
-- ==== Proof.LibTypedRefs.lean ====
/-
  Typed references: a round trip through a buffer's own type is the identity.

  A value of a module-local function lives in a buffer through a typed reference, which carries the equation between the
  buffer's declared type and the value's type; writing transports the value along that equation and reading transports
  it back. Reading what was just written gives the value back, and writing what was just read gives the contents back.
-/
import Idealize.ShloMosaic.Lib.StableHlo

namespace TypedRefs

open Idealize.ShloMosaic Idealize.ShloMosaic.StableHlo

variable {sig : RefSig} {T : BufTy} {Val : EltTy → Type}

/-- Reading back what was written through the same typed reference is the value. -/
theorem ofBuf_toBuf (x : TRef sig T) (v : T.Contents Val) : x.ofBuf (x.toBuf v) = v := by
  obtain ⟨r, h, _, _⟩ := x
  subst h
  rfl

/-- Writing back what was read through the same typed reference is the contents. -/
theorem toBuf_ofBuf (x : TRef sig T) (v : x.ref.ty.Contents Val) : x.toBuf (x.ofBuf v) = v := by
  obtain ⟨r, h, _, _⟩ := x
  subst h
  rfl

end TypedRefs
-- ==== Proof.RefRun.lean ====
/-
  The plain program's run, read back stage by stage.

  Each stretch of operations, started from arbitrary buffer contents, leaves its stage's output buffer at the stage
  function of the contents of the buffers it reads, and leaves every buffer it does not write unchanged. Running the nine
  stretches in a row therefore leaves the result buffer at the network function of the sixteen argument arrays, and the
  argument arrays unchanged. Every weakly fair execution of the program terminates in such a state.
-/
import proofs.«142724_j51462298140964_1_alg».proof.Proof.RefStages
import proofs.«142724_j51462298140964_1_alg».proof.Proof.RefOps
import proofs.«142724_j51462298140964_1_alg».proof.Proof.LibAfterAppend
import proofs.«142724_j51462298140964_1_alg».proof.Proof.LibTypedRefs

noncomputable section

namespace Cert.Sage.Ref

open Cert.ReferenceIdeal Cert.ReferenceIdeal.Facts₀ Idealize.ShloMosaic Idealize.ShloMosaic.TcCoe Idealize.SL.Sem Idealize.ShloMosaic.StableHlo AfterAppend

attribute [local irreducible] Host.reduceAdd Host.reduce Host.gather Host.scatterAdd

set_option maxRecDepth 8192 in
set_option maxHeartbeats 4000000 in
/-- The stage's output buffer after the stretch, from any contents. -/
theorem sAgg0_out (V : Valuation τ sig (Elt Ideal)) :
    after (sAgg0 (F := Ideal)) V (Proc.devRef .tc main_v18) = aggR (V (Proc.devRef .tc main_arg0)) (V (Proc.devRef .tc main_arg1)) (V (Proc.devRef .tc main_arg2)) := by
  simp only [sAgg0]
  after_results_simp
  rfl

set_option maxRecDepth 8192 in
set_option maxHeartbeats 4000000 in
/-- The stage's output buffer after the stretch, from any contents. -/
theorem sLin0_out (V : Valuation τ sig (Elt Ideal)) :
    after (sLin0 (F := Ideal)) V (Proc.devRef .tc main_v24) = linR128 (V (Proc.devRef .tc main_arg0)) (V (Proc.devRef .tc main_v18)) (V (Proc.devRef .tc main_arg3)) (V (Proc.devRef .tc main_arg4)) (V (Proc.devRef .tc main_arg5)) := by
  simp only [sLin0]
  after_results_simp
  rfl

set_option maxRecDepth 8192 in
set_option maxHeartbeats 4000000 in
/-- The stage's output buffer after the stretch, from any contents. -/
theorem sBn0_out (V : Valuation τ sig (Elt Ideal)) :
    after (sBn0 (F := Ideal)) V (Proc.devRef .tc main_v44) = bnR (V (Proc.devRef .tc main_v24)) (meanR (V (Proc.devRef .tc main_v24))) (varR (V (Proc.devRef .tc main_v24))) (V (Proc.devRef .tc main_arg6)) (V (Proc.devRef .tc main_arg7)) := by
  simp only [sBn0]
  after_results_simp
  rfl

set_option maxRecDepth 8192 in
set_option maxHeartbeats 4000000 in
/-- The stage's output buffer after the stretch, from any contents. -/
theorem sAgg1_out (V : Valuation τ sig (Elt Ideal)) :
    after (sAgg1 (F := Ideal)) V (Proc.devRef .tc main_v63) = aggR (V (Proc.devRef .tc main_v44)) (V (Proc.devRef .tc main_arg1)) (V (Proc.devRef .tc main_arg2)) := by
  simp only [sAgg1, sAgg1a, sAgg1b, List.cons_append, List.nil_append]
  after_results_simp
  rfl

set_option maxRecDepth 8192 in
set_option maxHeartbeats 4000000 in
/-- The stage's output buffer after the stretch, from any contents. -/
theorem sLin1_out (V : Valuation τ sig (Elt Ideal)) :
    after (sLin1 (F := Ideal)) V (Proc.devRef .tc main_v69) = linR128 (V (Proc.devRef .tc main_v44)) (V (Proc.devRef .tc main_v63)) (V (Proc.devRef .tc main_arg8)) (V (Proc.devRef .tc main_arg9)) (V (Proc.devRef .tc main_arg10)) := by
  simp only [sLin1]
  after_results_simp
  rfl

set_option maxRecDepth 8192 in
set_option maxHeartbeats 4000000 in
/-- The stage's output buffer after the stretch, from any contents. -/
theorem sBn1_out (V : Valuation τ sig (Elt Ideal)) :
    after (sBn1 (F := Ideal)) V (Proc.devRef .tc main_v89) = bnR (V (Proc.devRef .tc main_v69)) (meanR (V (Proc.devRef .tc main_v69))) (varR (V (Proc.devRef .tc main_v69))) (V (Proc.devRef .tc main_arg11)) (V (Proc.devRef .tc main_arg12)) := by
  simp only [sBn1]
  after_results_simp
  rfl

set_option maxRecDepth 8192 in
set_option maxHeartbeats 4000000 in
/-- The stage's output buffer after the stretch, from any contents. -/
theorem sAgg2_out (V : Valuation τ sig (Elt Ideal)) :
    after (sAgg2 (F := Ideal)) V (Proc.devRef .tc main_v108) = aggR (V (Proc.devRef .tc main_v89)) (V (Proc.devRef .tc main_arg1)) (V (Proc.devRef .tc main_arg2)) := by
  simp only [sAgg2, sAgg2a, sAgg2b, List.cons_append, List.nil_append]
  after_results_simp
  rfl

set_option maxRecDepth 8192 in
set_option maxHeartbeats 4000000 in
/-- The stage's output buffer after the stretch, from any contents. -/
theorem sLin2_out (V : Valuation τ sig (Elt Ideal)) :
    after (sLin2 (F := Ideal)) V (Proc.devRef .tc main_v114) = linR64 (V (Proc.devRef .tc main_v89)) (V (Proc.devRef .tc main_v108)) (V (Proc.devRef .tc main_arg13)) (V (Proc.devRef .tc main_arg14)) (V (Proc.devRef .tc main_arg15)) := by
  simp only [sLin2]
  after_results_simp
  rfl

/-- Reading the result buffer at its value's type is reading it as it is. -/
theorem read_v115 (v : (main_v115 : Ref sig .tc).ty.Contents (Elt Ideal)) : (.of main_v115 : TRef sig ⟨S100000x64, .f32⟩).ofBuf (Val := Elt Ideal) v = v := rfl
/-- Reading the stage's input buffer at its value's type is reading it as it is. -/
theorem read_v114 (v : (main_v114 : Ref sig .tc).ty.Contents (Elt Ideal)) : (.of main_v114 : TRef sig ⟨S100000x64, .f32⟩).ofBuf (Val := Elt Ideal) v = v := rfl

set_option maxRecDepth 8192 in
set_option maxHeartbeats 1000000 in
/-- The log-softmax stretch, read at the value types of its input and output buffers: each operation reads what the one
    before wrote through the same typed reference, so the transports cancel in pairs. -/
theorem sLsm_typed (V : Valuation τ sig (Elt Ideal)) :
    (.of main_v115 : TRef sig ⟨S100000x64, .f32⟩).ofBuf (after (sLsm (F := Ideal)) V (Proc.devRef .tc main_v115)) = lsmR ((.of main_v114 : TRef sig ⟨S100000x64, .f32⟩).ofBuf (V (Proc.devRef .tc main_v114))) := by
  simp only [sLsm]
  after_results_simp
  simp only [TypedRefs.ofBuf_toBuf]
  rfl

/-- The stage's output buffer after the stretch, from any contents. -/
theorem sLsm_out (V : Valuation τ sig (Elt Ideal)) :
    after (sLsm (F := Ideal)) V (Proc.devRef .tc main_v115) = lsmR (V (Proc.devRef .tc main_v114)) := by
  have h := sLsm_typed V
  rw [read_v115, read_v114] at h
  exact h

/-- A buffer the stretch does not write keeps its contents through it. -/
theorem sAgg1_keep (V : Valuation τ sig (Elt Ideal)) (r : Ref sig .tc) (ha : r ∉ sAgg1a_W) (hb : r ∉ sAgg1b_W) :
    after (sAgg1 (F := Ideal)) V (Proc.devRef .tc r) = V (Proc.devRef .tc r) := by
  simp only [sAgg1, after_append]
  rw [sAgg1b_keep (F := Ideal) _ r hb, sAgg1a_keep (F := Ideal) V r ha]

/-- A buffer the stretch does not write keeps its contents through it. -/
theorem sAgg2_keep (V : Valuation τ sig (Elt Ideal)) (r : Ref sig .tc) (ha : r ∉ sAgg2a_W) (hb : r ∉ sAgg2b_W) :
    after (sAgg2 (F := Ideal)) V (Proc.devRef .tc r) = V (Proc.devRef .tc r) := by
  simp only [sAgg2, after_append]
  rw [sAgg2b_keep (F := Ideal) _ r hb, sAgg2a_keep (F := Ideal) V r ha]

set_option maxRecDepth 8192 in
set_option maxHeartbeats 4000000 in
/-- After the whole program the result buffer holds the network function of the argument arrays' launch contents. -/
theorem out_eq (V : Valuation τ sig (Elt Ideal)) :
    after (ops (F := Ideal)) V (Proc.devRef .tc main_v115) = Rval (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  simp only [ops, after_append]
  rw [sLsm_out]
  rw [sLin2_out]
  rw [sAgg2_keep _ main_v89 (by decide) (by decide),
    sAgg2_out,
    sAgg2_keep _ main_arg13 (by decide) (by decide),
    sAgg2_keep _ main_arg14 (by decide) (by decide),
    sAgg2_keep _ main_arg15 (by decide) (by decide)]
  rw [sBn1_out,
    sBn1_keep (F := Ideal) _ main_arg1 (by decide),
    sBn1_keep (F := Ideal) _ main_arg2 (by decide),
    sBn1_keep (F := Ideal) _ main_arg13 (by decide),
    sBn1_keep (F := Ideal) _ main_arg14 (by decide),
    sBn1_keep (F := Ideal) _ main_arg15 (by decide)]
  rw [sLin1_out,
    sLin1_keep (F := Ideal) _ main_arg11 (by decide),
    sLin1_keep (F := Ideal) _ main_arg12 (by decide),
    sLin1_keep (F := Ideal) _ main_arg1 (by decide),
    sLin1_keep (F := Ideal) _ main_arg2 (by decide),
    sLin1_keep (F := Ideal) _ main_arg13 (by decide),
    sLin1_keep (F := Ideal) _ main_arg14 (by decide),
    sLin1_keep (F := Ideal) _ main_arg15 (by decide)]
  rw [sAgg1_keep _ main_v44 (by decide) (by decide),
    sAgg1_out,
    sAgg1_keep _ main_arg8 (by decide) (by decide),
    sAgg1_keep _ main_arg9 (by decide) (by decide),
    sAgg1_keep _ main_arg10 (by decide) (by decide),
    sAgg1_keep _ main_arg11 (by decide) (by decide),
    sAgg1_keep _ main_arg12 (by decide) (by decide),
    sAgg1_keep _ main_arg1 (by decide) (by decide),
    sAgg1_keep _ main_arg2 (by decide) (by decide),
    sAgg1_keep _ main_arg13 (by decide) (by decide),
    sAgg1_keep _ main_arg14 (by decide) (by decide),
    sAgg1_keep _ main_arg15 (by decide) (by decide)]
  rw [sBn0_out,
    sBn0_keep (F := Ideal) _ main_arg1 (by decide),
    sBn0_keep (F := Ideal) _ main_arg2 (by decide),
    sBn0_keep (F := Ideal) _ main_arg8 (by decide),
    sBn0_keep (F := Ideal) _ main_arg9 (by decide),
    sBn0_keep (F := Ideal) _ main_arg10 (by decide),
    sBn0_keep (F := Ideal) _ main_arg11 (by decide),
    sBn0_keep (F := Ideal) _ main_arg12 (by decide),
    sBn0_keep (F := Ideal) _ main_arg13 (by decide),
    sBn0_keep (F := Ideal) _ main_arg14 (by decide),
    sBn0_keep (F := Ideal) _ main_arg15 (by decide)]
  rw [sLin0_out,
    sLin0_keep (F := Ideal) _ main_arg6 (by decide),
    sLin0_keep (F := Ideal) _ main_arg7 (by decide),
    sLin0_keep (F := Ideal) _ main_arg1 (by decide),
    sLin0_keep (F := Ideal) _ main_arg2 (by decide),
    sLin0_keep (F := Ideal) _ main_arg8 (by decide),
    sLin0_keep (F := Ideal) _ main_arg9 (by decide),
    sLin0_keep (F := Ideal) _ main_arg10 (by decide),
    sLin0_keep (F := Ideal) _ main_arg11 (by decide),
    sLin0_keep (F := Ideal) _ main_arg12 (by decide),
    sLin0_keep (F := Ideal) _ main_arg13 (by decide),
    sLin0_keep (F := Ideal) _ main_arg14 (by decide),
    sLin0_keep (F := Ideal) _ main_arg15 (by decide)]
  rw [sAgg0_keep (F := Ideal) _ main_arg0 (by decide),
    sAgg0_out,
    sAgg0_keep (F := Ideal) _ main_arg3 (by decide),
    sAgg0_keep (F := Ideal) _ main_arg4 (by decide),
    sAgg0_keep (F := Ideal) _ main_arg5 (by decide),
    sAgg0_keep (F := Ideal) _ main_arg6 (by decide),
    sAgg0_keep (F := Ideal) _ main_arg7 (by decide),
    sAgg0_keep (F := Ideal) _ main_arg1 (by decide),
    sAgg0_keep (F := Ideal) _ main_arg2 (by decide),
    sAgg0_keep (F := Ideal) _ main_arg8 (by decide),
    sAgg0_keep (F := Ideal) _ main_arg9 (by decide),
    sAgg0_keep (F := Ideal) _ main_arg10 (by decide),
    sAgg0_keep (F := Ideal) _ main_arg11 (by decide),
    sAgg0_keep (F := Ideal) _ main_arg12 (by decide),
    sAgg0_keep (F := Ideal) _ main_arg13 (by decide),
    sAgg0_keep (F := Ideal) _ main_arg14 (by decide),
    sAgg0_keep (F := Ideal) _ main_arg15 (by decide)]
  rfl

/-- A buffer no stretch writes keeps its contents through the whole program. -/
theorem kept (V : Valuation τ sig (Elt Ideal)) (r : Ref sig .tc) (h0 : r ∉ sAgg0_W) (h1 : r ∉ sLin0_W) (h2 : r ∉ sBn0_W) (h3a : r ∉ sAgg1a_W) (h3b : r ∉ sAgg1b_W) (h4 : r ∉ sLin1_W) (h5 : r ∉ sBn1_W) (h6a : r ∉ sAgg2a_W) (h6b : r ∉ sAgg2b_W) (h7 : r ∉ sLin2_W) (h8 : r ∉ sLsm_W) :
    after (ops (F := Ideal)) V (Proc.devRef .tc r) = V (Proc.devRef .tc r) := by
  simp only [ops, after_append]
  rw [sLsm_keep (F := Ideal) _ r h8,
    sLin2_keep (F := Ideal) _ r h7,
    sAgg2_keep _ r h6a h6b,
    sBn1_keep (F := Ideal) _ r h5,
    sLin1_keep (F := Ideal) _ r h4,
    sAgg1_keep _ r h3a h3b,
    sBn0_keep (F := Ideal) _ r h2,
    sLin0_keep (F := Ideal) _ r h1,
    sAgg0_keep (F := Ideal) _ r h0]

set_option maxRecDepth 8192 in
set_option maxHeartbeats 4000000 in
/-- From any memory with zero counters, every weakly fair execution of the plain program terminates with the result buffer at
    the network function of the argument arrays and the argument arrays unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v115) = Rval (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)) :=
  (θ_run defs _ _).mono (fun _ h c => ⟨(h c main_v115).trans (out_eq (launchContents m' c)),
      (h c main_arg0).trans (kept (launchContents m' c) main_arg0 (by decide) (by decide) (by decide) (by decide) (by decide) (by decide) (by decide) (by decide) (by decide) (by decide) (by decide)),
      (h c main_arg1).trans (kept (launchContents m' c) main_arg1 (by decide) (by decide) (by decide) (by decide) (by decide) (by decide) (by decide) (by decide) (by decide) (by decide) (by decide)),
      (h c main_arg2).trans (kept (launchContents m' c) main_arg2 (by decide) (by decide) (by decide) (by decide) (by decide) (by decide) (by decide) (by decide) (by decide) (by decide) (by decide)),
      (h c main_arg3).trans (kept (launchContents m' c) main_arg3 (by decide) (by decide) (by decide) (by decide) (by decide) (by decide) (by decide) (by decide) (by decide) (by decide) (by decide)),
      (h c main_arg4).trans (kept (launchContents m' c) main_arg4 (by decide) (by decide) (by decide) (by decide) (by decide) (by decide) (by decide) (by decide) (by decide) (by decide) (by decide)),
      (h c main_arg5).trans (kept (launchContents m' c) main_arg5 (by decide) (by decide) (by decide) (by decide) (by decide) (by decide) (by decide) (by decide) (by decide) (by decide) (by decide)),
      (h c main_arg6).trans (kept (launchContents m' c) main_arg6 (by decide) (by decide) (by decide) (by decide) (by decide) (by decide) (by decide) (by decide) (by decide) (by decide) (by decide)),
      (h c main_arg7).trans (kept (launchContents m' c) main_arg7 (by decide) (by decide) (by decide) (by decide) (by decide) (by decide) (by decide) (by decide) (by decide) (by decide) (by decide)),
      (h c main_arg8).trans (kept (launchContents m' c) main_arg8 (by decide) (by decide) (by decide) (by decide) (by decide) (by decide) (by decide) (by decide) (by decide) (by decide) (by decide)),
      (h c main_arg9).trans (kept (launchContents m' c) main_arg9 (by decide) (by decide) (by decide) (by decide) (by decide) (by decide) (by decide) (by decide) (by decide) (by decide) (by decide)),
      (h c main_arg10).trans (kept (launchContents m' c) main_arg10 (by decide) (by decide) (by decide) (by decide) (by decide) (by decide) (by decide) (by decide) (by decide) (by decide) (by decide)),
      (h c main_arg11).trans (kept (launchContents m' c) main_arg11 (by decide) (by decide) (by decide) (by decide) (by decide) (by decide) (by decide) (by decide) (by decide) (by decide) (by decide)),
      (h c main_arg12).trans (kept (launchContents m' c) main_arg12 (by decide) (by decide) (by decide) (by decide) (by decide) (by decide) (by decide) (by decide) (by decide) (by decide) (by decide)),
      (h c main_arg13).trans (kept (launchContents m' c) main_arg13 (by decide) (by decide) (by decide) (by decide) (by decide) (by decide) (by decide) (by decide) (by decide) (by decide) (by decide)),
      (h c main_arg14).trans (kept (launchContents m' c) main_arg14 (by decide) (by decide) (by decide) (by decide) (by decide) (by decide) (by decide) (by decide) (by decide) (by decide) (by decide)),
      (h c main_arg15).trans (kept (launchContents m' c) main_arg15 (by decide) (by decide) (by decide) (by decide) (by decide) (by decide) (by decide) (by decide) (by decide) (by decide) (by decide))⟩)
    (run_seq scopedRefs_eq scopedSems_eq defs main (fun _ => ops) main_eq (fun _ => ops_sub) m' ρ')

end Cert.Sage.Ref

end
-- ==== Proof.BridgeHost.lean ====
/-
  The plain program's host stages and the kernel program's host stages are the same functions.

  Mean aggregation, the column mean and the column variance are built in both programs from the same whole-array
  operations applied in the same order to the same literal shapes; the two programs only name their shapes and
  operation records separately.
-/
import proofs.«142724_j51462298140964_1_alg».proof.Proof.RefStages
import proofs.«142724_j51462298140964_1_alg».proof.Proof.KShared

noncomputable section

namespace Cert.Sage.Bridge

open Idealize.ShloMosaic

/-- Mean aggregation: the same composition of gather, scatter-add, maximum and division in both programs. -/
theorem aggR_eq (h : FVec Ideal ⟨2, ![100000, 128]⟩ .f32) (src dst : IVec ⟨1, ![1600000]⟩ 32) :
    Ref.aggR h src dst = agg h src dst := rfl

/-- The column mean: the same column sum divided by the same constant. -/
theorem meanR_eq (pre : FVec Ideal ⟨2, ![100000, 128]⟩ .f32) : Ref.meanR pre = meanv pre := rfl

/-- The column variance: the same guarded quotient of the column sum of squared deviations. -/
theorem varR_eq (pre : FVec Ideal ⟨2, ![100000, 128]⟩ .f32) : Ref.varR pre = varv pre := rfl

end Cert.Sage.Bridge

end
-- ==== Proof.BridgeLin.lean ====
/-
  The plain program's linear combine is the layer's linear combine.

  Entry (r, c) of the plain program's  h·Wself + agg·Wneigh + b  is  Σ_k h(r,k)·Wself(k,c) + Σ_k agg(r,k)·Wneigh(k,c)
  + b(c): each matrix product on the host, read at an entry, is the sum over the one contraction coordinate; the bias
  vector is placed as the one row of a matrix and that row repeated down the rows, so entry (r, c) of it is b(c) — and so
  is entry (0, c) of the bias viewed as a one-row matrix.
-/
import proofs.«142724_j51462298140964_1_alg».proof.Proof.RefStages
import proofs.«142724_j51462298140964_1_alg».proof.Proof.KShared
import proofs.«142724_j51462298140964_1_alg».proof.Proof.Spec
import proofs.«142724_j51462298140964_1_alg».proof.Proof.LibPlainMatmul
import Idealize.ShloMosaic.Lib.Pipeline.Value
import Idealize.ShloMosaic.Lib.ValueLayout
import Idealize.ShloMosaic.Lib.ValueIdx
import Idealize.ShloMosaic.PureOps.Ideal.Laws

noncomputable section

namespace Cert.Sage.Bridge

open Idealize.ShloMosaic Idealize.ShloMosaic.ValueIdx

/-- The host's plain matrix product at `(r, c)`: the sum over `k` of `lhs (r, k) · rhs (k, c)`. -/
theorem hostPlain_apply {M K N : ℕ} {φ₁ φ₂ : FTy} (lhs : FVec Ideal ⟨2, ![M, K]⟩ φ₁) (rhs : FVec Ideal ⟨2, ![K, N]⟩ φ₂)
    (r : Fin M) (c : Fin N) :
    Host.dotGeneral (DotDims.plain M K N) none lhs rhs (ix2 r c) = ∑ k : Fin K, lhs (ix2 r k) * rhs (ix2 k c) := by
  show FloatOps.dotGeneral (DotDims.plain M K N) none .single lhs rhs (ix2 r c) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact Cert.PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact Cert.PlainMatmul.rhs_col _ _)
  rw [el, er]

/-- A one-row matrix repeated down the rows reads, at `(p, c)`, its row at `c`. -/
theorem rowsBroadcast_apply {α : Type} {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => rfl
    | ⟨1, _⟩ =>
      show c.val = if b = 1 then 0 else c.val
      split
      · have := c.isLt; omega
      · rfl

/-- A vector placed as the one row of a matrix reads, at `(u, c)`, the vector at `c`. -/
theorem vecRow_apply {α : Type} {n : ℕ} (v : (⟨1, ![n]⟩ : Shape).Idx → α)
    (h : (⟨1, ![n]⟩ : Shape).BroadcastsInDim ⟨2, ![1, n]⟩ (![1] : Fin 1 → Fin 2)) (u : Fin 1) (c : Fin n) :
    broadcastInDim ⟨2, ![1, n]⟩ ![1] h v (ix2 u c) = v (ix1 c) :=
  broadcastInDim_apply (![1] : Fin 1 → Fin 2) h v (ix2 u c) (ix1 c) fun ax => by
    match ax with
    | ⟨0, _⟩ =>
      show c.val = if n = 1 then 0 else c.val
      split
      · have := c.isLt; omega
      · rfl

/-- The plain program's linear combine with 128 output columns is the layer's. -/
theorem linR128_eq (h a : FVec Ideal ⟨2, ![100000, 128]⟩ .f32) (ws wn : FVec Ideal ⟨2, ![128, 128]⟩ .f32)
    (b : FVec Ideal ⟨1, ![128]⟩ .f32) :
    Ref.linR128 h a ws wn b = lin (N := 100000) (K := 128) (M := 128) h a ws wn (row128 b) := by
  funext i
  obtain ⟨r, c, rfl⟩ : ∃ (r : Fin 100000) (c : Fin 128), i = ix2 r c := ⟨i 0, i 1, eq_ix2 i⟩
  rw [lin_ix2]
  unfold Ref.linR128 linAt row128
  rw [addf_apply, addf_apply]
  refine congrArg₂ (fun x y : EReal => x + y)
    (congrArg₂ (fun x y : EReal => x + y) (hostPlain_apply h ws r c) (hostPlain_apply a wn r c)) ?_
  rw [rowsBroadcast_apply, vecRow_apply, shapeCast_a_1a_apply]

/-- The plain program's linear combine with 64 output columns is the layer's. -/
theorem linR64_eq (h a : FVec Ideal ⟨2, ![100000, 128]⟩ .f32) (ws wn : FVec Ideal ⟨2, ![128, 64]⟩ .f32)
    (b : FVec Ideal ⟨1, ![64]⟩ .f32) :
    Ref.linR64 h a ws wn b = lin (N := 100000) (K := 128) (M := 64) h a ws wn (row64 b) := by
  funext i
  obtain ⟨r, c, rfl⟩ : ∃ (r : Fin 100000) (c : Fin 64), i = ix2 r c := ⟨i 0, i 1, eq_ix2 i⟩
  rw [lin_ix2]
  unfold Ref.linR64 linAt row64
  rw [addf_apply, addf_apply]
  refine congrArg₂ (fun x y : EReal => x + y)
    (congrArg₂ (fun x y : EReal => x + y) (hostPlain_apply h ws r c) (hostPlain_apply a wn r c)) ?_
  rw [rowsBroadcast_apply, vecRow_apply, shapeCast_a_1a_apply]

end Cert.Sage.Bridge

end
-- ==== Proof.BridgeBn.lean ====
/-
  The plain program's normalisation stage is the layer's batch normalisation with the rectifier.

  Entry (r, c) of the plain program's stage is  max((pre(r,c) − μ(c)) · rsqrt(σ²(c) + ε) · γ(c) + β(c), 0): each of the
  four vectors is placed as the one row of a matrix and that row repeated down the rows, so it is read at column c; ε
  and 0 are scalars repeated over every entry. The layer reads the same vectors viewed as one-row matrices at (0, c).
-/
import proofs.«142724_j51462298140964_1_alg».proof.Proof.RefStages
import proofs.«142724_j51462298140964_1_alg».proof.Proof.KShared
import proofs.«142724_j51462298140964_1_alg».proof.Proof.Spec
import proofs.«142724_j51462298140964_1_alg».proof.Proof.BridgeLin

noncomputable section

namespace Cert.Sage.Bridge

open Idealize.ShloMosaic Idealize.ShloMosaic.ValueIdx

/-- A scalar constant repeated over an array reads the constant everywhere. -/
theorem scalarBroadcast_apply {t : Shape} (w : BitVec 32)
    (h : (⟨0, ![]⟩ : Shape).BroadcastsInDim t (![] : Fin 0 → Fin t.rank)) (j : t.Idx) :
    broadcastInDim t ![] h (constant (F := Ideal) ⟨0, ![]⟩ .f32 w) j = Ideal.ofBits .f32 w :=
  broadcastInDim_apply (![] : Fin 0 → Fin t.rank) h (constant (F := Ideal) ⟨0, ![]⟩ .f32 w) j ix0 (fun a => a.elim0)

/-- The host's elementwise reciprocal square root at an entry. -/
theorem hostRsqrt_apply {s : Shape} {φ : FTy} (a : FVec Ideal s φ) (i : s.Idx) : Host.rsqrt a i = Ideal.rsqrt (a i) := rfl

/-- The plain program's normalisation stage is the layer's. -/
theorem bnR_eq (pre : FVec Ideal ⟨2, ![100000, 128]⟩ .f32) (mu vr g be : FVec Ideal ⟨1, ![128]⟩ .f32) :
    Ref.bnR pre mu vr g be = bn (N := 100000) (M := 128) pre (row128 mu) (row128 vr) (row128 g) (row128 be) := by
  funext i
  obtain ⟨r, c, rfl⟩ : ∃ (r : Fin 100000) (c : Fin 128), i = ix2 r c := ⟨i 0, i 1, eq_ix2 i⟩
  rw [bn_ix2]
  unfold Ref.bnR bnAt row128
  simp only [maximumf_apply, addf_apply, mulf_apply, subf_apply, shapeCast_a_1a_apply]
  repeat rw [rowsBroadcast_apply]
  repeat rw [vecRow_apply]
  simp only [hostRsqrt_apply, addf_apply]
  repeat rw [scalarBroadcast_apply]

end Cert.Sage.Bridge

end
-- ==== Proof.BridgeLsm.lean ====
/-
  The plain program's log-softmax stage is the row-wise log-softmax.

  The plain program takes each row's maximum by a fold of max from −∞ (and once more against −∞, which changes
  nothing), views the vector of maxima as a column and repeats it across the lanes, subtracts, exponentiates, sums each
  row (from zero), takes the logarithm, views it as a column repeated across the lanes, and subtracts again: entry
  (r, c) is  (h(r,c) − M(r)) − log Σ_j exp(h(r,j) − M(r)).
-/
import proofs.«142724_j51462298140964_1_alg».proof.Proof.RefStages
import proofs.«142724_j51462298140964_1_alg».proof.Proof.Spec
import proofs.«142724_j51462298140964_1_alg».proof.Proof.BridgeBn
import Idealize.ShloMosaic.PureOps.Ideal.Laws

noncomputable section

namespace Cert.Sage.Bridge

open Idealize.ShloMosaic Idealize.ShloMosaic.ValueIdx

/-- A column repeated across the lanes reads, at `(p, c)`, the column's entry of row `p`. -/
theorem lanesBroadcast_apply {α : Type} {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => rfl

/-- A vector placed as the one column of a matrix reads, at `(p, u)`, the vector at `p`. -/
theorem vecCol_apply {α : Type} {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- The host's elementwise exponential at an entry. -/
theorem hostExp_apply {s : Shape} {φ : FTy} (a : FVec Ideal s φ) (i : s.Idx) : Host.exp a i = Ideal.exp (a i) := rfl

/-- The host's elementwise logarithm at an entry. -/
theorem hostLog_apply {s : Shape} {φ : FTy} (a : FVec Ideal s φ) (i : s.Idx) : Host.log a i = Ideal.log (a i) := rfl

/-- Row `p` of the reduced vector with lane `k` put back is the matrix entry (p, k). -/
theorem lift_lane64 (h : (⟨2, ![100000, 64]⟩ : Shape).Reduces [1] (⟨1, ![100000]⟩ : Shape)) (p : Fin 100000) (k : Fin 64) :
    h.lift (ix1 p) k = ix2 p k := by
  funext c; apply Fin.ext
  fin_cases c <;> rfl

/-- The host's reduce with a maximum body over the lanes, from −∞, at row `r`, is the row's maximum. -/
theorem hostRowMax_apply (x : FVec Ideal ⟨2, ![100000, 64]⟩ .f32)
    (h' : (⟨2, ![100000, 64]⟩ : Shape).ReducesTo [1] (⟨1, ![100000]⟩ : Shape)) (hu : 0 < (⟨0, ![]⟩ : Shape).numel)
    (r : Fin 100000) :
    Host.reduce FloatOps.maximumf x (constant (F := Ideal) ⟨0, ![]⟩ .f32 0xFF800000#32) h' hu (ix1 r) = rowMax x r := by
  have h : (⟨2, ![100000, 64]⟩ : Shape).Reduces [1] (⟨1, ![100000]⟩ : Shape) := by decide
  rw [Host.reduce_eq_fold_single FloatOps.maximumf x _ h' h hu]
  unfold rowMax
  have hf : (x ∘ h.lift (ix1 r)) = fun k : Fin 64 => x (ix2 r k) := funext fun k => congrArg x (lift_lane64 h r k)
  exact congrArg (fun f => Finset.fold max (Ideal.ofBits .f32 0xFF800000#32) f (Finset.univ : Finset (Fin 64))) hf

/-- The host's sum over the lanes, from zero, at row `r`, is the sum of the row's 64 entries. -/
theorem hostRowSum_apply (x : FVec Ideal ⟨2, ![100000, 64]⟩ .f32)
    (h' : (⟨2, ![100000, 64]⟩ : Shape).ReducesTo [1] (⟨1, ![100000]⟩ : Shape)) (hu : 0 < (⟨0, ![]⟩ : Shape).numel)
    (r : Fin 100000) :
    Host.reduceAdd x (constant (F := Ideal) ⟨0, ![]⟩ .f32 0x00000000#32) h' hu (ix1 r) = ∑ k : Fin 64, x (ix2 r k) := by
  have h : (⟨2, ![100000, 64]⟩ : Shape).Reduces [1] (⟨1, ![100000]⟩ : Shape) := by decide
  show Ideal.hostReduceAdd h' x (Ideal.ofBits .f32 0x00000000#32) (ix1 r) = _
  rw [Ideal.hostReduceAdd_single h' h, Ideal.ofBits_zero_f32, zero_add]
  exact Finset.sum_congr rfl fun k _ => congrArg x (lift_lane64 h r k)

/-- The maximum of −∞ and a row maximum is the row maximum: the fold already starts from −∞. -/
theorem rowMax_absorb {N M : ℕ} (h : FVec Ideal ⟨2, ![N, M]⟩ .f32) (r : Fin N) :
    max (Ideal.ofBits .f32 0xFF800000#32) (rowMax h r) = rowMax h r :=
  max_eq_right (by unfold rowMax; exact (Finset.le_fold_max _).mpr (Or.inl le_rfl))

/-- The plain program's column of row maxima repeated across the lanes reads the row's maximum at every lane. -/
theorem refRowMax_apply (h : FVec Ideal ⟨2, ![100000, 64]⟩ .f32)
    (hb2 : (⟨2, ![100000, 1]⟩ : Shape).BroadcastsInDim ⟨2, ![100000, 64]⟩ (![0, 1] : Fin 2 → Fin 2))
    (hb1 : (⟨1, ![100000]⟩ : Shape).BroadcastsInDim ⟨2, ![100000, 1]⟩ (![0] : Fin 1 → Fin 2))
    (hb0 : (⟨0, ![]⟩ : Shape).BroadcastsInDim ⟨1, ![100000]⟩ (![] : Fin 0 → Fin 1))
    (h' : (⟨2, ![100000, 64]⟩ : Shape).ReducesTo [1] (⟨1, ![100000]⟩ : Shape)) (hu : 0 < (⟨0, ![]⟩ : Shape).numel)
    (r : Fin 100000) (k : Fin 64) :
    broadcastInDim ⟨2, ![100000, 64]⟩ ![0, 1] hb2 (broadcastInDim ⟨2, ![100000, 1]⟩ ![0] hb1
      (maximumf (broadcastInDim ⟨1, ![100000]⟩ ![] hb0 (constant (F := Ideal) ⟨0, ![]⟩ .f32 0xFF800000#32))
        (Host.reduce FloatOps.maximumf h (constant (F := Ideal) ⟨0, ![]⟩ .f32 0xFF800000#32) h' hu))) (ix2 r k)
      = rowMax h r := by
  rw [lanesBroadcast_apply, vecCol_apply, maximumf_apply, scalarBroadcast_apply, hostRowMax_apply]
  exact rowMax_absorb h r

/-- The plain program's log-softmax stage is the row-wise log-softmax. -/
theorem lsmR_eq (h : FVec Ideal ⟨2, ![100000, 64]⟩ .f32) : Ref.lsmR h = lsm (N := 100000) (M := 64) h := by
  funext i
  obtain ⟨r, c, rfl⟩ : ∃ (r : Fin 100000) (c : Fin 64), i = ix2 r c := ⟨i 0, i 1, eq_ix2 i⟩
  rw [lsm_ix2]
  unfold Ref.lsmR lsmAt
  rw [subf_apply, subf_apply, refRowMax_apply, lanesBroadcast_apply, hostLog_apply, vecCol_apply, hostRowSum_apply]
  refine congrArg (fun s : EReal => (h (ix2 r c) - rowMax h r) - Ideal.log s) (Finset.sum_congr rfl fun k _ => ?_)
  rw [hostExp_apply, subf_apply, refRowMax_apply]

end Cert.Sage.Bridge

end
-- ==== Proof.Bridge.lean ====
/-
  The plain program's network is the layered network.

  Stage by stage the plain program computes what the layered description computes: mean aggregation, the column mean
  and the column variance are the same functions, and the linear combine, the normalisation with the rectifier and the
  row-wise log-softmax agree entry by entry with the layers' definitions. Composed in the same order over the same
  sixteen argument arrays, the two networks are equal.
-/
import proofs.«142724_j51462298140964_1_alg».proof.Proof.Net
import proofs.«142724_j51462298140964_1_alg».proof.Proof.RefStages
import proofs.«142724_j51462298140964_1_alg».proof.Proof.BridgeHost
import proofs.«142724_j51462298140964_1_alg».proof.Proof.BridgeLin
import proofs.«142724_j51462298140964_1_alg».proof.Proof.BridgeBn
import proofs.«142724_j51462298140964_1_alg».proof.Proof.BridgeLsm

noncomputable section

namespace Cert.Sage.Bridge

open Idealize.ShloMosaic

/-- The plain program's network, as a function of the sixteen argument arrays, is the layered network. -/
theorem Rval_eq (x : FVec Ideal ⟨2, ![100000, 128]⟩ .f32) (src dst : IVec ⟨1, ![1600000]⟩ 32)
    (ws0 wn0 : FVec Ideal ⟨2, ![128, 128]⟩ .f32) (b0 g0 be0 : FVec Ideal ⟨1, ![128]⟩ .f32)
    (ws1 wn1 : FVec Ideal ⟨2, ![128, 128]⟩ .f32) (b1 g1 be1 : FVec Ideal ⟨1, ![128]⟩ .f32)
    (ws2 wn2 : FVec Ideal ⟨2, ![128, 64]⟩ .f32) (b2 : FVec Ideal ⟨1, ![64]⟩ .f32) :
    Ref.Rval x src dst ws0 wn0 b0 g0 be0 ws1 wn1 b1 g1 be1 ws2 wn2 b2
      = net x src dst ws0 wn0 b0 g0 be0 ws1 wn1 b1 g1 be1 ws2 wn2 b2 := by
  unfold Ref.Rval net output hidden
  simp only [aggR_eq, meanR_eq, varR_eq, linR128_eq, linR64_eq, bnR_eq, lsmR_eq]

end Cert.Sage.Bridge

end
-- ==== Proof.lean ====
/-
  The certificate of a three-layer mean-aggregation graph network: the tiled program against the plain one, on the
  extended reals.

  Both programs compute, of the same sixteen argument arrays, the same function: two hidden layers — the mean over
  in-neighbours (rows gathered along the edges, summed per destination node, divided by the in-degree clamped below by
  one), the linear combine  h·Wself + agg·Wneigh + b,  batch normalisation over the rows with the per-column mean and
  variance, the rectifier — and an output layer: the same aggregation and linear combine to 64 columns, then the row-wise
  log-softmax. The tiled program computes the linear combine, the normalisation and the log-softmax on blocks of 5000
  rows; every row of each of these depends on that row of its matrix operands only (and on whole small operands), so the
  blocks are the restrictions of one whole-array function, and the twenty blocks cover the array. The aggregation, the
  column means and the column variances are the same host operations in both programs. Changes of float format are the
  identity on the extended reals, and the sums of a matrix product are the same sums in both programs, so no use is made
  of the inputs' finiteness.
-/
import proofs.«142724_j51462298140964_1_alg».proof.Defs
import proofs.«142724_j51462298140964_1_alg».proof.Proof.Gen.Kernel
import proofs.«142724_j51462298140964_1_alg».proof.Proof.Gen.Kernel.Skeleton
import proofs.«142724_j51462298140964_1_alg».proof.Proof.Gen.Kernel.Launch
import proofs.«142724_j51462298140964_1_alg».proof.Proof.Gen.Kernel.Points
import proofs.«142724_j51462298140964_1_alg».proof.Proof.Gen.Kernel.Frame
import proofs.«142724_j51462298140964_1_alg».proof.Proof.Gen.KernelIdeal
import proofs.«142724_j51462298140964_1_alg».proof.Proof.Gen.KernelIdeal.Skeleton
import proofs.«142724_j51462298140964_1_alg».proof.Proof.Gen.KernelIdeal.Launch
import proofs.«142724_j51462298140964_1_alg».proof.Proof.Gen.KernelIdeal.Points
import proofs.«142724_j51462298140964_1_alg».proof.Proof.Gen.KernelIdeal.Frame
import proofs.«142724_j51462298140964_1_alg».proof.Proof.Gen.ReferenceIdeal
import proofs.«142724_j51462298140964_1_alg».proof.Proof.Gen.Pre_finite_inputs
import proofs.«142724_j51462298140964_1_alg».proof.Proof.KRun
import proofs.«142724_j51462298140964_1_alg».proof.Proof.KValue
import proofs.«142724_j51462298140964_1_alg».proof.Proof.RefRun
import proofs.«142724_j51462298140964_1_alg».proof.Proof.Bridge
import Idealize.ShloMosaic.Adequacy
import Idealize.ShloMosaic.Init

noncomputable section

namespace Cert.Proof

open Idealize.ShloMosaic Idealize.SL.Sem

/-- The tiled program runs and leaves its arguments as launched. -/
theorem frame_k : Cert.frame_Kernel := fun m ρ _ => Cert.Kernel.Gen.frame m ρ

/-- The tiled program read on the extended reals runs and leaves its arguments as launched. -/
theorem frame_ki : Cert.frame_KernelIdeal := fun m ρ _ => Cert.KernelIdeal.Gen.frame m ρ

/-- The plain program runs and leaves its arguments as launched: its run, the result forgotten. -/
theorem frame_ri : Cert.frame_ReferenceIdeal := fun m ρ _ =>
  (θ_run Cert.ReferenceIdeal.defs _ _).mono (fun _ h c => (h c).2) (Cert.Sage.Ref.run m ρ)

/-- From memories that agree on the sixteen arguments both programs end with the network of those arguments in their
    result arrays. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c => ⟨(h c).1.trans (Cert.Sage.K.W15_v81 m ρ c), (h c).2⟩)
      (Cert.Sage.KRun.run_named m ρ)
  · refine (θ_run Cert.ReferenceIdeal.defs _ _).mono (fun r h c => ⟨?_, (h c).2⟩) (Cert.Sage.Ref.run m' ρ')
    obtain ⟨e0, e1, e2, e3, e4, e5, e6, e7, e8, e9, e10, e11, e12, e13, e14, e15⟩ := hagree c
    rw [(h c).1, Cert.Sage.Bridge.Rval_eq, e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
